-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144 : Shape := ⟨2, ![8, 262144]⟩
abbrev S8x8x262144 : Shape := ⟨3, ![8, 8, 262144]⟩
abbrev S8x8 : Shape := ⟨2, ![8, 8]⟩
abbrev S_ : Shape := ⟨0, ![]⟩

class Facts : Prop where
  bcast_S_S8x262144 : S_.BroadcastsInDim S8x262144 (![] : Fin 0 → Fin S8x262144.rank)
  reducesTo_S8x262144_S_d0_1 : S8x262144.ReducesTo [0, 1] S_
  h_S_ : 0 < S_.numel
  bcast_S_S8x8x262144 : S_.BroadcastsInDim S8x8x262144 (![] : Fin 0 → Fin S8x8x262144.rank)
  reducesTo_S8x8x262144_S_d0_1_2 : S8x8x262144.ReducesTo [0, 1, 2] S_

variable [Facts]

def fn_part1 {F : FTy → Type} [FloatOps F] (main_arg4 : FVec F S8x8x262144 .f32) (main_arg5 : FVec F S8x8x262144 .f32) (main_v13 : IVec S_ 1) (main_v16 : IVec S8x262144 1) : IVec S_ 1 :=
  let main_c_5 : IVec S_ 1 := constantI S_ 1 1#1
  let main_v17 : IVec S_ 1 := (fun x v => Host.reduce IntOp.andi x v reducesTo_S8x262144_S_d0_1 h_S_) main_v16 main_c_5
  let main_v18 : IVec S_ 1 := andi main_v13 main_v17
  let main_v19 : FVec F S8x8x262144 .f32 := Host.absf main_arg4
  let main_cst_6 : FVec F S_ .f32 := constant S_ .f32 0x7F800000#32
  let main_v20 : FVec F S8x8x262144 .f32 := broadcastInDim S8x8x262144 ![] bcast_S_S8x8x262144 main_cst_6
  let main_v21 : IVec S8x8x262144 1 := cmpf .olt main_v19 main_v20
  let main_c_7 : IVec S_ 1 := constantI S_ 1 1#1
  let main_v22 : IVec S_ 1 := (fun x v => Host.reduce IntOp.andi x v reducesTo_S8x8x262144_S_d0_1_2 h_S_) main_v21 main_c_7
  let main_v23 : IVec S_ 1 := andi main_v18 main_v22
  let main_v24 : FVec F S8x8x262144 .f32 := Host.absf main_arg5
  let main_cst_8 : FVec F S_ .f32 := constant S_ .f32 0x7F800000#32
  let main_v25 : FVec F S8x8x262144 .f32 := broadcastInDim S8x8x262144 ![] bcast_S_S8x8x262144 main_cst_8
  let main_v26 : IVec S8x8x262144 1 := cmpf .olt main_v24 main_v25
  let main_c_9 : IVec S_ 1 := constantI S_ 1 1#1
  let main_v27 : IVec S_ 1 := (fun x v => Host.reduce IntOp.andi x v reducesTo_S8x8x262144_S_d0_1_2 h_S_) main_v26 main_c_9
  let main_v28 : IVec S_ 1 := andi main_v23 main_v27
  main_v28

def fn {F : FTy → Type} [FloatOps F] (main_arg0 : FVec F S8x262144 .f32) (main_arg1 : FVec F S8x262144 .f32) (main_arg2 : FVec F S8x262144 .f32) (main_arg3 : FVec F S8x262144 .f32) (main_arg4 : FVec F S8x8x262144 .f32) (main_arg5 : FVec F S8x8x262144 .f32) (main_arg6 : IVec S8x8 32) : IVec S_ 1 :=
  let main_v0 : FVec F S8x262144 .f32 := Host.absf main_arg0
  let main_cst : FVec F S_ .f32 := constant S_ .f32 0x7F800000#32
  let main_v1 : FVec F S8x262144 .f32 := broadcastInDim S8x262144 ![] bcast_S_S8x262144 main_cst
  let main_v2 : IVec S8x262144 1 := cmpf .olt main_v0 main_v1
  let main_c : IVec S_ 1 := constantI S_ 1 1#1
  let main_v3 : IVec S_ 1 := (fun x v => Host.reduce IntOp.andi x v reducesTo_S8x262144_S_d0_1 h_S_) main_v2 main_c
  let main_v4 : FVec F S8x262144 .f32 := Host.absf main_arg1
  let main_cst_0 : FVec F S_ .f32 := constant S_ .f32 0x7F800000#32
  let main_v5 : FVec F S8x262144 .f32 := broadcastInDim S8x262144 ![] bcast_S_S8x262144 main_cst_0
  let main_v6 : IVec S8x262144 1 := cmpf .olt main_v4 main_v5
  let main_c_1 : IVec S_ 1 := constantI S_ 1 1#1
  let main_v7 : IVec S_ 1 := (fun x v => Host.reduce IntOp.andi x v reducesTo_S8x262144_S_d0_1 h_S_) main_v6 main_c_1
  let main_v8 : IVec S_ 1 := andi main_v3 main_v7
  let main_v9 : FVec F S8x262144 .f32 := Host.absf main_arg2
  let main_cst_2 : FVec F S_ .f32 := constant S_ .f32 0x7F800000#32
  let main_v10 : FVec F S8x262144 .f32 := broadcastInDim S8x262144 ![] bcast_S_S8x262144 main_cst_2
  let main_v11 : IVec S8x262144 1 := cmpf .olt main_v9 main_v10
  let main_c_3 : IVec S_ 1 := constantI S_ 1 1#1
  let main_v12 : IVec S_ 1 := (fun x v => Host.reduce IntOp.andi x v reducesTo_S8x262144_S_d0_1 h_S_) main_v11 main_c_3
  let main_v13 : IVec S_ 1 := andi main_v8 main_v12
  let main_v14 : FVec F S8x262144 .f32 := Host.absf main_arg3
  let main_cst_4 : FVec F S_ .f32 := constant S_ .f32 0x7F800000#32
  let main_v15 : FVec F S8x262144 .f32 := broadcastInDim S8x262144 ![] bcast_S_S8x262144 main_cst_4
  let main_v16 : IVec S8x262144 1 := cmpf .olt main_v14 main_v15
  fn_part1 (F := F) main_arg4 main_arg5 main_v13 main_v16
-- ==== Kernel.lean ====
abbrev S8x262144 : Shape := ⟨2, ![8, 262144]⟩
abbrev S8x8x262144 : Shape := ⟨3, ![8, 8, 262144]⟩
abbrev S8x8 : Shape := ⟨2, ![8, 8]⟩
abbrev S1x2 : Shape := ⟨2, ![1, 2]⟩
abbrev S8x16384 : Shape := ⟨2, ![8, 16384]⟩
abbrev S8 : Shape := ⟨1, ![8]⟩
abbrev S8x1 : Shape := ⟨2, ![8, 1]⟩
abbrev S1 : Shape := ⟨1, ![1]⟩
abbrev S1x1 : Shape := ⟨2, ![1, 1]⟩
abbrev S8x8x4096 : Shape := ⟨3, ![8, 8, 4096]⟩
abbrev S8x8x1 : Shape := ⟨3, ![8, 8, 1]⟩
abbrev S8x8x4095 : Shape := ⟨3, ![8, 8, 4095]⟩
abbrev S_ : Shape := ⟨0, ![]⟩

abbrev nBuf : Space → Nat
  | .hbm => 50
  | .vmem => 17
  | .smem => 0
  | _ => 0

abbrev bufTy : (tb : Table) → Fin (tcTables nBuf tb) → BufTy
  | .hbm, ⟨0, _⟩ => ⟨S8x262144, .f32⟩
  | .hbm, ⟨1, _⟩ => ⟨S8x262144, .f32⟩
  | .hbm, ⟨2, _⟩ => ⟨S8x262144, .f32⟩
  | .hbm, ⟨3, _⟩ => ⟨S8x262144, .f32⟩
  | .hbm, ⟨4, _⟩ => ⟨S8x8x262144, .f32⟩
  | .hbm, ⟨5, _⟩ => ⟨S8x8x262144, .f32⟩
  | .hbm, ⟨6, _⟩ => ⟨S8x8, .i32⟩
  | .hbm, ⟨7, _⟩ => ⟨S1x2, .f32⟩
  | .hbm, ⟨8, _⟩ => ⟨S1x1, .f32⟩
  | .hbm, ⟨9, _⟩ => ⟨S8x8, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x8, .f32⟩
  | .hbm, ⟨35, _⟩ => ⟨S8x8, .f32⟩
  | .hbm, ⟨36, _⟩ => ⟨S8x8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S8x16384, .f32⟩
  | .local _ .vmem, ⟨1, _⟩ => ⟨S8x16384, .f32⟩
  | .local _ .vmem, ⟨2, _⟩ => ⟨S8x16384, .f32⟩
  | .local _ .vmem, ⟨3, _⟩ => ⟨S8x16384, .f32⟩
  | .local _ .vmem, ⟨4, _⟩ => ⟨S8x16384, .f32⟩
  | .local _ .vmem, ⟨5, _⟩ => ⟨S8x16384, .f32⟩
  | .local _ .vmem, ⟨6, _⟩ => ⟨S8x16384, .f32⟩
  | .local _ .vmem, ⟨7, _⟩ => ⟨S8x16384, .f32⟩
  | .local _ .vmem, ⟨8, _⟩ => ⟨S1x2, .f32⟩
  | .local _ .vmem, ⟨9, _⟩ => ⟨S8x8x4096, .f32⟩
  | .local _ .vmem, ⟨10, _⟩ => ⟨S8x8x4096, .f32⟩
  | .local _ .vmem, ⟨11, _⟩ => ⟨S8x8x4096, .f32⟩
  | .local _ .vmem, ⟨12, _⟩ => ⟨S8x8x4096, .f32⟩
  | .local _ .vmem, ⟨13, _⟩ => ⟨S8x8, .i32⟩
  | .local _ .vmem, ⟨14, _⟩ => ⟨S1x1, .f32⟩
  | .local _ .vmem, ⟨15, _⟩ => ⟨S8x8, .f32⟩
  | .local _ .vmem, ⟨16, _⟩ => ⟨S8x8x1, .f32⟩
  | _, _ => ⟨S8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_cst_9 : Ref sig .tc := ⟨.hbm, 44, rfl⟩
abbrev main_v25 : Ref sig .tc := ⟨.hbm, 45, rfl⟩
abbrev main_cst_10 : Ref sig .tc := ⟨.hbm, 46, rfl⟩
abbrev main_call0_v0 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x8x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x2_S1x2_0_0 : ∀ a, (![0, 0] : Fin 2 → Nat) a + S1x2.size a ≤ S1x2.size a
  h_S1x2 : 0 < S1x2.numel
  inb_S8x16384_S8x16384_0_0 : ∀ a, (![0, 0] : Fin 2 → Nat) a + S8x16384.size a ≤ S8x16384.size a
  h_S8x16384 : 0 < S8x16384.numel
  reduces_S8x16384_S8 : S8x16384.Reduces [1] S8
  shapeCasts_S8_S8x1 : S8.ShapeCasts S8x1
  reduces_S8x1_S1 : S8x1.Reduces [0] S1
  shapeCasts_S1_S1x1 : S1.ShapeCasts S1x1
  shapeCasts_S1x2_S1x2 : S1x2.ShapeCasts S1x2
  concatenates_S1x1_S1x1_S1x2_d1 : Shape.Concatenates [S1x1, S1x1] S1x2 1
  inb_S1x1_S1x1_0_0 : ∀ a, (![0, 0] : Fin 2 → Nat) a + S1x1.size a ≤ S1x1.size a
  h_S1x1 : 0 < S1x1.numel
  inb_S8x8_S8x8_0_0 : ∀ a, (![0, 0] : Fin 2 → Nat) a + S8x8.size a ≤ S8x8.size a
  h_S8x8 : 0 < S8x8.numel
  inb_S8x8x4096_S8x8x4096_0_0_0 : ∀ a, (![0, 0, 0] : Fin 3 → Nat) a + S8x8x4096.size a ≤ S8x8x4096.size a
  h_S8x8x4096 : 0 < S8x8x4096.numel
  natLt_1_32 : 1 < 32
  shapeCasts_S8x8_S8x8x1 : S8x8.ShapeCasts S8x8x1
  broadcasts_S8x8x1_S8x8x4096 : S8x8x1.Broadcasts S8x8x4096
  reduces_S8x8x4096_S8x8 : S8x8x4096.Reduces [2] S8x8
  reduces_S8x8_S8 : S8x8.Reduces [1] S8
  shapeCasts_S1x1_S1x1 : S1x1.ShapeCasts S1x1
  slices_S8x8x4096_o0_0_1_S8x8x4095 : S8x8x4096.Slices ![0, 0, 1] S8x8x4095
  slices_S8x8x4096_o0_0_0_S8x8x4095 : S8x8x4096.Slices ![0, 0, 0] S8x8x4095
  reduces_S8x8x4095_S8x8 : S8x8x4095.Reduces [2] S8x8
  shapeCasts_S8x8_S8x8 : S8x8.ShapeCasts S8x8
  slices_S8x8x4096_o0_0_0_S8x8x1 : S8x8x4096.Slices ![0, 0, 0] S8x8x1
  slices_S8x8x4096_o0_0_4095_S8x8x1 : S8x8x4096.Slices ![0, 0, 4095] S8x8x1
  inb_S8x8x1_S8x8x1_0_0_0 : ∀ a, (![0, 0, 0] : Fin 3 → Nat) a + S8x8x1.size a ≤ S8x8x1.size a
  h_S8x8x1 : 0 < S8x8x1.numel
  reduces_S8x8x1_S8x8 : S8x8x1.Reduces [2] S8x8
  shapeCasts_S8x8x1_S8x8x1 : S8x8x1.ShapeCasts S8x8x1
  slices_S1x2_S1x1_0_0 : S1x2.Slices ![0, 0] S1x1
  shapeCasts_S1x1_S_ : S1x1.ShapeCasts S_
  slices_S1x2_S1x1_0_1 : S1x2.Slices ![0, 1] S1x1
  bcast_S_S8x8 : S_.BroadcastsInDim S8x8 (![] : Fin 0 → Fin S8x8.rank)
  reducesTo_S8x8_S_d0_1 : S8x8.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S8x262144.size a
  hwx0_0 : ∀ i : grid0.Coords, EltTy.bits .f32 = 32 ∨ (Rect.block (s := S8x262144) S8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S8x262144.size a
  hwx0_1 : ∀ i : grid0.Coords, EltTy.bits .f32 = 32 ∨ (Rect.block (s := S8x262144) S8x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16384.size a ≤ S8x262144.size a
  hwx0_2 : ∀ i : grid0.Coords, EltTy.bits .f32 = 32 ∨ (Rect.block (s := S8x262144) S8x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16384.size a ≤ S8x262144.size a
  hwx0_3 : ∀ i : grid0.Coords, EltTy.bits .f32 = 32 ∨ (Rect.block (s := S8x262144) S8x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x8x4096.size a ≤ S8x8x262144.size a
  hwx1_0 : ∀ i : grid1.Coords, EltTy.bits .f32 = 32 ∨ (Rect.block (s := S8x8x262144) S8x8x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x8x4096.size a ≤ S8x8x262144.size a
  hwx1_1 : ∀ i : grid1.Coords, EltTy.bits .f32 = 32 ∨ (Rect.block (s := S8x8x262144) S8x8x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x8.size a ≤ S8x8.size a
  hwx1_2 : ∀ i : grid1.Coords, EltTy.bits .i32 = 32 ∨ (Rect.block (s := S8x8) S8x8.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x8.size a ≤ S8x8.size a
  hwx1_4 : ∀ i : grid1.Coords, EltTy.bits .f32 = 32 ∨ (Rect.block (s := S8x8) S8x8.size (cc1_transform_4 i) (hinb1_4 i)).WholeWords (EltTy.packing .f32)

variable [Facts₀]

abbrev win0_0 : Pipeline.Window sig grid0 :=
  Pipeline.Window.ofSpec (Memref.whole main_arg0) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S8x8x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8x8x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S8x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S8x8.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x262144 : Shape := ⟨2, ![8, 262144]⟩
abbrev S8x8x262144 : Shape := ⟨3, ![8, 8, 262144]⟩
abbrev S8x8 : Shape := ⟨2, ![8, 8]⟩
abbrev S_ : Shape := ⟨0, ![]⟩
abbrev S8x8x1 : Shape := ⟨3, ![8, 8, 1]⟩
abbrev S8x8x262143 : Shape := ⟨3, ![8, 8, 262143]⟩

abbrev nBuf : Space → Nat
  | .hbm => 65
  | .vmem => 0
  | .smem => 0
  | _ => 0

abbrev bufTy : (tb : Table) → Fin (tcTables nBuf tb) → BufTy
  | .hbm, ⟨0, _⟩ => ⟨S8x262144, .f32⟩
  | .hbm, ⟨1, _⟩ => ⟨S8x262144, .f32⟩
  | .hbm, ⟨2, _⟩ => ⟨S8x262144, .f32⟩
  | .hbm, ⟨3, _⟩ => ⟨S8x262144, .f32⟩
  | .hbm, ⟨4, _⟩ => ⟨S8x8x262144, .f32⟩
  | .hbm, ⟨5, _⟩ => ⟨S8x8x262144, .f32⟩
  | .hbm, ⟨6, _⟩ => ⟨S8x8, .i32⟩
  | .hbm, ⟨7, _⟩ => ⟨S8x262144, .f32⟩
  | .hbm, ⟨8, _⟩ => ⟨S8x262144, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x262144, .f32⟩
  | .hbm, ⟨14, _⟩ => ⟨S8x262144, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S8x8x1, .f32⟩
  | .hbm, ⟨27, _⟩ => ⟨S8x8x262144, .f32⟩
  | .hbm, ⟨28, _⟩ => ⟨S8x8x262144, .f32⟩
  | .hbm, ⟨29, _⟩ => ⟨S8x8x262144, .f32⟩
  | .hbm, ⟨30, _⟩ => ⟨S8x8x262144, .f32⟩
  | .hbm, ⟨31, _⟩ => ⟨S8x8x262144, .f32⟩
  | .hbm, ⟨32, _⟩ => ⟨S8x8x262144, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x8x262143, .f32⟩
  | .hbm, ⟨41, _⟩ => ⟨S8x8x262143, .f32⟩
  | .hbm, ⟨42, _⟩ => ⟨S8x8x262143, .f32⟩
  | .hbm, ⟨43, _⟩ => ⟨S8x8x262143, .f32⟩
  | .hbm, ⟨44, _⟩ => ⟨S_, .f32⟩
  | .hbm, ⟨45, _⟩ => ⟨S8x8, .f32⟩
  | .hbm, ⟨46, _⟩ => ⟨S_, .f32⟩
  | .hbm, ⟨47, _⟩ => ⟨S8x8, .f32⟩
  | .hbm, ⟨48, _⟩ => ⟨S8x8, .f32⟩
  | .hbm, ⟨49, _⟩ => ⟨S_, .f32⟩
  | .hbm, ⟨50, _⟩ => ⟨S_, .f32⟩
  | .hbm, ⟨51, _⟩ => ⟨S8x8, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_cst_14 : Ref sig .tc := ⟨.hbm, 61, rfl⟩
abbrev main_call0_v0 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  reducesTo_S8x262144_S_d0_1 : S8x262144.ReducesTo [0, 1] S_
  h_S_ : 0 < S_.numel
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x262144_0_1_2 : S8x8x1.BroadcastsInDim S8x8x262144 (![0, 1, 2] : Fin 3 → Fin S8x8x262144.rank)
  reducesTo_S8x8x262144_S_d0_1_2 : S8x8x262144.ReducesTo [0, 1, 2] S_
  slices_S8x8x262144_S8x8x262143_0_0_1 : S8x8x262144.Slices ![0, 0, 1] S8x8x262143
  slices_S8x8x262144_S8x8x262143_0_0_0 : S8x8x262144.Slices ![0, 0, 0] S8x8x262143
  reducesTo_S8x8x262143_S8x8_d2 : S8x8x262143.ReducesTo [2] S8x8
  reducesTo_S8x8_S_d0_1 : S8x8.ReducesTo [0, 1] S_

variable [Facts₀]

class Facts : Prop extends Facts₀ where

variable [Facts]
-- ==== Proof.Kernel.Common.lean ====
/-
  What the two kernels' body runs and frames share. The first kernel (16 grid points) zeroes its [1,2] accumulator
  at the first point and adds a tile's two sums of squares at every point; the second (64 grid points) zeroes a [1,1]
  and an [8,8] accumulator at the first point, adds to them at every point, adds a boundary term at every point but
  the first, and carries the tile's last column in a scratch buffer from one point to the next. Here: the branch
  conditions as functions of the grid coordinate, decided over the grid in closed form; names for the staging
  buffers the pipeline passes at a point; and the second kernel's region invariant opened so that the carried
  scratch buffer can be named beside the other scoped buffers, which are held at contents nobody reads.
-/
import proofs.«167376_j249108103965_2_alg».proof.Proof.Gen.Kernel.Launch
import proofs.«167376_j249108103965_2_alg».proof.Proof.Gen.Kernel.Skeleton
import proofs.«167376_j249108103965_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first grid point", as the first kernel computes it from its coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the first grid point", as the second kernel computes it. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 64 = 0 :=
  (by decide +kernel : ∀ t : Fin grid1.N, cond1_0 (grid1.coords t) ↔ t.val % 64 = 0)

/-- "This is not the first grid point" (the coordinate is positive), as the second kernel computes it. -/
abbrev cond1_1 (i : grid1.Coords) : Prop := (Scalar.cmpi .ne (Scalar.extui (Scalar.cmpi .sgt (BitVec.ofNat 32 (i 0).val) 0#32)) 0#32) = 1#1
/-- It holds at every point but 0. -/
theorem hcond1_1 : ∀ t : Fin cfg1.N, cond1_1 (grid1.coords t) ↔ ¬ t.val % 64 = 0 :=
  (by decide +kernel : ∀ t : Fin grid1.N, cond1_1 (grid1.coords t) ↔ ¬ t.val % 64 = 0)

/-! ## The staging buffers at a point -/

abbrev ms0_0 (t : Fin cfg0.N) : Memref sig .tc .vmem S8x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x16384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2 .f32 := win0_4.stage (cfg0.slots t 4)
abbrev hs0_4 (t : Fin cfg0.N) : (ms0_4 t).IsWhole := hstage0_4 ((cfg0.slots t 4).cast nbuf0_4)
/-- The view through which the first kernel's accumulator contents are stated. -/
abbrev VO0_4 : View sig .tc .vmem S1x2 .f32 := (Memref.whole cc0_stg4_0 : Memref sig .tc .vmem S1x2 .f32).view

abbrev ms1_0 (t : Fin cfg1.N) : Memref sig .tc .vmem S8x8x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x8x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x8 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x8 .f32 := win1_4.stage (cfg1.slots t 4)
abbrev hs1_4 (t : Fin cfg1.N) : (ms1_4 t).IsWhole := hstage1_4 ((cfg1.slots t 4).cast nbuf1_4)
/-- The views through which the second kernel's two accumulators' contents are stated. -/
abbrev VO1_3 : View sig .tc .vmem S1x1 .f32 := (Memref.whole cc1_stg3_0 : Memref sig .tc .vmem S1x1 .f32).view
abbrev VO1_4 : View sig .tc .vmem S8x8 .f32 := (Memref.whole cc1_stg4_0 : Memref sig .tc .vmem S8x8 .f32).view
/-- The scratch buffer the second kernel carries a column in, as a whole memref and as a view. -/
abbrev scM1_0 : Memref sig .tc .vmem S8x8x1 .f32 := Memref.whole cc1_scratch0
abbrev VS1_0 : View sig .tc .vmem S8x8x1 .f32 := scM1_0.view

/-! ## The second kernel's region invariant, opened -/

/-- A scoped buffer held whole at contents nobody reads. -/
abbrev anyBuf (c : Dev nD) (b : Ref sig .tc) : sProp 𝕄 :=
  iprop(∃ f : Buf (Elt F) ((c : Thread nD τ).loc b), ((c : Thread nD τ).loc b) ↦{fullShare} f)

/-- The region invariant of the second kernel is: the first kernel's nine staging buffers at anything, the scratch
    buffer at some contents, and the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg1_1 ∗ anyBuf c cc0_stg2_0 ∗ anyBuf c cc0_stg2_1
          ∗ anyBuf c cc0_stg3_0 ∗ anyBuf c cc0_stg3_1 ∗ anyBuf c cc0_stg4_0 ∗ (∃ d, owns (c : Thread nD τ) scM1_0 fullShare d)) ∗ (∃ r, prngReg c r)) := by
  unfold Pipeline.ΦA; rw [scopedRest1_eq]; simp only [scM1_0, owns_whole]; try rfl

end Cert.Kernel.Frame

end
-- ==== Proof.Kernel.Run0A.lean ====
/-
  The first kernel's body run at the FIRST grid point, on any whole staging buffers: the four input tiles at given contents, the accumulator at anything. It stores zeros into the accumulator, then the zeros plus the tile's two sums of squares: two stores, each of the whole [1,2] buffer. The stores are found by running the body symbolically; the run is the proof that the body terminates without a fault and leaves exactly these stores.
-/
import proofs.«167376_j249108103965_2_alg».proof.Proof.Kernel.Common

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's buffer (last first), with the proof that from the inputs at `x0 … x3` and the accumulator at anything the body runs to a continuation that is handed the inputs back unchanged and the accumulator with these stores written. -/
noncomputable def kernelRun0_A (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__recon_kernel i arg1 harg1 arg2 harg2 arg3 harg3 arg4 harg4 arg5 harg5) K } := by
  refine ⟨?_, fun E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Frame

end
-- ==== Proof.Kernel.Run0B.lean ====
/-
  The first kernel's body run at a LATER grid point: the accumulator holds what the point before left (`xo4`), and the body stores that plus the tile's two sums of squares: one store of the whole [1,2] buffer.
-/
import proofs.«167376_j249108103965_2_alg».proof.Proof.Kernel.Run0A

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's buffer (last first), with the proof that from the inputs at `x0 … x3` and the accumulator at `xo4` the body runs to a continuation that is handed the inputs back unchanged and the accumulator with these stores written. -/
noncomputable def kernelRun0_B (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__recon_kernel i arg1 harg1 arg2 harg2 arg3 harg3 arg4 harg4 arg5 harg5) K } := by
  refine ⟨?_, fun E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Frame

end
-- ==== Proof.Kernel.Frame0.lean ====
/-
  The first kernel's region: what its [1,2] accumulator holds after each grid point, and the proof data and body
  obligation of its pipeline. The four inputs are tiled along the time axis, one tile of 16384 columns per point; the
  accumulator's block is the whole [1,2] array at every point, so its staging buffer is written back only after the
  last point and, at every point but the first, still holds what the point before left in it.
-/
import proofs.«167376_j249108103965_2_alg».proof.Proof.Kernel.Run0B

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator -/

/-- The first point's two stores cover the accumulator's buffer. -/
theorem cover0_A_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) (y : S1x2.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S1x2.size (by sl_kernel_rfl) y

/-- What the first point leaves in the accumulator: its stores read back. -/
def out0_A_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) : Vec F S1x2 .f32 :=
  VO0_4.read (Elt F) (VO0_4.writes (Elt F) VO0_4.junk (kernelRun0_A c i arg1 harg1 arg2 harg2 arg3 harg3 arg4 harg4 arg5 harg5 hc0 x0 x1 x2 x3).1)

/-- A later point's one store covers the accumulator's buffer. -/
theorem cover0_B_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) (y : S1x2.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S1x2.size (by sl_kernel_rfl) y

/-- What a later point leaves in the accumulator, given what it found there. -/
def out0_B_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) : Vec F S1x2 .f32 :=
  VO0_4.read (Elt F) (VO0_4.writes (Elt F) VO0_4.junk (kernelRun0_B c i arg1 harg1 arg2 harg2 arg3 harg3 arg4 harg4 arg5 harg5 hc0 x0 x1 x2 x3 xo4).1)

/-! ## The accumulation -/

/-- What the accumulator's staging buffer holds after the body at position `n`: the first point's contents at 0, and
    at `n + 1` a later point's contents over what position `n` left. -/
def outsAt0 (c : Dev nD) : (n : ℕ) → n < cfg0.N → Vec F S1x2 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _))
      (iblk0 V c 0 ⟨0, hn⟩) (iblk0 V c 1 ⟨0, hn⟩) (iblk0 V c 2 ⟨0, hn⟩) (iblk0 V c 3 ⟨0, hn⟩)
  | n + 1, hn =>
    if h0 : (n + 1) % 16 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0)
        (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h))
        (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At the first point: that case's contents. -/
theorem outsAt0_A (c : Dev nD) (t : Fin cfg0.N) (h0 : t.val % 16 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0)
      (iblk0 V c 0 t) (iblk0 V c 1 t) (iblk0 V c 2 t) (iblk0 V c 3 t) := by
  obtain ⟨n, hn⟩ := t
  cases n with
  | zero => exact rfl
  | succ n => exact (dif_pos h0).trans rfl

/-- At a later point: that case's contents over what the point before left. -/
theorem outsAt0_B (c : Dev nD) (t : Fin cfg0.N) (h0 : ¬t.val % 16 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulator's at `outsAt0`; the class's invariant (scoped buffers nobody reads, the generator register); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later point the accumulator's staging buffer holds what the body left at the point before: the buffer is not
    written back in between (only after the last point). -/
theorem before0_4_B (c : Dev nD) (t : Fin cfg0.N) (h0 : ¬t.val % 16 = 0) (d) :
    (dat0 V c).before 4 t d = outsAt0 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; at the first point the accumulator's buffer holds
    anything and the first-point run applies; at a later point it holds what the point before left and the later-point
    run applies; the invariant passes through unread; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 16 := lt_of_lt_of_eq t.isLt (show cfg0.N = 16 from N_0)
  by_cases h0 : t.val % 16 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.Run1A.lean ====
/-
  The second kernel's body run at the FIRST grid point, on any whole staging buffers: the two input tiles and the mask at given contents, both accumulators and the scratch buffer at anything. It zeroes both accumulators, adds the tile's masked sum of squares to the [1,1] one and each mode's in-tile squared differences to the [8,8] one, skips the boundary term, and stores the tile's last column into the scratch buffer.
-/
import proofs.«167376_j249108103965_2_alg».proof.Proof.Kernel.Common

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body leaves in the two accumulators' buffers and in the scratch buffer (last first), with the proof that the body runs to a continuation handed the inputs back unchanged and these three buffers with the stores written. -/
noncomputable def kernelRun1_A (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) :
    Σ' (L3 : List (View.Piece (Elt F) S1x1 .f32)) (L4 : List (View.Piece (Elt F) S8x8 .f32)), { LS0 : List (View.Piece (Elt F) S8x8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__ifsmooth_kernel i arg1 harg1 arg2 harg2 arg3 harg3 arg4 harg4 arg5 harg5 arg6 harg6) K } := by
  refine ⟨?_, ?_, ?_, fun E K => ?run⟩
  case run =>
    simp only [cc1__ifsmooth_kernel_eq_skeleton]; unfold cc1__ifsmooth_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

end Cert.Kernel.Frame

end
-- ==== Proof.Kernel.Run1B.lean ====
/-
  The second kernel's body run at a LATER grid point: the accumulators hold what the point before left (`xo3`, `xo4`) and the scratch buffer the previous tile's last column (`xs0`). It adds the tile's masked sum of squares and the in-tile squared differences, then the squared difference between this tile's first column and the carried column, and stores this tile's last column into the scratch buffer.
-/
import proofs.«167376_j249108103965_2_alg».proof.Proof.Kernel.Run1A

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body leaves in the two accumulators' buffers and in the scratch buffer (last first), with the proof that the body runs to a continuation handed the inputs back unchanged and these three buffers with the stores written. -/
noncomputable def kernelRun1_B (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) :
    Σ' (L3 : List (View.Piece (Elt F) S1x1 .f32)) (L4 : List (View.Piece (Elt F) S8x8 .f32)), { LS0 : List (View.Piece (Elt F) S8x8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__ifsmooth_kernel i arg1 harg1 arg2 harg2 arg3 harg3 arg4 harg4 arg5 harg5 arg6 harg6) K } := by
  refine ⟨?_, ?_, ?_, fun E K => ?run⟩
  case run =>
    simp only [cc1__ifsmooth_kernel_eq_skeleton]; unfold cc1__ifsmooth_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

end Cert.Kernel.Frame

end
-- ==== Proof.Kernel.Frame1.lean ====
/-
  The second kernel's region: what its [1,1] and [8,8] accumulators and its carried scratch column hold after each grid
  point, and the proof data, the region invariant and the body obligation of its pipeline. The two float inputs are
  tiled along the time axis, one tile of 4096 columns per point; the mask's block and both accumulators' blocks are
  whole arrays at every point (the accumulators are written back only after the last point). The scratch buffer is no
  window: between two points it is held by the region's invariant, at the contents the earlier point stored in it.
-/
import proofs.«167376_j249108103965_2_alg».proof.Proof.Kernel.Run1B

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the three tracked buffers -/

/-- The first point's stores cover the [1,1] accumulator's buffer. -/
theorem cover1_A_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) (y : S1x1.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S1x1.size (by sl_kernel_rfl) y
/-- What the first point leaves in the [1,1] accumulator. -/
def out1_A_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : Vec F S1x1 .f32 :=
  VO1_3.read (Elt F) (VO1_3.writes (Elt F) VO1_3.junk (kernelRun1_A c i arg1 harg1 arg2 harg2 arg3 harg3 arg4 harg4 arg5 harg5 arg6 harg6 hc0 hc1 x0 x1 x2).1)
/-- The first point's stores cover the [8,8] accumulator's buffer. -/
theorem cover1_A_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) (y : S8x8.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S8x8.size (by sl_kernel_rfl) y
/-- What the first point leaves in the [8,8] accumulator. -/
def out1_A_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : Vec F S8x8 .f32 :=
  VO1_4.read (Elt F) (VO1_4.writes (Elt F) VO1_4.junk (kernelRun1_A c i arg1 harg1 arg2 harg2 arg3 harg3 arg4 harg4 arg5 harg5 arg6 harg6 hc0 hc1 x0 x1 x2).2.1)
/-- The first point's store covers the scratch buffer. -/
theorem scover1_A_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) (y : S8x8x1.Idx) :
    ∃ pc ∈ (kernelRun1_A c i arg1 harg1 arg2 harg2 arg3 harg3 arg4 harg4 arg5 harg5 arg6 harg6 hc0 hc1 x0 x1 x2).2.2.1, y ∈ pc.1.set :=
  View.cover_of_tiledL (kernelRun1_A c i arg1 harg1 arg2 harg2 arg3 harg3 arg4 harg4 arg5 harg5 arg6 harg6 hc0 hc1 x0 x1 x2).2.2.1 S8x8x1.size (by sl_kernel_rfl) y
/-- What the first point leaves in the scratch buffer: the tile's last column. -/
def sout1_A_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : Vec F S8x8x1 .f32 :=
  VS1_0.read (Elt F) (VS1_0.writes (Elt F) VS1_0.junk (kernelRun1_A c i arg1 harg1 arg2 harg2 arg3 harg3 arg4 harg4 arg5 harg5 arg6 harg6 hc0 hc1 x0 x1 x2).2.2.1)
/-- A later point's store covers the [1,1] accumulator's buffer. -/
theorem cover1_B_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) (y : S1x1.Idx) :
    ∃ pc ∈ (kernelRun1_B c i arg1 harg1 arg2 harg2 arg3 harg3 arg4 harg4 arg5 harg5 arg6 harg6 hc0 hc1 x0 x1 x2 xo3 xo4 xs0).1, y ∈ pc.1.set :=
  View.cover_of_tiledL (kernelRun1_B c i arg1 harg1 arg2 harg2 arg3 harg3 arg4 harg4 arg5 harg5 arg6 harg6 hc0 hc1 x0 x1 x2 xo3 xo4 xs0).1 S1x1.size (by sl_kernel_rfl) y
/-- What a later point leaves in the [1,1] accumulator, given what it found in the three buffers. -/
def out1_B_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : Vec F S1x1 .f32 :=
  VO1_3.read (Elt F) (VO1_3.writes (Elt F) VO1_3.junk (kernelRun1_B c i arg1 harg1 arg2 harg2 arg3 harg3 arg4 harg4 arg5 harg5 arg6 harg6 hc0 hc1 x0 x1 x2 xo3 xo4 xs0).1)
/-- A later point's stores cover the [8,8] accumulator's buffer. -/
theorem cover1_B_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) (y : S8x8.Idx) :
    ∃ pc ∈ (kernelRun1_B c i arg1 harg1 arg2 harg2 arg3 harg3 arg4 harg4 arg5 harg5 arg6 harg6 hc0 hc1 x0 x1 x2 xo3 xo4 xs0).2.1, y ∈ pc.1.set :=
  View.cover_of_tiledL (kernelRun1_B c i arg1 harg1 arg2 harg2 arg3 harg3 arg4 harg4 arg5 harg5 arg6 harg6 hc0 hc1 x0 x1 x2 xo3 xo4 xs0).2.1 S8x8.size (by sl_kernel_rfl) y
/-- What a later point leaves in the [8,8] accumulator. -/
def out1_B_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : Vec F S8x8 .f32 :=
  VO1_4.read (Elt F) (VO1_4.writes (Elt F) VO1_4.junk (kernelRun1_B c i arg1 harg1 arg2 harg2 arg3 harg3 arg4 harg4 arg5 harg5 arg6 harg6 hc0 hc1 x0 x1 x2 xo3 xo4 xs0).2.1)
/-- A later point's store covers the scratch buffer. -/
theorem scover1_B_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) (y : S8x8x1.Idx) :
    ∃ pc ∈ (kernelRun1_B c i arg1 harg1 arg2 harg2 arg3 harg3 arg4 harg4 arg5 harg5 arg6 harg6 hc0 hc1 x0 x1 x2 xo3 xo4 xs0).2.2.1, y ∈ pc.1.set :=
  View.cover_of_tiledL (kernelRun1_B c i arg1 harg1 arg2 harg2 arg3 harg3 arg4 harg4 arg5 harg5 arg6 harg6 hc0 hc1 x0 x1 x2 xo3 xo4 xs0).2.2.1 S8x8x1.size (by sl_kernel_rfl) y
/-- What a later point leaves in the scratch buffer: the tile's last column. -/
def sout1_B_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : Vec F S8x8x1 .f32 :=
  VS1_0.read (Elt F) (VS1_0.writes (Elt F) VS1_0.junk (kernelRun1_B c i arg1 harg1 arg2 harg2 arg3 harg3 arg4 harg4 arg5 harg5 arg6 harg6 hc0 hc1 x0 x1 x2 xo3 xo4 xs0).2.2.1)

/-! ## The accumulation -/

/-- What the two accumulators' staging buffers and the scratch buffer hold after the body at position `n` (in that
    order): the first point's contents at 0; at `n + 1` a later point's contents over what position `n` left. -/
def outsAt1 (c : Dev nD) : (n : ℕ) → n < cfg1.N → Vec F S1x1 .f32 × Vec F S8x8 .f32 × Vec F S8x8x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩))
  | n + 1, hn =>
    if h0 : (n + 1) % 64 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2)

/-- At the first point: that case's contents. -/
theorem outsAt1_A (c : Dev nD) (t : Fin cfg1.N) (h0 : t.val % 64 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => (hcond1_1 t).mp h h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => (hcond1_1 t).mp h h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => (hcond1_1 t).mp h h0) (iblk1 V c 0 t) (iblk1 V c 1 t) (iblk1 V c 2 t)) := by
  obtain ⟨n, hn⟩ := t
  cases n with
  | zero => exact rfl
  | succ n => exact (dif_pos h0).trans rfl

/-- At a later point: that case's contents over what the point before left. -/
theorem outsAt1_B (c : Dev nD) (t : Fin cfg1.N) (h0 : ¬t.val % 64 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant: the carried scratch column named between points -/

/-- Before the first point the class's invariant (every scoped buffer at anything); before position `n + 1` the other
    scoped buffers at anything, the scratch buffer at what position `n` stored in it, the generator register at some state. -/
def PhiS (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ owns (c : Thread nD τ) scM1_0 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ owns (c : Thread nD τ) scM1_0 fullShare ((outsAt1 V c n hn).2.2)) ∗ (∃ r, prngReg c r)) := rfl

theorem PhiS_pos (c : Dev nD) (n : ℕ) (h : n ≤ cfg1.N) (hz : n ≠ 0) :
    PhiS V c n h = iprop(iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ owns (c : Thread nD τ) scM1_0 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a later point each accumulator's staging buffer holds what the body left at the point before (neither is
    written back before the last point). -/
theorem before1_3_B (c : Dev nD) (t : Fin cfg1.N) (h0 : ¬t.val % 64 = 0) (d) :
    (dat1 V c).before 3 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 64 = 0) (d) :
    (dat1 V c).before 4 t d = (outsAt1 V c (t.val - 1) (Nat.lt_of_le_of_lt (Nat.sub_le _ _) t.isLt)).2.1 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' buffers hold their blocks; at the first point the two accumulators and the
    scratch buffer hold anything; at a later point the accumulators hold what the point before left and the invariant
    hands over the scratch buffer at the column that point stored; either way the invariant takes the scratch buffer
    back at this point's column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  have hN : t.val < 64 := lt_of_lt_of_eq t.isLt (show cfg1.N = 64 from N_1)
  by_cases h0 : t.val % 64 = 0
  · have hz : t.val = 0 := by omega
    rw [outsAt1_A V c t h0]
    unfold out1_A_3 out1_A_4 sout1_A_0; (try dsimp only)
    rw [PhiS_castSucc V c t, PhiS_zero V c _ _ hz, PhiA1_eq]
    iintro ⟨⟨⟨Hb1, Hb2, Hb3, Hb4, Hb5, Hb6, Hb7, Hb8, Hb9, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => (hcond1_1 t).mp h h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [Hb1 Hb2 Hb3 Hb4 Hb5 Hb6 Hb7 Hb8 Hb9 HS0 Hg]
    · isplitl [Hb1 Hb2 Hb3 Hb4 Hb5 Hb6 Hb7 Hb8 Hb9 HS0]
      · skip
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        unfold owns; iexists _; isplitr
        swap; · iexact HS0
        ipureintro; exact View.read_writes_of_cover _ _ _ _ _ (scover1_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _ _)
    unfold owns; iexists _; isplitr
    swap; · iexact H4
    ipureintro; exact View.read_writes_of_cover _ _ _ _ _ (cover1_A_4 c _ _ _ _ _ _ _ _ _ _ _ _ _ _ _ _ _ _)
  · have hz : t.val ≠ 0 := fun e => h0 (by rw [e])
    rw [outsAt1_B V c t h0]
    simp only [before1_3_B V c t h0, before1_4_B V c t h0]
    unfold out1_B_3 out1_B_4 sout1_B_0; (try dsimp only)
    rw [PhiS_castSucc V c t, PhiS_pos V c _ _ hz]
    iintro ⟨⟨⟨Hb1, Hb2, Hb3, Hb4, Hb5, Hb6, Hb7, Hb8, Hb9, HS0⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) ((hcond1_1 t).mpr h0) (iblk1 V c 0 t) (iblk1 V c 1 t) (iblk1 V c 2 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, ⟨%e3, H3⟩, ⟨%e4, H4⟩, ⟨%es0, HS0⟩⟩
    isplitl [Hb1 Hb2 Hb3 Hb4 Hb5 Hb6 Hb7 Hb8 Hb9 HS0 Hg]
    · isplitl [Hb1 Hb2 Hb3 Hb4 Hb5 Hb6 Hb7 Hb8 Hb9 HS0]
      · skip
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        unfold owns; iexists _; isplitr
        swap; · iexact HS0
        ipureintro; exact View.read_writes_of_cover _ _ _ _ _ (scover1_B_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the carried column is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, Hb6, Hb7, Hb8, Hb9, HS0⟩, Hg⟩
  isplitl [Hb1 Hb2 Hb3 Hb4 Hb5 Hb6 Hb7 Hb8 Hb9 HS0]
  · skip
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Frame

end
-- ==== Proof.Kernel.Run.lean ====
/-
  The whole program's run: the two kernel regions and then the three stretches of host operations, from the launch to
  the return. The contents of every unscoped buffer are followed from one segment boundary to the next (`W0` at launch,
  `W1` after the first region, `W2` after the second, `W3`, `W4`, `W5` after each host stretch); every weakly fair
  execution terminates without a fault in a memory that holds each buffer at `W5`: in particular the four results at
  what the host operations compute from the two regions' accumulators, and the seven arguments as launched.
-/
import proofs.«167376_j249108103965_2_alg».proof.Proof.Kernel.Frame0
import proofs.«167376_j249108103965_2_alg».proof.Proof.Kernel.Frame1
import proofs.«167376_j249108103965_2_alg».proof.Proof.Gen.Kernel.Regions
import Idealize.ShloMosaic.Lib.Pipeline.RegionsLoop

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each segment boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves (the inputs as entered, each output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At region 1's exit: its arrays at what the pipeline leaves (the inputs as entered, each output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- After each of the three host stretches. -/
abbrev W3 : Dev nD → Valuation τ sig (Elt F) := fun c => StableHlo.after hostOps2 (W2 m ρ c)
abbrev W4 : Dev nD → Valuation τ sig (Elt F) := fun c => StableHlo.after hostOps2_1 (W3 m ρ c)
abbrev W5 : Dev nD → Valuation τ sig (Elt F) := fun c => StableHlo.after hostOps2_2 (W4 m ρ c)

/-! ### The arguments end as launched: no host operation writes one and a region only reads them -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2_2 _ hostOps2_2_writes (r := main_arg0) (by decide)
    _ = W3 m ρ c (Proc.devRef .tc main_arg0) := StableHlo.after_of_writes_sub hostOps2_1 _ hostOps2_1_writes (r := main_arg0) (by decide)
    _ = W2 m ρ c (Proc.devRef .tc main_arg0) := StableHlo.after_of_writes_sub hostOps2 _ hostOps2_writes (r := main_arg0) (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2_2 _ hostOps2_2_writes (r := main_arg1) (by decide)
    _ = W3 m ρ c (Proc.devRef .tc main_arg1) := StableHlo.after_of_writes_sub hostOps2_1 _ hostOps2_1_writes (r := main_arg1) (by decide)
    _ = W2 m ρ c (Proc.devRef .tc main_arg1) := StableHlo.after_of_writes_sub hostOps2 _ hostOps2_writes (r := main_arg1) (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2_2 _ hostOps2_2_writes (r := main_arg2) (by decide)
    _ = W3 m ρ c (Proc.devRef .tc main_arg2) := StableHlo.after_of_writes_sub hostOps2_1 _ hostOps2_1_writes (r := main_arg2) (by decide)
    _ = W2 m ρ c (Proc.devRef .tc main_arg2) := StableHlo.after_of_writes_sub hostOps2 _ hostOps2_writes (r := main_arg2) (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2_2 _ hostOps2_2_writes (r := main_arg3) (by decide)
    _ = W3 m ρ c (Proc.devRef .tc main_arg3) := StableHlo.after_of_writes_sub hostOps2_1 _ hostOps2_1_writes (r := main_arg3) (by decide)
    _ = W2 m ρ c (Proc.devRef .tc main_arg3) := StableHlo.after_of_writes_sub hostOps2 _ hostOps2_writes (r := main_arg3) (by decide)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2_2 _ hostOps2_2_writes (r := main_arg4) (by decide)
    _ = W3 m ρ c (Proc.devRef .tc main_arg4) := StableHlo.after_of_writes_sub hostOps2_1 _ hostOps2_1_writes (r := main_arg4) (by decide)
    _ = W2 m ρ c (Proc.devRef .tc main_arg4) := StableHlo.after_of_writes_sub hostOps2 _ hostOps2_writes (r := main_arg4) (by decide)
    _ = W1 m ρ c (Proc.devRef .tc main_arg4) := (W2_arr m ρ c 0).trans (((dat1 (V1 m ρ) c).arrAt_in 0 rfl _).trans (A_eq1 (V1 m ρ) c 0))
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2_2 _ hostOps2_2_writes (r := main_arg5) (by decide)
    _ = W3 m ρ c (Proc.devRef .tc main_arg5) := StableHlo.after_of_writes_sub hostOps2_1 _ hostOps2_1_writes (r := main_arg5) (by decide)
    _ = W2 m ρ c (Proc.devRef .tc main_arg5) := StableHlo.after_of_writes_sub hostOps2 _ hostOps2_writes (r := main_arg5) (by decide)
    _ = W1 m ρ c (Proc.devRef .tc main_arg5) := (W2_arr m ρ c 1).trans (((dat1 (V1 m ρ) c).arrAt_in 1 rfl _).trans (A_eq1 (V1 m ρ) c 1))
    _ = W0 m ρ c (Proc.devRef .tc main_arg5) := W1_of_ne m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2_2 _ hostOps2_2_writes (r := main_arg6) (by decide)
    _ = W3 m ρ c (Proc.devRef .tc main_arg6) := StableHlo.after_of_writes_sub hostOps2_1 _ hostOps2_1_writes (r := main_arg6) (by decide)
    _ = W2 m ρ c (Proc.devRef .tc main_arg6) := StableHlo.after_of_writes_sub hostOps2 _ hostOps2_writes (r := main_arg6) (by decide)
    _ = W1 m ρ c (Proc.devRef .tc main_arg6) := (W2_arr m ρ c 2).trans (((dat1 (V1 m ρ) c).arrAt_in 2 rfl _).trans (A_eq1 (V1 m ρ) c 2))
    _ = W0 m ρ c (Proc.devRef .tc main_arg6) := W1_of_ne m ρ c main_arg6 (by decide)
    _ = m ((c : Thread nD τ).loc main_arg6) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, in a
    memory that holds each of the four results at the last boundary's contents and each argument as launched. -/
theorem run_results : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_v8) = W5 m ρ c (Proc.devRef .tc main_v8)
      ∧ r.2.mem ((c.tc : Thread nD τ).loc main_v11) = W5 m ρ c (Proc.devRef .tc main_v11)
      ∧ r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v27 (by decide)), h c _ (mem_uc main_v8 (by decide)), h c _ (mem_uc main_v11 (by decide)), h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- info: 'Cert.Kernel.Frame.run_results' depends on axioms: [propext, Classical.choice, Quot.sound] -/
#guard_msgs in #print axioms run_results

end Cert.Kernel.Frame

end
-- ==== Proof.KernelIdeal.Common.lean ====
/-
  What the two kernels' body runs and frames share. The first kernel (16 grid points) zeroes its [1,2] accumulator
  at the first point and adds a tile's two sums of squares at every point; the second (64 grid points) zeroes a [1,1]
  and an [8,8] accumulator at the first point, adds to them at every point, adds a boundary term at every point but
  the first, and carries the tile's last column in a scratch buffer from one point to the next. Here: the branch
  conditions as functions of the grid coordinate, decided over the grid in closed form; names for the staging
  buffers the pipeline passes at a point; and the second kernel's region invariant opened so that the carried
  scratch buffer can be named beside the other scoped buffers, which are held at contents nobody reads.
-/
import proofs.«167376_j249108103965_2_alg».proof.Proof.Gen.KernelIdeal.Launch
import proofs.«167376_j249108103965_2_alg».proof.Proof.Gen.KernelIdeal.Skeleton
import proofs.«167376_j249108103965_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first grid point", as the first kernel computes it from its coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the first grid point", as the second kernel computes it. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 64 = 0 :=
  (by decide +kernel : ∀ t : Fin grid1.N, cond1_0 (grid1.coords t) ↔ t.val % 64 = 0)

/-- "This is not the first grid point" (the coordinate is positive), as the second kernel computes it. -/
abbrev cond1_1 (i : grid1.Coords) : Prop := (Scalar.cmpi .ne (Scalar.extui (Scalar.cmpi .sgt (BitVec.ofNat 32 (i 0).val) 0#32)) 0#32) = 1#1
/-- It holds at every point but 0. -/
theorem hcond1_1 : ∀ t : Fin cfg1.N, cond1_1 (grid1.coords t) ↔ ¬ t.val % 64 = 0 :=
  (by decide +kernel : ∀ t : Fin grid1.N, cond1_1 (grid1.coords t) ↔ ¬ t.val % 64 = 0)

/-! ## The staging buffers at a point -/

abbrev ms0_0 (t : Fin cfg0.N) : Memref sig .tc .vmem S8x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x16384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2 .f32 := win0_4.stage (cfg0.slots t 4)
abbrev hs0_4 (t : Fin cfg0.N) : (ms0_4 t).IsWhole := hstage0_4 ((cfg0.slots t 4).cast nbuf0_4)
/-- The view through which the first kernel's accumulator contents are stated. -/
abbrev VO0_4 : View sig .tc .vmem S1x2 .f32 := (Memref.whole cc0_stg4_0 : Memref sig .tc .vmem S1x2 .f32).view

abbrev ms1_0 (t : Fin cfg1.N) : Memref sig .tc .vmem S8x8x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x8x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x8 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x8 .f32 := win1_4.stage (cfg1.slots t 4)
abbrev hs1_4 (t : Fin cfg1.N) : (ms1_4 t).IsWhole := hstage1_4 ((cfg1.slots t 4).cast nbuf1_4)
/-- The views through which the second kernel's two accumulators' contents are stated. -/
abbrev VO1_3 : View sig .tc .vmem S1x1 .f32 := (Memref.whole cc1_stg3_0 : Memref sig .tc .vmem S1x1 .f32).view
abbrev VO1_4 : View sig .tc .vmem S8x8 .f32 := (Memref.whole cc1_stg4_0 : Memref sig .tc .vmem S8x8 .f32).view
/-- The scratch buffer the second kernel carries a column in, as a whole memref and as a view. -/
abbrev scM1_0 : Memref sig .tc .vmem S8x8x1 .f32 := Memref.whole cc1_scratch0
abbrev VS1_0 : View sig .tc .vmem S8x8x1 .f32 := scM1_0.view

/-! ## The second kernel's region invariant, opened -/

/-- A scoped buffer held whole at contents nobody reads. -/
abbrev anyBuf (c : Dev nD) (b : Ref sig .tc) : sProp 𝕄 :=
  iprop(∃ f : Buf (Elt F) ((c : Thread nD τ).loc b), ((c : Thread nD τ).loc b) ↦{fullShare} f)

/-- The region invariant of the second kernel is: the first kernel's nine staging buffers at anything, the scratch
    buffer at some contents, and the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg1_1 ∗ anyBuf c cc0_stg2_0 ∗ anyBuf c cc0_stg2_1
          ∗ anyBuf c cc0_stg3_0 ∗ anyBuf c cc0_stg3_1 ∗ anyBuf c cc0_stg4_0 ∗ (∃ d, owns (c : Thread nD τ) scM1_0 fullShare d)) ∗ (∃ r, prngReg c r)) := by
  unfold Pipeline.ΦA; rw [scopedRest1_eq]; simp only [scM1_0, owns_whole]; try rfl

end Cert.KernelIdeal.Frame

end
-- ==== Proof.KernelIdeal.Run0A.lean ====
/-
  The first kernel's body run at the FIRST grid point, on any whole staging buffers: the four input tiles at given contents, the accumulator at anything. It stores zeros into the accumulator, then the zeros plus the tile's two sums of squares: two stores, each of the whole [1,2] buffer. The stores are found by running the body symbolically; the run is the proof that the body terminates without a fault and leaves exactly these stores.
-/
import proofs.«167376_j249108103965_2_alg».proof.Proof.KernelIdeal.Common

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's buffer (last first), with the proof that from the inputs at `x0 … x3` and the accumulator at anything the body runs to a continuation that is handed the inputs back unchanged and the accumulator with these stores written. -/
noncomputable def kernelRun0_A (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__recon_kernel i arg1 harg1 arg2 harg2 arg3 harg3 arg4 harg4 arg5 harg5) K } := by
  refine ⟨?_, fun E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Frame

end
-- ==== Proof.KernelIdeal.Run0B.lean ====
/-
  The first kernel's body run at a LATER grid point: the accumulator holds what the point before left (`xo4`), and the body stores that plus the tile's two sums of squares: one store of the whole [1,2] buffer.
-/
import proofs.«167376_j249108103965_2_alg».proof.Proof.KernelIdeal.Run0A

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's buffer (last first), with the proof that from the inputs at `x0 … x3` and the accumulator at `xo4` the body runs to a continuation that is handed the inputs back unchanged and the accumulator with these stores written. -/
noncomputable def kernelRun0_B (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) :
    { L4 : List (View.Piece (Elt F) S1x2 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__recon_kernel i arg1 harg1 arg2 harg2 arg3 harg3 arg4 harg4 arg5 harg5) K } := by
  refine ⟨?_, fun E K => ?run⟩
  case run =>
    simp only [cc0__recon_kernel_eq_skeleton]; unfold cc0__recon_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Frame

end
-- ==== Proof.KernelIdeal.Frame0.lean ====
/-
  The first kernel's region: what its [1,2] accumulator holds after each grid point, and the proof data and body
  obligation of its pipeline. The four inputs are tiled along the time axis, one tile of 16384 columns per point; the
  accumulator's block is the whole [1,2] array at every point, so its staging buffer is written back only after the
  last point and, at every point but the first, still holds what the point before left in it.
-/
import proofs.«167376_j249108103965_2_alg».proof.Proof.KernelIdeal.Run0B

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator -/

/-- The first point's two stores cover the accumulator's buffer. -/
theorem cover0_A_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) (y : S1x2.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S1x2.size (by sl_kernel_rfl) y

/-- What the first point leaves in the accumulator: its stores read back. -/
def out0_A_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) : Vec F S1x2 .f32 :=
  VO0_4.read (Elt F) (VO0_4.writes (Elt F) VO0_4.junk (kernelRun0_A c i arg1 harg1 arg2 harg2 arg3 harg3 arg4 harg4 arg5 harg5 hc0 x0 x1 x2 x3).1)

/-- A later point's one store covers the accumulator's buffer. -/
theorem cover0_B_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) (y : S1x2.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S1x2.size (by sl_kernel_rfl) y

/-- What a later point leaves in the accumulator, given what it found there. -/
def out0_B_4 (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) : Vec F S1x2 .f32 :=
  VO0_4.read (Elt F) (VO0_4.writes (Elt F) VO0_4.junk (kernelRun0_B c i arg1 harg1 arg2 harg2 arg3 harg3 arg4 harg4 arg5 harg5 hc0 x0 x1 x2 x3 xo4).1)

/-! ## The accumulation -/

/-- What the accumulator's staging buffer holds after the body at position `n`: the first point's contents at 0, and
    at `n + 1` a later point's contents over what position `n` left. -/
def outsAt0 (c : Dev nD) : (n : ℕ) → n < cfg0.N → Vec F S1x2 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _))
      (iblk0 V c 0 ⟨0, hn⟩) (iblk0 V c 1 ⟨0, hn⟩) (iblk0 V c 2 ⟨0, hn⟩) (iblk0 V c 3 ⟨0, hn⟩)
  | n + 1, hn =>
    if h0 : (n + 1) % 16 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0)
        (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h))
        (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- At the first point: that case's contents. -/
theorem outsAt0_A (c : Dev nD) (t : Fin cfg0.N) (h0 : t.val % 16 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0)
      (iblk0 V c 0 t) (iblk0 V c 1 t) (iblk0 V c 2 t) (iblk0 V c 3 t) := by
  obtain ⟨n, hn⟩ := t
  cases n with
  | zero => exact rfl
  | succ n => exact (dif_pos h0).trans rfl

/-- At a later point: that case's contents over what the point before left. -/
theorem outsAt0_B (c : Dev nD) (t : Fin cfg0.N) (h0 : ¬t.val % 16 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulator's at `outsAt0`; the class's invariant (scoped buffers nobody reads, the generator register); nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a later point the accumulator's staging buffer holds what the body left at the point before: the buffer is not
    written back in between (only after the last point). -/
theorem before0_4_B (c : Dev nD) (t : Fin cfg0.N) (h0 : ¬t.val % 16 = 0) (d) :
    (dat0 V c).before 4 t d = outsAt0 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; at the first point the accumulator's buffer holds
    anything and the first-point run applies; at a later point it holds what the point before left and the later-point
    run applies; the invariant passes through unread; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 16 := lt_of_lt_of_eq t.isLt (show cfg0.N = 16 from N_0)
  by_cases h0 : t.val % 16 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.Run1A.lean ====
/-
  The second kernel's body run at the FIRST grid point, on any whole staging buffers: the two input tiles and the mask at given contents, both accumulators and the scratch buffer at anything. It zeroes both accumulators, adds the tile's masked sum of squares to the [1,1] one and each mode's in-tile squared differences to the [8,8] one, skips the boundary term, and stores the tile's last column into the scratch buffer.
-/
import proofs.«167376_j249108103965_2_alg».proof.Proof.KernelIdeal.Common

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body leaves in the two accumulators' buffers and in the scratch buffer (last first), with the proof that the body runs to a continuation handed the inputs back unchanged and these three buffers with the stores written. -/
noncomputable def kernelRun1_A (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) :
    Σ' (L3 : List (View.Piece (Elt F) S1x1 .f32)) (L4 : List (View.Piece (Elt F) S8x8 .f32)), { LS0 : List (View.Piece (Elt F) S8x8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__ifsmooth_kernel i arg1 harg1 arg2 harg2 arg3 harg3 arg4 harg4 arg5 harg5 arg6 harg6) K } := by
  refine ⟨?_, ?_, ?_, fun E K => ?run⟩
  case run =>
    simp only [cc1__ifsmooth_kernel_eq_skeleton]; unfold cc1__ifsmooth_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

end Cert.KernelIdeal.Frame

end
-- ==== Proof.KernelIdeal.Run1B.lean ====
/-
  The second kernel's body run at a LATER grid point: the accumulators hold what the point before left (`xo3`, `xo4`) and the scratch buffer the previous tile's last column (`xs0`). It adds the tile's masked sum of squares and the in-tile squared differences, then the squared difference between this tile's first column and the carried column, and stores this tile's last column into the scratch buffer.
-/
import proofs.«167376_j249108103965_2_alg».proof.Proof.KernelIdeal.Run1A

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body leaves in the two accumulators' buffers and in the scratch buffer (last first), with the proof that the body runs to a continuation handed the inputs back unchanged and these three buffers with the stores written. -/
noncomputable def kernelRun1_B (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) :
    Σ' (L3 : List (View.Piece (Elt F) S1x1 .f32)) (L4 : List (View.Piece (Elt F) S8x8 .f32)), { LS0 : List (View.Piece (Elt F) S8x8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__ifsmooth_kernel i arg1 harg1 arg2 harg2 arg3 harg3 arg4 harg4 arg5 harg5 arg6 harg6) K } := by
  refine ⟨?_, ?_, ?_, fun E K => ?run⟩
  case run =>
    simp only [cc1__ifsmooth_kernel_eq_skeleton]; unfold cc1__ifsmooth_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS0

end Cert.KernelIdeal.Frame

end
-- ==== Proof.KernelIdeal.Frame1.lean ====
/-
  The second kernel's region: what its [1,1] and [8,8] accumulators and its carried scratch column hold after each grid
  point, and the proof data, the region invariant and the body obligation of its pipeline. The two float inputs are
  tiled along the time axis, one tile of 4096 columns per point; the mask's block and both accumulators' blocks are
  whole arrays at every point (the accumulators are written back only after the last point). The scratch buffer is no
  window: between two points it is held by the region's invariant, at the contents the earlier point stored in it.
-/
import proofs.«167376_j249108103965_2_alg».proof.Proof.KernelIdeal.Run1B

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the three tracked buffers -/

/-- The first point's stores cover the [1,1] accumulator's buffer. -/
theorem cover1_A_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) (y : S1x1.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S1x1.size (by sl_kernel_rfl) y
/-- What the first point leaves in the [1,1] accumulator. -/
def out1_A_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : Vec F S1x1 .f32 :=
  VO1_3.read (Elt F) (VO1_3.writes (Elt F) VO1_3.junk (kernelRun1_A c i arg1 harg1 arg2 harg2 arg3 harg3 arg4 harg4 arg5 harg5 arg6 harg6 hc0 hc1 x0 x1 x2).1)
/-- The first point's stores cover the [8,8] accumulator's buffer. -/
theorem cover1_A_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) (y : S8x8.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S8x8.size (by sl_kernel_rfl) y
/-- What the first point leaves in the [8,8] accumulator. -/
def out1_A_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : Vec F S8x8 .f32 :=
  VO1_4.read (Elt F) (VO1_4.writes (Elt F) VO1_4.junk (kernelRun1_A c i arg1 harg1 arg2 harg2 arg3 harg3 arg4 harg4 arg5 harg5 arg6 harg6 hc0 hc1 x0 x1 x2).2.1)
/-- The first point's store covers the scratch buffer. -/
theorem scover1_A_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) (y : S8x8x1.Idx) :
    ∃ pc ∈ (kernelRun1_A c i arg1 harg1 arg2 harg2 arg3 harg3 arg4 harg4 arg5 harg5 arg6 harg6 hc0 hc1 x0 x1 x2).2.2.1, y ∈ pc.1.set :=
  View.cover_of_tiledL (kernelRun1_A c i arg1 harg1 arg2 harg2 arg3 harg3 arg4 harg4 arg5 harg5 arg6 harg6 hc0 hc1 x0 x1 x2).2.2.1 S8x8x1.size (by sl_kernel_rfl) y
/-- What the first point leaves in the scratch buffer: the tile's last column. -/
def sout1_A_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : Vec F S8x8x1 .f32 :=
  VS1_0.read (Elt F) (VS1_0.writes (Elt F) VS1_0.junk (kernelRun1_A c i arg1 harg1 arg2 harg2 arg3 harg3 arg4 harg4 arg5 harg5 arg6 harg6 hc0 hc1 x0 x1 x2).2.2.1)
/-- A later point's store covers the [1,1] accumulator's buffer. -/
theorem cover1_B_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) (y : S1x1.Idx) :
    ∃ pc ∈ (kernelRun1_B c i arg1 harg1 arg2 harg2 arg3 harg3 arg4 harg4 arg5 harg5 arg6 harg6 hc0 hc1 x0 x1 x2 xo3 xo4 xs0).1, y ∈ pc.1.set :=
  View.cover_of_tiledL (kernelRun1_B c i arg1 harg1 arg2 harg2 arg3 harg3 arg4 harg4 arg5 harg5 arg6 harg6 hc0 hc1 x0 x1 x2 xo3 xo4 xs0).1 S1x1.size (by sl_kernel_rfl) y
/-- What a later point leaves in the [1,1] accumulator, given what it found in the three buffers. -/
def out1_B_3 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : Vec F S1x1 .f32 :=
  VO1_3.read (Elt F) (VO1_3.writes (Elt F) VO1_3.junk (kernelRun1_B c i arg1 harg1 arg2 harg2 arg3 harg3 arg4 harg4 arg5 harg5 arg6 harg6 hc0 hc1 x0 x1 x2 xo3 xo4 xs0).1)
/-- A later point's stores cover the [8,8] accumulator's buffer. -/
theorem cover1_B_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) (y : S8x8.Idx) :
    ∃ pc ∈ (kernelRun1_B c i arg1 harg1 arg2 harg2 arg3 harg3 arg4 harg4 arg5 harg5 arg6 harg6 hc0 hc1 x0 x1 x2 xo3 xo4 xs0).2.1, y ∈ pc.1.set :=
  View.cover_of_tiledL (kernelRun1_B c i arg1 harg1 arg2 harg2 arg3 harg3 arg4 harg4 arg5 harg5 arg6 harg6 hc0 hc1 x0 x1 x2 xo3 xo4 xs0).2.1 S8x8.size (by sl_kernel_rfl) y
/-- What a later point leaves in the [8,8] accumulator. -/
def out1_B_4 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : Vec F S8x8 .f32 :=
  VO1_4.read (Elt F) (VO1_4.writes (Elt F) VO1_4.junk (kernelRun1_B c i arg1 harg1 arg2 harg2 arg3 harg3 arg4 harg4 arg5 harg5 arg6 harg6 hc0 hc1 x0 x1 x2 xo3 xo4 xs0).2.1)
/-- A later point's store covers the scratch buffer. -/
theorem scover1_B_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) (y : S8x8x1.Idx) :
    ∃ pc ∈ (kernelRun1_B c i arg1 harg1 arg2 harg2 arg3 harg3 arg4 harg4 arg5 harg5 arg6 harg6 hc0 hc1 x0 x1 x2 xo3 xo4 xs0).2.2.1, y ∈ pc.1.set :=
  View.cover_of_tiledL (kernelRun1_B c i arg1 harg1 arg2 harg2 arg3 harg3 arg4 harg4 arg5 harg5 arg6 harg6 hc0 hc1 x0 x1 x2 xo3 xo4 xs0).2.2.1 S8x8x1.size (by sl_kernel_rfl) y
/-- What a later point leaves in the scratch buffer: the tile's last column. -/
def sout1_B_0 (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : Vec F S8x8x1 .f32 :=
  VS1_0.read (Elt F) (VS1_0.writes (Elt F) VS1_0.junk (kernelRun1_B c i arg1 harg1 arg2 harg2 arg3 harg3 arg4 harg4 arg5 harg5 arg6 harg6 hc0 hc1 x0 x1 x2 xo3 xo4 xs0).2.2.1)

/-! ## The accumulation -/

/-- What the two accumulators' staging buffers and the scratch buffer hold after the body at position `n` (in that
    order): the first point's contents at 0; at `n + 1` a later point's contents over what position `n` left. -/
def outsAt1 (c : Dev nD) : (n : ℕ) → n < cfg1.N → Vec F S1x1 .f32 × Vec F S8x8 .f32 × Vec F S8x8x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (hcond1_1 ⟨0, hn⟩).mp h (Nat.zero_mod _)) (iblk1 V c 0 ⟨0, hn⟩) (iblk1 V c 1 ⟨0, hn⟩) (iblk1 V c 2 ⟨0, hn⟩))
  | n + 1, hn =>
    if h0 : (n + 1) % 64 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => (hcond1_1 ⟨n + 1, hn⟩).mp h h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h0) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2.1 (outsAt1 c n (Nat.lt_of_succ_lt hn)).2.2)

/-- At the first point: that case's contents. -/
theorem outsAt1_A (c : Dev nD) (t : Fin cfg1.N) (h0 : t.val % 64 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => (hcond1_1 t).mp h h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => (hcond1_1 t).mp h h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => (hcond1_1 t).mp h h0) (iblk1 V c 0 t) (iblk1 V c 1 t) (iblk1 V c 2 t)) := by
  obtain ⟨n, hn⟩ := t
  cases n with
  | zero => exact rfl
  | succ n => exact (dif_pos h0).trans rfl

/-- At a later point: that case's contents over what the point before left. -/
theorem outsAt1_B (c : Dev nD) (t : Fin cfg1.N) (h0 : ¬t.val % 64 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h0) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant: the carried scratch column named between points -/

/-- Before the first point the class's invariant (every scoped buffer at anything); before position `n + 1` the other
    scoped buffers at anything, the scratch buffer at what position `n` stored in it, the generator register at some state. -/
def PhiS (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ owns (c : Thread nD τ) scM1_0 fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ owns (c : Thread nD τ) scM1_0 fullShare ((outsAt1 V c n hn).2.2)) ∗ (∃ r, prngReg c r)) := rfl

theorem PhiS_pos (c : Dev nD) (n : ℕ) (h : n ≤ cfg1.N) (hz : n ≠ 0) :
    PhiS V c n h = iprop(iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ owns (c : Thread nD τ) scM1_0 fullShare ((outsAt1 V c (n - 1) (by omega)).2.2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a later point each accumulator's staging buffer holds what the body left at the point before (neither is
    written back before the last point). -/
theorem before1_3_B (c : Dev nD) (t : Fin cfg1.N) (h0 : ¬t.val % 64 = 0) (d) :
    (dat1 V c).before 3 t d = (outsAt1 V c (t.val - 1) (Nat.lt_of_le_of_lt (Nat.sub_le _ _) t.isLt)).1 := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 64 = 0) (d) :
    (dat1 V c).before 4 t d = (outsAt1 V c (t.val - 1) (Nat.lt_of_le_of_lt (Nat.sub_le _ _) t.isLt)).2.1 := by
  have hN : t.val < 64 := lt_of_lt_of_eq t.isLt (show cfg1.N = 64 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' buffers hold their blocks; at the first point the two accumulators and the
    scratch buffer hold anything; at a later point the accumulators hold what the point before left and the invariant
    hands over the scratch buffer at the column that point stored; either way the invariant takes the scratch buffer
    back at this point's column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [after1_0, after1_1, after1_2, after1_3, after1_4]
  have hN : t.val < 64 := lt_of_lt_of_eq t.isLt (show cfg1.N = 64 from N_1)
  by_cases h0 : t.val % 64 = 0
  · have hz : t.val = 0 := by omega
    rw [outsAt1_A V c t h0]
    unfold out1_A_3 out1_A_4 sout1_A_0; (try dsimp only)
    rw [PhiS_castSucc V c t, PhiS_zero V c _ _ hz, PhiA1_eq]
    iintro ⟨⟨⟨Hb1, Hb2, Hb3, Hb4, Hb5, Hb6, Hb7, Hb8, Hb9, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => (hcond1_1 t).mp h h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, ⟨%e3, H3⟩, ⟨%e4, H4⟩, ⟨%es0, HS0⟩⟩
    isplitl [Hb1 Hb2 Hb3 Hb4 Hb5 Hb6 Hb7 Hb8 Hb9 HS0 Hg]
    · isplitl [Hb1 Hb2 Hb3 Hb4 Hb5 Hb6 Hb7 Hb8 Hb9 HS0]
      · skip
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        unfold owns; iexists _; isplitr
        swap; · iexact HS0
        ipureintro; exact View.read_writes_of_cover _ _ _ _ _ (scover1_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _ _)
    unfold owns; iexists _; isplitr
    swap; · iexact H4
    ipureintro; exact View.read_writes_of_cover _ _ _ _ _ (cover1_A_4 c _ _ _ _ _ _ _ _ _ _ _ _ _ _ _ _ _ _)
  · have hz : t.val ≠ 0 := fun e => h0 (by rw [e])
    rw [outsAt1_B V c t h0]
    simp only [before1_3_B V c t h0, before1_4_B V c t h0]
    unfold out1_B_3 out1_B_4 sout1_B_0; (try dsimp only)
    rw [PhiS_castSucc V c t, PhiS_pos V c _ _ hz]
    iintro ⟨⟨⟨Hb1, Hb2, Hb3, Hb4, Hb5, Hb6, Hb7, Hb8, Hb9, HS0⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) ((hcond1_1 t).mpr h0) (iblk1 V c 0 t) (iblk1 V c 1 t) (iblk1 V c 2 t) _ _ _).2.2.2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, ⟨%e3, H3⟩, ⟨%e4, H4⟩, ⟨%es0, HS0⟩⟩
    isplitl [Hb1 Hb2 Hb3 Hb4 Hb5 Hb6 Hb7 Hb8 Hb9 HS0 Hg]
    · isplitl [Hb1 Hb2 Hb3 Hb4 Hb5 Hb6 Hb7 Hb8 Hb9 HS0]
      · skip
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8]; · iexact Hb8
        isplitl [Hb9]; · iexact Hb9
        unfold owns; iexists _; isplitr
        swap; · iexact HS0
        ipureintro; exact View.read_writes_of_cover _ _ _ _ _ (scover1_B_0 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class's invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the carried column is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, Hb6, Hb7, Hb8, Hb9, HS0⟩, Hg⟩
  isplitl [Hb1 Hb2 Hb3 Hb4 Hb5 Hb6 Hb7 Hb8 Hb9 HS0]
  · skip
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frame

end
-- ==== Proof.KernelIdeal.Run.lean ====
/-
  The whole program's run: the two kernel regions and then the three stretches of host operations, from the launch to
  the return. The contents of every unscoped buffer are followed from one segment boundary to the next (`W0` at launch,
  `W1` after the first region, `W2` after the second, `W3`, `W4`, `W5` after each host stretch); every weakly fair
  execution terminates without a fault in a memory that holds each buffer at `W5`: in particular the four results at
  what the host operations compute from the two regions' accumulators, and the seven arguments as launched.
-/
import proofs.«167376_j249108103965_2_alg».proof.Proof.KernelIdeal.Frame0
import proofs.«167376_j249108103965_2_alg».proof.Proof.KernelIdeal.Frame1
import proofs.«167376_j249108103965_2_alg».proof.Proof.Gen.KernelIdeal.Regions
import Idealize.ShloMosaic.Lib.Pipeline.RegionsLoop

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each segment boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves (the inputs as entered, each output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At region 1's exit: its arrays at what the pipeline leaves (the inputs as entered, each output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- After each of the three host stretches. -/
abbrev W3 : Dev nD → Valuation τ sig (Elt F) := fun c => StableHlo.after hostOps2 (W2 m ρ c)
abbrev W4 : Dev nD → Valuation τ sig (Elt F) := fun c => StableHlo.after hostOps2_1 (W3 m ρ c)
abbrev W5 : Dev nD → Valuation τ sig (Elt F) := fun c => StableHlo.after hostOps2_2 (W4 m ρ c)

/-! ### The arguments end as launched: no host operation writes one and a region only reads them -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2_2 _ hostOps2_2_writes (r := main_arg0) (by decide)
    _ = W3 m ρ c (Proc.devRef .tc main_arg0) := StableHlo.after_of_writes_sub hostOps2_1 _ hostOps2_1_writes (r := main_arg0) (by decide)
    _ = W2 m ρ c (Proc.devRef .tc main_arg0) := StableHlo.after_of_writes_sub hostOps2 _ hostOps2_writes (r := main_arg0) (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2_2 _ hostOps2_2_writes (r := main_arg1) (by decide)
    _ = W3 m ρ c (Proc.devRef .tc main_arg1) := StableHlo.after_of_writes_sub hostOps2_1 _ hostOps2_1_writes (r := main_arg1) (by decide)
    _ = W2 m ρ c (Proc.devRef .tc main_arg1) := StableHlo.after_of_writes_sub hostOps2 _ hostOps2_writes (r := main_arg1) (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2_2 _ hostOps2_2_writes (r := main_arg2) (by decide)
    _ = W3 m ρ c (Proc.devRef .tc main_arg2) := StableHlo.after_of_writes_sub hostOps2_1 _ hostOps2_1_writes (r := main_arg2) (by decide)
    _ = W2 m ρ c (Proc.devRef .tc main_arg2) := StableHlo.after_of_writes_sub hostOps2 _ hostOps2_writes (r := main_arg2) (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2_2 _ hostOps2_2_writes (r := main_arg3) (by decide)
    _ = W3 m ρ c (Proc.devRef .tc main_arg3) := StableHlo.after_of_writes_sub hostOps2_1 _ hostOps2_1_writes (r := main_arg3) (by decide)
    _ = W2 m ρ c (Proc.devRef .tc main_arg3) := StableHlo.after_of_writes_sub hostOps2 _ hostOps2_writes (r := main_arg3) (by decide)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2_2 _ hostOps2_2_writes (r := main_arg4) (by decide)
    _ = W3 m ρ c (Proc.devRef .tc main_arg4) := StableHlo.after_of_writes_sub hostOps2_1 _ hostOps2_1_writes (r := main_arg4) (by decide)
    _ = W2 m ρ c (Proc.devRef .tc main_arg4) := StableHlo.after_of_writes_sub hostOps2 _ hostOps2_writes (r := main_arg4) (by decide)
    _ = W1 m ρ c (Proc.devRef .tc main_arg4) := (W2_arr m ρ c 0).trans (((dat1 (V1 m ρ) c).arrAt_in 0 rfl _).trans (A_eq1 (V1 m ρ) c 0))
    _ = W0 m ρ c (Proc.devRef .tc main_arg4) := W1_of_ne m ρ c main_arg4 (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2_2 _ hostOps2_2_writes (r := main_arg5) (by decide)
    _ = W3 m ρ c (Proc.devRef .tc main_arg5) := StableHlo.after_of_writes_sub hostOps2_1 _ hostOps2_1_writes (r := main_arg5) (by decide)
    _ = W2 m ρ c (Proc.devRef .tc main_arg5) := StableHlo.after_of_writes_sub hostOps2 _ hostOps2_writes (r := main_arg5) (by decide)
    _ = W1 m ρ c (Proc.devRef .tc main_arg5) := (W2_arr m ρ c 1).trans (((dat1 (V1 m ρ) c).arrAt_in 1 rfl _).trans (A_eq1 (V1 m ρ) c 1))
    _ = W0 m ρ c (Proc.devRef .tc main_arg5) := W1_of_ne m ρ c main_arg5 (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2_2 _ hostOps2_2_writes (r := main_arg6) (by decide)
    _ = W3 m ρ c (Proc.devRef .tc main_arg6) := StableHlo.after_of_writes_sub hostOps2_1 _ hostOps2_1_writes (r := main_arg6) (by decide)
    _ = W2 m ρ c (Proc.devRef .tc main_arg6) := StableHlo.after_of_writes_sub hostOps2 _ hostOps2_writes (r := main_arg6) (by decide)
    _ = W1 m ρ c (Proc.devRef .tc main_arg6) := (W2_arr m ρ c 2).trans (((dat1 (V1 m ρ) c).arrAt_in 2 rfl _).trans (A_eq1 (V1 m ρ) c 2))
    _ = W0 m ρ c (Proc.devRef .tc main_arg6) := W1_of_ne m ρ c main_arg6 (by decide)
    _ = m ((c : Thread nD τ).loc main_arg6) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W1`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, in a
    memory that holds each of the four results at the last boundary's contents and each argument as launched. -/
theorem run_results : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_v8) = W5 m ρ c (Proc.devRef .tc main_v8)
      ∧ r.2.mem ((c.tc : Thread nD τ).loc main_v11) = W5 m ρ c (Proc.devRef .tc main_v11)
      ∧ r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v27 (by decide)), h c _ (mem_uc main_v8 (by decide)), h c _ (mem_uc main_v11 (by decide)), h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- info: 'Cert.KernelIdeal.Frame.run_results' depends on axioms: [propext, Classical.choice, Quot.sound] -/
#guard_msgs in #print axioms run_results

end Cert.KernelIdeal.Frame

end
-- ==== Proof.KernelIdeal.Final.lean ====
/-
  What the two regions leave in their output arrays. Each accumulator's block is its whole array at every grid point and
  is written back once, after the last point; so the array ends holding exactly what the accumulator's staging buffer
  holds after the last point's body.
-/
import proofs.«167376_j249108103965_2_alg».proof.Proof.KernelIdeal.Frame0
import proofs.«167376_j249108103965_2_alg».proof.Proof.KernelIdeal.Frame1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when a region is entered
variable (V : (c : Dev nD) → (b : Ref sig .tc) → Buf (Elt F) ((c : Thread nD τ).loc b))

-- the accumulations are cited here by name only, never unfolded
attribute [local irreducible] outsAt0 outsAt1

theorem index0_4 : ∀ t : Fin grid0.N, win0_4.index t (0 : Fin 2) = 0 ∧ win0_4.index t (1 : Fin 2) = 0 := by
  decide +kernel

/-- Reading a block that is the whole array, through its zero offsets, is reading the array. -/
theorem read_whole0_4 (c : Dev nD) (t : Fin cfg0.N) (X : Buf (Elt F) ((c : Thread nD τ).loc main_v0)) :
    (((cfg0.win 4).blk t).view.read (Elt F) X : Vec F S1x2 .f32) = (X : Vec F S1x2 .f32) := by
  have hi := index0_4 t
  funext y
  rw [View.read_apply]
  show (X : Vec F S1x2 .f32) _ = (X : Vec F S1x2 .f32) _
  congr 1
  funext a
  apply Fin.ext
  match a with
  | ⟨0, _⟩ =>
    show win0_4.index t 0 * 1 + 1 * (y 0).val = (y 0).val
    rw [hi.1]; omega
  | ⟨1, _⟩ =>
    show win0_4.index t 1 * 2 + 1 * (y 1).val = (y 1).val
    rw [hi.2]; omega

/-- Every index of the array lies in that block. -/
theorem mem_whole0_4 (t : Fin cfg0.N) (i : S1x2.Idx) : i ∈ ((cfg0.win 4).blk t).view.set := by
  have hi := index0_4 t
  have e : ((cfg0.win 4).blk t).view.emb (i : ((cfg0.win 4).xblock (grid0.coords t)).Idx) = i := by
    funext a
    apply Fin.ext
    match a with
    | ⟨0, _⟩ =>
      show win0_4.index t 0 * 1 + 1 * (i 0).val = (i 0).val
      rw [hi.1]; omega
    | ⟨1, _⟩ =>
      show win0_4.index t 1 * 2 + 1 * (i 1).val = (i 1).val
      rw [hi.2]; omega
  rw [← e]
  exact View.emb_mem_set _ _

/-- The array ends holding what the body left in the accumulator's buffer at the last point `t`: the block there is the
    whole array, and that point's write-back is the only one. -/
theorem final0_4_at (c : Dev nD) (t : Fin cfg0.N) (ht : t.val = 15) :
    (dat0 V c).arrAt 4 cfg0.N = (outsAt0 V c t.val t.isLt : Vec F S1x2 .f32) := by
  have hN : cfg0.N = 16 := N_0
  refine (dat0 V c).arrAt_eq_of_cover 4 _ (fun t' hf => ?_) (fun i => ⟨t, (flush0_4 t).mpr (by rw [ht]), mem_whole0_4 t i⟩)
  have hl : t'.val = 15 := by have := (flush0_4 t').mp hf; have := t'.isLt; omega
  obtain rfl : t' = t := Fin.ext (hl.trans ht.symm)
  show (cfg0.win 4).cut (grid0.coords t') ((dat0 V c).after 4 t') = _
  rw [after0_4, read_whole0_4 c]
  rfl

theorem index1_3 : ∀ t : Fin grid1.N, win1_3.index t (0 : Fin 2) = 0 ∧ win1_3.index t (1 : Fin 2) = 0 := by
  decide +kernel

/-- Reading a block that is the whole array, through its zero offsets, is reading the array. -/
theorem read_whole1_3 (c : Dev nD) (t : Fin cfg1.N) (X : Buf (Elt F) ((c : Thread nD τ).loc main_v1_0)) :
    (((cfg1.win 3).blk t).view.read (Elt F) X : Vec F S1x1 .f32) = (X : Vec F S1x1 .f32) := by
  have hi := index1_3 t
  funext y
  rw [View.read_apply]
  show (X : Vec F S1x1 .f32) _ = (X : Vec F S1x1 .f32) _
  congr 1
  funext a
  apply Fin.ext
  match a with
  | ⟨0, _⟩ =>
    show win1_3.index t 0 * 1 + 1 * (y 0).val = (y 0).val
    rw [hi.1]; omega
  | ⟨1, _⟩ =>
    show win1_3.index t 1 * 1 + 1 * (y 1).val = (y 1).val
    rw [hi.2]; omega

/-- Every index of the array lies in that block. -/
theorem mem_whole1_3 (t : Fin cfg1.N) (i : S1x1.Idx) : i ∈ ((cfg1.win 3).blk t).view.set := by
  have hi := index1_3 t
  have e : ((cfg1.win 3).blk t).view.emb (i : ((cfg1.win 3).xblock (grid1.coords t)).Idx) = i := by
    funext a
    apply Fin.ext
    match a with
    | ⟨0, _⟩ =>
      show win1_3.index t 0 * 1 + 1 * (i 0).val = (i 0).val
      rw [hi.1]; omega
    | ⟨1, _⟩ =>
      show win1_3.index t 1 * 1 + 1 * (i 1).val = (i 1).val
      rw [hi.2]; omega
  rw [← e]
  exact View.emb_mem_set _ _

/-- The array ends holding what the body left in the accumulator's buffer at the last point `t`: the block there is the
    whole array, and that point's write-back is the only one. -/
theorem final1_3_at (c : Dev nD) (t : Fin cfg1.N) (ht : t.val = 63) :
    (dat1 V c).arrAt 3 cfg1.N = ((outsAt1 V c t.val t.isLt).1 : Vec F S1x1 .f32) := by
  have hN : cfg1.N = 64 := N_1
  refine (dat1 V c).arrAt_eq_of_cover 3 _ (fun t' hf => ?_) (fun i => ⟨t, (flush1_3 t).mpr (by rw [ht]), mem_whole1_3 t i⟩)
  have hl : t'.val = 63 := by have := (flush1_3 t').mp hf; have := t'.isLt; omega
  obtain rfl : t' = t := Fin.ext (hl.trans ht.symm)
  show (cfg1.win 3).cut (grid1.coords t') ((dat1 V c).after 3 t') = _
  rw [after1_3, read_whole1_3 c]
  rfl

theorem index1_4 : ∀ t : Fin grid1.N, win1_4.index t (0 : Fin 2) = 0 ∧ win1_4.index t (1 : Fin 2) = 0 := by
  decide +kernel

/-- Reading a block that is the whole array, through its zero offsets, is reading the array. -/
theorem read_whole1_4 (c : Dev nD) (t : Fin cfg1.N) (X : Buf (Elt F) ((c : Thread nD τ).loc main_v1_1)) :
    (((cfg1.win 4).blk t).view.read (Elt F) X : Vec F S8x8 .f32) = (X : Vec F S8x8 .f32) := by
  have hi := index1_4 t
  funext y
  rw [View.read_apply]
  show (X : Vec F S8x8 .f32) _ = (X : Vec F S8x8 .f32) _
  congr 1
  funext a
  apply Fin.ext
  match a with
  | ⟨0, _⟩ =>
    show win1_4.index t 0 * 8 + 1 * (y 0).val = (y 0).val
    rw [hi.1]; omega
  | ⟨1, _⟩ =>
    show win1_4.index t 1 * 8 + 1 * (y 1).val = (y 1).val
    rw [hi.2]; omega

/-- Every index of the array lies in that block. -/
theorem mem_whole1_4 (t : Fin cfg1.N) (i : S8x8.Idx) : i ∈ ((cfg1.win 4).blk t).view.set := by
  have hi := index1_4 t
  have e : ((cfg1.win 4).blk t).view.emb (i : ((cfg1.win 4).xblock (grid1.coords t)).Idx) = i := by
    funext a
    apply Fin.ext
    match a with
    | ⟨0, _⟩ =>
      show win1_4.index t 0 * 8 + 1 * (i 0).val = (i 0).val
      rw [hi.1]; omega
    | ⟨1, _⟩ =>
      show win1_4.index t 1 * 8 + 1 * (i 1).val = (i 1).val
      rw [hi.2]; omega
  rw [← e]
  exact View.emb_mem_set _ _

/-- The array ends holding what the body left in the accumulator's buffer at the last point `t`: the block there is the
    whole array, and that point's write-back is the only one. -/
theorem final1_4_at (c : Dev nD) (t : Fin cfg1.N) (ht : t.val = 63) :
    (dat1 V c).arrAt 4 cfg1.N = ((outsAt1 V c t.val t.isLt).2.1 : Vec F S8x8 .f32) := by
  have hN : cfg1.N = 64 := N_1
  refine (dat1 V c).arrAt_eq_of_cover 4 _ (fun t' hf => ?_) (fun i => ⟨t, (flush1_4 t).mpr (by rw [ht]), mem_whole1_4 t i⟩)
  have hl : t'.val = 63 := by have := (flush1_4 t').mp hf; have := t'.isLt; omega
  obtain rfl : t' = t := Fin.ext (hl.trans ht.symm)
  show (cfg1.win 4).cut (grid1.coords t') ((dat1 V c).after 4 t') = _
  rw [after1_4, read_whole1_4 c]
  rfl

end Cert.KernelIdeal.Frame

end
-- ==== Proof.KernelIdeal.Values.lean ====
/-
  Where the regions' outputs sit at the second region's exit, and what the second region found at entry: the [1,2]
  array holds the first region's accumulator after its last point (the second region does not touch it), the [1,1] and
  [8,8] arrays hold the second region's accumulators after its last point, and every argument array is as launched.
-/
import proofs.«167376_j249108103965_2_alg».proof.Proof.KernelIdeal.Run
import proofs.«167376_j249108103965_2_alg».proof.Proof.KernelIdeal.Final

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the accumulations are cited here by name only, never unfolded
attribute [local irreducible] outsAt0 outsAt1

theorem W2_v0 (c : Dev nD) : (W2 m ρ c (Proc.devRef .tc main_v0) : Vec F S1x2 .f32) = outsAt0 (V0 m ρ) c 15 (by rw [show cfg0.N = 16 from N_0]; omega) :=
  (W2_of_ne m ρ c main_v0 (by decide)).trans ((W1_arr m ρ c 4).trans (final0_4_at (V0 m ρ) c ⟨15, by rw [show cfg0.N = 16 from N_0]; omega⟩ rfl))
theorem W2_v1_0 (c : Dev nD) : (W2 m ρ c (Proc.devRef .tc main_v1_0) : Vec F S1x1 .f32) = (outsAt1 (V1 m ρ) c 63 (by rw [show cfg1.N = 64 from N_1]; omega)).1 :=
  (W2_arr m ρ c 3).trans (final1_3_at (V1 m ρ) c ⟨63, by rw [show cfg1.N = 64 from N_1]; omega⟩ rfl)
theorem W2_v1_1 (c : Dev nD) : (W2 m ρ c (Proc.devRef .tc main_v1_1) : Vec F S8x8 .f32) = (outsAt1 (V1 m ρ) c 63 (by rw [show cfg1.N = 64 from N_1]; omega)).2.1 :=
  (W2_arr m ρ c 4).trans (final1_4_at (V1 m ρ) c ⟨63, by rw [show cfg1.N = 64 from N_1]; omega⟩ rfl)

theorem V1_arg4 (c : Dev nD) : V1 m ρ c main_arg4 = m ((c : Thread nD τ).loc main_arg4) :=
  (W1_of_ne m ρ c main_arg4 (by decide)).trans rfl
theorem V1_arg5 (c : Dev nD) : V1 m ρ c main_arg5 = m ((c : Thread nD τ).loc main_arg5) :=
  (W1_of_ne m ρ c main_arg5 (by decide)).trans rfl
theorem V1_arg6 (c : Dev nD) : V1 m ρ c main_arg6 = m ((c : Thread nD τ).loc main_arg6) :=
  (W1_of_ne m ρ c main_arg6 (by decide)).trans rfl
theorem W2_arg6 (c : Dev nD) : W2 m ρ c (Proc.devRef .tc main_arg6) = m ((c : Thread nD τ).loc main_arg6) :=
  ((W2_arr m ρ c 2).trans (((dat1 (V1 m ρ) c).arrAt_in 2 rfl _).trans (A_eq1 (V1 m ρ) c 2))).trans (V1_arg6 m ρ c)

end Cert.KernelIdeal.Frame

end
-- ==== Proof.KernelIdeal.Tail.lean ====
/-
  The host operations after the two kernel regions, read back: from any contents `W` of the buffers at the second region's
  exit, the three stretches of host operations leave each of the four results at a function of three arrays the regions
  wrote — the [1,2] array of the two reconstruction sums, the [1,1] array of the instantaneous-frequency sum, the [8,8]
  array of the per-mode smoothness sums — and of the integer mode mask:
    recon  = s_re / 2^21 + s_im / 2^21
    if     = s_if / 2^24
    smooth = Σ (modes / 262143 · mask) / max(count, 1)          (count = Σ mask)
    total  = (1·recon + 0.5·if) + (count > 0 ? 0.1·smooth : 0)
  The functions are named so that the same names can be met from the reference's side.
-/
import proofs.«167376_j249108103965_2_alg».proof.Proof.Gen.KernelIdeal.Launch
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.SL.Sem Idealize.ShloMosaic.StableHlo

variable {F : FTy → Type} [FloatOps F]

/-- The three host stretches applied to the contents `W`. -/
abbrev afterTail (W : Valuation τ sig (Elt F)) : Valuation τ sig (Elt F) :=
  StableHlo.after hostOps2_2 (StableHlo.after hostOps2_1 (StableHlo.after hostOps2 W))

/-- Entry (0, k) of the [1,2] array as a scalar. -/
def tPick0 (X0 : FVec F S1x2 .f32) : FVec F S_ .f32 :=
  fun i => shapeCast S_ (extractStridedSlice S1x1 ![0, 0] X0 slices_S1x2_S1x1_0_0) shapeCasts_S1x1_S_ i
def tPick1 (X0 : FVec F S1x2 .f32) : FVec F S_ .f32 :=
  fun i => shapeCast S_ (extractStridedSlice S1x1 ![0, 1] X0 slices_S1x2_S1x1_0_1) shapeCasts_S1x1_S_ i
/-- The [1,1] array's entry as a scalar. -/
def tPickIf (X1 : FVec F S1x1 .f32) : FVec F S_ .f32 := fun i => shapeCast S_ X1 shapeCasts_S1x1_S_ i

/-- recon = a / 2^21 + b / 2^21 of two scalars. -/
def tReconOf (a b : FVec F S_ .f32) : FVec F S_ .f32 :=
  addf (Host.divf (F := F) a (constant (F := F) S_ .f32 0x4A000000#32)) (Host.divf (F := F) b (constant (F := F) S_ .f32 0x4A000000#32))
/-- if = a / 2^24. -/
def tIfOf (a : FVec F S_ .f32) : FVec F S_ .f32 := Host.divf (F := F) a (constant (F := F) S_ .f32 0x4B800000#32)
/-- The mask as floats: 1 where the integer is 1. -/
def tMask (MK : Vec F S8x8 .i32) : FVec F S8x8 .f32 :=
  uitofp (F := F) .f32 (cmpi .eq MK (broadcastInDim S8x8 ![] bcast_S_S8x8 (constantI S_ 32 1#32)))
/-- count = Σ mask. -/
def tCount (MK : Vec F S8x8 .i32) : FVec F S_ .f32 :=
  Host.reduceAdd (F := F) (tMask MK) (constant (F := F) S_ .f32 0x00000000#32) reducesTo_S8x8_S_d0_1 h_S_
/-- smooth = Σ (modes / 262143 · mask) / max(count, 1). -/
def tSmoothOf (X2 : FVec F S8x8 .f32) (MK : Vec F S8x8 .i32) : FVec F S_ .f32 :=
  Host.divf (F := F)
    (Host.reduceAdd (F := F) (mulf (Host.divf (F := F) X2 (broadcastInDim S8x8 ![] bcast_S_S8x8 (constant (F := F) S_ .f32 0x487FFFC0#32))) (tMask MK))
      (constant (F := F) S_ .f32 0x00000000#32) reducesTo_S8x8_S_d0_1 h_S_)
    (maximumf (tCount MK) (constant (F := F) S_ .f32 0x3F800000#32))
/-- total = (1·recon + 0.5·if) + (count > 0 ? 0.1·smooth : 0). -/
def tTotalOf (recon ifl smooth : FVec F S_ .f32) (MK : Vec F S8x8 .i32) : FVec F S_ .f32 :=
  addf (addf (mulf (constant (F := F) S_ .f32 0x3F800000#32) recon) (mulf (constant (F := F) S_ .f32 0x3F000000#32) ifl))
    (select (cmpf (F := F) .ogt (tCount MK) (constant (F := F) S_ .f32 0x00000000#32)) (mulf (constant (F := F) S_ .f32 0x3DCCCCCD#32) smooth) (id (constant (F := F) S_ .f32 0x00000000#32)))

variable (W : Valuation τ sig (Elt F))

set_option maxHeartbeats 2000000 in
theorem tail_recon : afterTail W (Proc.devRef .tc main_v8)
    = tReconOf (tPick0 (W (Proc.devRef .tc main_v0))) (tPick1 (W (Proc.devRef .tc main_v0))) := by
  unfold afterTail tReconOf tPick0 tPick1
  simp only [hostOps2, hostOps2_1, hostOps2_2]
  after_results_simp <;> rfl

set_option maxHeartbeats 2000000 in
theorem tail_if : afterTail W (Proc.devRef .tc main_v11) = tIfOf (tPickIf (W (Proc.devRef .tc main_v1_0))) := by
  unfold afterTail tIfOf tPickIf
  simp only [hostOps2, hostOps2_1, hostOps2_2]
  after_results_simp <;> rfl

set_option maxHeartbeats 2000000 in
theorem tail_smooth : afterTail W (Proc.devRef .tc main_v23)
    = tSmoothOf (W (Proc.devRef .tc main_v1_1)) (W (Proc.devRef .tc main_arg6)) := by
  unfold afterTail tSmoothOf tCount tMask
  simp only [hostOps2, hostOps2_1, hostOps2_2]
  after_results_simp <;> rfl

set_option maxHeartbeats 4000000 in
theorem tail_total : afterTail W (Proc.devRef .tc main_v27)
    = tTotalOf (tReconOf (tPick0 (W (Proc.devRef .tc main_v0))) (tPick1 (W (Proc.devRef .tc main_v0))))
        (tIfOf (tPickIf (W (Proc.devRef .tc main_v1_0))))
        (tSmoothOf (W (Proc.devRef .tc main_v1_1)) (W (Proc.devRef .tc main_arg6))) (W (Proc.devRef .tc main_arg6)) := by
  unfold afterTail tTotalOf tReconOf tIfOf tSmoothOf tCount tMask tPick0 tPick1 tPickIf
  simp only [hostOps2, hostOps2_1, hostOps2_2]
  after_results_simp <;> rfl

end Cert.KernelIdeal.Frame

end
-- ==== Proof.LossSpec.lean ====
/-
  What the four losses are made of, as plain sums over the extended reals, written in the arrangement the tiled
  computation meets them in: the time axis of length 262144 cut into 16 tiles of 16384 columns (the reconstruction
  sums) or into 64 tiles of 4096 columns (the instantaneous-frequency sum and the smoothness sums).

  * `sqDiff a c`      — the sum over all (b, t) of (a − c)², tile by tile;
  * `maskf mk b n`    — 1 where the integer mode mask is exactly 1, else 0;
  * `ifSum e g mk`    — the sum over all (b, n, t) of ((e − g)·mask)², tile by tile;
  * `modeSum e b n`   — the sum over t < 262143 of (e[t+1] − e[t])² for one mode (b, n), split as the differences
                         inside each tile (`intra`) plus the 63 differences that straddle two consecutive tiles (`bnd`).
-/
import Idealize.ShloMosaic.PureOps.Ideal
import Idealize.ShloMosaic.Lib.ValueIdx

noncomputable section

open scoped BigOperators

namespace Cert.LossSpec

open Idealize.ShloMosaic Idealize.ShloMosaic.ValueIdx

/-- A [8, 262144] array of extended reals. -/
abbrev A2 : Type := (⟨2, ![8, 262144]⟩ : Shape).Idx → EReal
/-- A [8, 8, 262144] array of extended reals. -/
abbrev A3 : Type := (⟨3, ![8, 8, 262144]⟩ : Shape).Idx → EReal
/-- The [8, 8] integer mode mask. -/
abbrev Mk : Type := (⟨2, ![8, 8]⟩ : Shape).Idx → BitVec 32

/-- Column `j` of tile `k` when the time axis is cut into 16 tiles of 16384. -/
def col16 (k : Fin 16) (j : Fin 16384) : Fin 262144 := ⟨k.val * 16384 + j.val, by omega⟩
/-- Column `j` of tile `k` when the time axis is cut into 64 tiles of 4096. -/
def col64 (k : Fin 64) (j : Fin 4096) : Fin 262144 := ⟨k.val * 4096 + j.val, by omega⟩

@[simp] theorem col16_val (k : Fin 16) (j : Fin 16384) : (col16 k j).val = k.val * 16384 + j.val := rfl
@[simp] theorem col64_val (k : Fin 64) (j : Fin 4096) : (col64 k j).val = k.val * 4096 + j.val := rfl

/-- Σ over all entries of (a − c)², tile by tile (16 tiles of 16384 columns; inside a tile rows outermost). -/
def sqDiff (a c : A2) : EReal :=
  ∑ k : Fin 16, ∑ b : Fin 8, ∑ j : Fin 16384,
    (a (ix2 b (col16 k j)) - c (ix2 b (col16 k j))) * (a (ix2 b (col16 k j)) - c (ix2 b (col16 k j)))

/-- The mode mask as a number: 1 where the integer is exactly 1, else 0. -/
def maskf (mk : Mk) (b n : Fin 8) : EReal := if mk (ix2 b n) = 1#32 then 1 else 0

/-- Σ over all entries of ((e − g)·mask)², tile by tile (64 tiles of 4096 columns). -/
def ifSum (e g : A3) (mk : Mk) : EReal :=
  ∑ k : Fin 64, ∑ b : Fin 8, ∑ n : Fin 8, ∑ j : Fin 4096,
    ((e (ix3 b n (col64 k j)) - g (ix3 b n (col64 k j))) * maskf mk b n)
      * ((e (ix3 b n (col64 k j)) - g (ix3 b n (col64 k j))) * maskf mk b n)

/-- The squared consecutive differences of mode (b, n) inside tile `k`: columns 0…4094 against their right neighbours. -/
def intra (e : A3) (b n : Fin 8) (k : Fin 64) : EReal :=
  ∑ j : Fin 4095,
    (e (ix3 b n (col64 k ⟨j.val + 1, by omega⟩)) - e (ix3 b n (col64 k ⟨j.val, by omega⟩)))
      * (e (ix3 b n (col64 k ⟨j.val + 1, by omega⟩)) - e (ix3 b n (col64 k ⟨j.val, by omega⟩)))

/-- The squared difference across the boundary between tile `k` and tile `k + 1`: first column of the later tile
    against the last column of the earlier one. -/
def bnd (e : A3) (b n : Fin 8) (k : Fin 63) : EReal :=
  (e (ix3 b n (col64 ⟨k.val + 1, by omega⟩ ⟨0, by omega⟩)) - e (ix3 b n (col64 ⟨k.val, by omega⟩ ⟨4095, by omega⟩)))
    * (e (ix3 b n (col64 ⟨k.val + 1, by omega⟩ ⟨0, by omega⟩)) - e (ix3 b n (col64 ⟨k.val, by omega⟩ ⟨4095, by omega⟩)))

/-- Σ over t < 262143 of (e[t+1] − e[t])² for mode (b, n): inside the tiles, plus across the 63 tile boundaries. -/
def modeSum (e : A3) (b n : Fin 8) : EReal :=
  (∑ k : Fin 64, intra e b n k) + ∑ k : Fin 63, bnd e b n k

end Cert.LossSpec

end
-- ==== Proof.KernelIdeal.TailIdeal.lean ====
/-
  The small host operations after the two kernel regions, read at an index at the ideal instance: three of them pick one
  entry of a one-row array as a scalar (a slice of one entry, or the whole [1,1] array, reshaped to rank 0 — a reshape
  between shapes of one element matches their only indices), and the mask is 1 where the integer is exactly 1 and 0
  elsewhere.
-/
import proofs.«167376_j249108103965_2_alg».proof.Proof.KernelIdeal.Tail
import proofs.«167376_j249108103965_2_alg».proof.Proof.LossSpec
import Idealize.ShloMosaic.Lib.Pipeline.Value
import Idealize.ShloMosaic.Lib.ValueIdx

noncomputable section

namespace Cert.KernelIdeal.Frame

open Cert.KernelIdeal Cert.KernelIdeal.Gen Idealize.ShloMosaic Idealize.ShloMosaic.ValueIdx

/-- The [1,1] shape has one element, so every index of it has row-major position 0. -/
theorem rowMajor_S1x1 (k : S1x1.Idx) : (S1x1.rowMajor k).val = 0 := by
  have h : S1x1.numel = 1 := by decide
  have hk := (S1x1.rowMajor k).isLt
  omega

/-- The rank-0 shape has one element, so its index has row-major position 0. -/
theorem rowMajor_S_ (i : S_.Idx) : (S_.rowMajor i).val = 0 := by
  have h : S_.numel = 1 := by decide
  have hi := (S_.rowMajor i).isLt
  omega

/-- A [1,1] array reshaped to rank 0 is its one entry. -/
theorem shapeCast_S1x1_S_ {α : Type} (X : S1x1.Idx → α) (i : S_.Idx) :
    shapeCast S_ X shapeCasts_S1x1_S_ i = X (ix2 (0 : Fin 1) (0 : Fin 1)) :=
  shapeCast_apply X shapeCasts_S1x1_S_ i (ix2 (0 : Fin 1) (0 : Fin 1)) ((rowMajor_S1x1 _).trans (rowMajor_S_ i).symm)

/-- Entry (0, 0) of the [1,2] array as a scalar. -/
theorem tPick0_eq (X0 : FVec Ideal S1x2 .f32) : tPick0 (F := Ideal) X0 = fun _ => X0 (ix2 (0 : Fin 1) (0 : Fin 2)) := by
  funext i
  unfold tPick0
  refine (shapeCast_S1x1_S_ _ i).trans ?_
  exact extractStridedSlice_apply ![0, 0] X0 slices_S1x2_S1x1_0_0 (ix2 (0 : Fin 1) (0 : Fin 1)) (ix2 (0 : Fin 1) (0 : Fin 2))
    (fun a => match a with
      | ⟨0, _⟩ => rfl
      | ⟨1, _⟩ => rfl)

/-- Entry (0, 1) of the [1,2] array as a scalar. -/
theorem tPick1_eq (X0 : FVec Ideal S1x2 .f32) : tPick1 (F := Ideal) X0 = fun _ => X0 (ix2 (0 : Fin 1) (1 : Fin 2)) := by
  funext i
  unfold tPick1
  refine (shapeCast_S1x1_S_ _ i).trans ?_
  exact extractStridedSlice_apply ![0, 1] X0 slices_S1x2_S1x1_0_1 (ix2 (0 : Fin 1) (0 : Fin 1)) (ix2 (0 : Fin 1) (1 : Fin 2))
    (fun a => match a with
      | ⟨0, _⟩ => rfl
      | ⟨1, _⟩ => rfl)

/-- The [1,1] array's entry as a scalar. -/
theorem tPickIf_eq (X1 : FVec Ideal S1x1 .f32) : tPickIf (F := Ideal) X1 = fun _ => X1 (ix2 (0 : Fin 1) (0 : Fin 1)) := by
  funext i
  unfold tPickIf
  exact shapeCast_S1x1_S_ X1 i

/-- The mask at an entry: 1 where the integer is exactly 1, 0 elsewhere. -/
theorem tMask_apply (MK : Vec Ideal S8x8 .i32) (b n : Fin 8) :
    tMask (F := Ideal) MK (ix2 b n) = Cert.LossSpec.maskf MK b n := by
  have hc : broadcastInDim S8x8 ![] bcast_S_S8x8 (constantI S_ 32 1#32) (ix2 b n) = 1#32 :=
    broadcastInDim_apply _ bcast_S_S8x8 (constantI S_ 32 1#32) (ix2 b n) ix0 (fun a => a.elim0)
  show (((IntOp.cmpi .eq (MK (ix2 b n)) (broadcastInDim S8x8 ![] bcast_S_S8x8 (constantI S_ 32 1#32) (ix2 b n))).toNat : ℝ) : EReal)
      = Cert.LossSpec.maskf MK b n
  rw [hc]
  unfold Cert.LossSpec.maskf
  by_cases h : MK (ix2 b n) = 1#32
  · rw [if_pos h, h]; simp [IntOp.cmpi]
  · rw [if_neg h]
    have : (MK (ix2 b n) == 1#32) = false := by simpa using h
    simp [IntOp.cmpi, this]

end Cert.KernelIdeal.Frame

end
-- ==== Proof.KernelIdeal.Blocks.lean ====
/-
  A window's block at a grid point, read at an index: the two kernels' float inputs are tiled along the time axis, so
  an entry of a block is the array's entry at tile · (tile length) + offset on that axis and at the same coordinates on
  the others; the mode mask's block is the whole mask at every point.
-/
import proofs.«167376_j249108103965_2_alg».proof.Proof.KernelIdeal.Frame0
import proofs.«167376_j249108103965_2_alg».proof.Proof.KernelIdeal.Frame1
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

-- what core `c`'s TensorCore buffers hold when the region is entered
variable (V : (c : Dev nD) → (b : Ref sig .tc) → Buf (Elt F) ((c : Thread nD τ).loc b))

/-! ## The first kernel's tiles -/

/-- The first kernel's input windows move along the time axis only: block index (0, t) at point t. -/
theorem index0_0 : ∀ t : Fin grid0.N, win0_0.index t (0 : Fin 2) = 0 ∧ win0_0.index t (1 : Fin 2) = t.val := by
  decide +kernel

theorem index0_1 : ∀ t : Fin grid0.N, win0_1.index t (0 : Fin 2) = 0 ∧ win0_1.index t (1 : Fin 2) = t.val := by
  decide +kernel

theorem index0_2 : ∀ t : Fin grid0.N, win0_2.index t (0 : Fin 2) = 0 ∧ win0_2.index t (1 : Fin 2) = t.val := by
  decide +kernel

theorem index0_3 : ∀ t : Fin grid0.N, win0_3.index t (0 : Fin 2) = 0 ∧ win0_3.index t (1 : Fin 2) = t.val := by
  decide +kernel

/-- Window 0's block at point t, at (b, j), is the first array at (b, t·16384 + j). -/
theorem iblk0_apply_0 (c : Dev nD) (t : Fin cfg0.N) (b : Fin 8) (j : Fin 16384) :
    (iblk0 V c 0 t : Vec F S8x16384 .f32) (ix2 b j) = (V c main_arg0 : Vec F S8x262144 .f32) (ix2 b (⟨t.val * 16384 + j.val, by have := t.isLt; have : cfg0.N = 16 := N_0; omega⟩ : Fin 262144)) := by
  have hi := index0_0 t
  unfold iblk0
  rw [View.read_apply]
  show V c main_arg0 _ = V c main_arg0 _
  congr 1
  funext a
  apply Fin.ext
  match a with
  | ⟨0, _⟩ =>
    show win0_0.index t 0 * 8 + 1 * b.val = b.val
    rw [hi.1]; omega
  | ⟨1, _⟩ =>
    show win0_0.index t 1 * 16384 + 1 * j.val = t.val * 16384 + j.val
    rw [hi.2]; omega

/-- Window 1's block at point t, at (b, j), is the second array at (b, t·16384 + j). -/
theorem iblk0_apply_1 (c : Dev nD) (t : Fin cfg0.N) (b : Fin 8) (j : Fin 16384) :
    (iblk0 V c 1 t : Vec F S8x16384 .f32) (ix2 b j) = (V c main_arg1 : Vec F S8x262144 .f32) (ix2 b (⟨t.val * 16384 + j.val, by have := t.isLt; have : cfg0.N = 16 := N_0; omega⟩ : Fin 262144)) := by
  have hi := index0_1 t
  unfold iblk0
  rw [View.read_apply]
  show V c main_arg1 _ = V c main_arg1 _
  congr 1
  funext a
  apply Fin.ext
  match a with
  | ⟨0, _⟩ =>
    show win0_1.index t 0 * 8 + 1 * b.val = b.val
    rw [hi.1]; omega
  | ⟨1, _⟩ =>
    show win0_1.index t 1 * 16384 + 1 * j.val = t.val * 16384 + j.val
    rw [hi.2]; omega

/-- Window 2's block at point t, at (b, j), is the third array at (b, t·16384 + j). -/
theorem iblk0_apply_2 (c : Dev nD) (t : Fin cfg0.N) (b : Fin 8) (j : Fin 16384) :
    (iblk0 V c 2 t : Vec F S8x16384 .f32) (ix2 b j) = (V c main_arg2 : Vec F S8x262144 .f32) (ix2 b (⟨t.val * 16384 + j.val, by have := t.isLt; have : cfg0.N = 16 := N_0; omega⟩ : Fin 262144)) := by
  have hi := index0_2 t
  unfold iblk0
  rw [View.read_apply]
  show V c main_arg2 _ = V c main_arg2 _
  congr 1
  funext a
  apply Fin.ext
  match a with
  | ⟨0, _⟩ =>
    show win0_2.index t 0 * 8 + 1 * b.val = b.val
    rw [hi.1]; omega
  | ⟨1, _⟩ =>
    show win0_2.index t 1 * 16384 + 1 * j.val = t.val * 16384 + j.val
    rw [hi.2]; omega

/-- Window 3's block at point t, at (b, j), is the fourth array at (b, t·16384 + j). -/
theorem iblk0_apply_3 (c : Dev nD) (t : Fin cfg0.N) (b : Fin 8) (j : Fin 16384) :
    (iblk0 V c 3 t : Vec F S8x16384 .f32) (ix2 b j) = (V c main_arg3 : Vec F S8x262144 .f32) (ix2 b (⟨t.val * 16384 + j.val, by have := t.isLt; have : cfg0.N = 16 := N_0; omega⟩ : Fin 262144)) := by
  have hi := index0_3 t
  unfold iblk0
  rw [View.read_apply]
  show V c main_arg3 _ = V c main_arg3 _
  congr 1
  funext a
  apply Fin.ext
  match a with
  | ⟨0, _⟩ =>
    show win0_3.index t 0 * 8 + 1 * b.val = b.val
    rw [hi.1]; omega
  | ⟨1, _⟩ =>
    show win0_3.index t 1 * 16384 + 1 * j.val = t.val * 16384 + j.val
    rw [hi.2]; omega

/-! ## The second kernel's tiles -/

/-- The second kernel's float input windows move along the time axis only: block index (0, 0, t) at point t. -/
theorem index1_0 : ∀ t : Fin grid1.N, win1_0.index t (0 : Fin 3) = 0 ∧ win1_0.index t (1 : Fin 3) = 0 ∧ win1_0.index t (2 : Fin 3) = t.val := by
  decide +kernel

theorem index1_1 : ∀ t : Fin grid1.N, win1_1.index t (0 : Fin 3) = 0 ∧ win1_1.index t (1 : Fin 3) = 0 ∧ win1_1.index t (2 : Fin 3) = t.val := by
  decide +kernel

/-- The mode mask's window does not move: block index (0, 0) at every point. -/
theorem index1_2 : ∀ t : Fin grid1.N, win1_2.index t (0 : Fin 2) = 0 ∧ win1_2.index t (1 : Fin 2) = 0 := by
  decide +kernel

/-- Window 0's block at point t, at (b, n, j), is the first float array at (b, n, t·4096 + j). -/
theorem iblk1_apply_0 (c : Dev nD) (t : Fin cfg1.N) (b n : Fin 8) (j : Fin 4096) :
    (iblk1 V c 0 t : Vec F S8x8x4096 .f32) (ix3 b n j) = (V c main_arg4 : Vec F S8x8x262144 .f32) (ix3 b n (⟨t.val * 4096 + j.val, by have := t.isLt; have : cfg1.N = 64 := N_1; omega⟩ : Fin 262144)) := by
  have hi := index1_0 t
  unfold iblk1
  rw [View.read_apply]
  show V c main_arg4 _ = V c main_arg4 _
  congr 1
  funext a
  apply Fin.ext
  match a with
  | ⟨0, _⟩ =>
    show win1_0.index t 0 * 8 + 1 * b.val = b.val
    rw [hi.1]; omega
  | ⟨1, _⟩ =>
    show win1_0.index t 1 * 8 + 1 * n.val = n.val
    rw [hi.2.1]; omega
  | ⟨2, _⟩ =>
    show win1_0.index t 2 * 4096 + 1 * j.val = t.val * 4096 + j.val
    rw [hi.2.2]; omega

/-- Window 1's block at point t, at (b, n, j), is the second float array at (b, n, t·4096 + j). -/
theorem iblk1_apply_1 (c : Dev nD) (t : Fin cfg1.N) (b n : Fin 8) (j : Fin 4096) :
    (iblk1 V c 1 t : Vec F S8x8x4096 .f32) (ix3 b n j) = (V c main_arg5 : Vec F S8x8x262144 .f32) (ix3 b n (⟨t.val * 4096 + j.val, by have := t.isLt; have : cfg1.N = 64 := N_1; omega⟩ : Fin 262144)) := by
  have hi := index1_1 t
  unfold iblk1
  rw [View.read_apply]
  show V c main_arg5 _ = V c main_arg5 _
  congr 1
  funext a
  apply Fin.ext
  match a with
  | ⟨0, _⟩ =>
    show win1_1.index t 0 * 8 + 1 * b.val = b.val
    rw [hi.1]; omega
  | ⟨1, _⟩ =>
    show win1_1.index t 1 * 8 + 1 * n.val = n.val
    rw [hi.2.1]; omega
  | ⟨2, _⟩ =>
    show win1_1.index t 2 * 4096 + 1 * j.val = t.val * 4096 + j.val
    rw [hi.2.2]; omega

/-- The mode mask's block is the whole mask at every point. -/
theorem iblk1_apply_2 (c : Dev nD) (t : Fin cfg1.N) : (iblk1 V c 2 t : Vec F S8x8 .i32) = (V c main_arg6 : Vec F S8x8 .i32) := by
  have hi := index1_2 t
  funext y
  unfold iblk1
  rw [View.read_apply]
  show V c main_arg6 _ = V c main_arg6 _
  congr 1
  funext a
  apply Fin.ext
  match a with
  | ⟨0, _⟩ =>
    show win1_2.index t 0 * 8 + 1 * (y 0).val = (y 0).val
    rw [hi.1]; omega
  | ⟨1, _⟩ =>
    show win1_2.index t 1 * 8 + 1 * (y 1).val = (y 1).val
    rw [hi.2]; omega

end Cert.KernelIdeal.Frame

end
-- ==== Proof.PayIdeal.lean ====
/-
  The payloads of the two tiled kernels, read at an index at the ideal values, as plain sums over the extended reals.

  The first kernel adds, to the two entries of a running [1, 2] accumulator, the sum over a tile of (x − y)² for the
  real part and for the imaginary part. The second adds to a running [1, 1] accumulator the tile's sum of
  ((e − g)·mask)², to a running [8, 8] accumulator each mode's squared consecutive differences inside the tile and the
  squared difference between the tile's first column and a carried column, and carries the tile's last column.
-/
import proofs.«167376_j249108103965_2_alg».proof.Proof.Gen.KernelIdeal.Skeleton
import proofs.«167376_j249108103965_2_alg».proof.Proof.LossSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Cert.KernelIdeal Cert.KernelIdeal.Gen Cert.LossSpec Idealize.ShloMosaic Idealize.ShloMosaic.ValueIdx

/-! ## The zero stores -/

/-- The first kernel's initial accumulator is zero everywhere. -/
theorem pay0_zero (i : S1x2.Idx) : (k0_pay1 (F := Ideal)) i = (0 : EReal) :=
  Ideal.ofBits_zero_f32

/-- The second kernel's initial masked-sum accumulator is zero. -/
theorem pay1_zero_if (i : S1x1.Idx) : (k1_pay3 (F := Ideal)) i = (0 : EReal) :=
  Ideal.ofBits_zero_f32

/-- The second kernel's initial per-mode accumulator is zero everywhere. -/
theorem pay1_zero_mode (i : S8x8.Idx) : (k1_pay4 (F := Ideal)) i = (0 : EReal) :=
  Ideal.ofBits_zero_f32

/-! ## Sums along one axis, and the column casts, at indices given by coordinates -/

/-- A sum along the last axis of a rank-3 array, at (a, b): the sum over the last coordinate. -/
theorem sum3_last {n0 n1 n2 : Nat} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (a : Fin n0) (b : Fin n1) :
    multiReduction (F := Ideal) .add [2] ⟨2, ![n0, n1]⟩ src 0x00000000#32 h hφ hacc (ix2 a b)
      = ∑ k : Fin n2, src (ix3 a b k) := by
  refine (Ideal.multiReduction_add_single src 0x00000000#32 h hφ hacc (ix2 a b)).trans ?_
  refine Finset.sum_congr rfl fun k _ => congrArg src ?_
  funext c
  match c with
  | ⟨0, _⟩ => rfl
  | ⟨1, _⟩ => rfl
  | ⟨2, _⟩ => rfl

/-- A sum along the last axis of a matrix, at row a: the sum over the columns. -/
theorem sum2_last {n0 n1 : Nat} (src : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (a : Fin n0) :
    multiReduction (F := Ideal) .add [1] ⟨1, ![n0]⟩ src 0x00000000#32 h hφ hacc (ix1 a)
      = ∑ k : Fin n1, src (ix2 a k) := by
  refine (Ideal.multiReduction_add_single src 0x00000000#32 h hφ hacc (ix1 a)).trans ?_
  refine Finset.sum_congr rfl fun k _ => congrArg src ?_
  funext c
  match c with
  | ⟨0, _⟩ => rfl
  | ⟨1, _⟩ => rfl

/-- A sum along the first axis of a matrix, at column b: the sum over the rows. -/
theorem sum2_first {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (b : Fin n1) :
    multiReduction (F := Ideal) .add [0] ⟨1, ![n1]⟩ src 0x00000000#32 h hφ hacc (ix1 b)
      = ∑ k : Fin n0, src (ix2 k b) := by
  refine (Ideal.multiReduction_add_single src 0x00000000#32 h hφ hacc (ix1 b)).trans ?_
  refine Finset.sum_congr rfl fun k _ => congrArg src ?_
  funext c
  match c with
  | ⟨0, _⟩ => rfl
  | ⟨1, _⟩ => rfl

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix [a, b] cast to [a, b, 1] reads, at (i, j, u), the matrix at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A rank-3 array cut along its last axis from o reads, at (a, b, j), the source at (a, b, k) with k = o + j. -/
theorem slice3_last_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## The carried column and the boundary term -/

/-- The carried column is the tile's last column. -/
theorem pay1_carry (v3 : Vec Ideal S8x8x4096 .f32) (b n : Fin 8) :
    k1_pay2 (F := Ideal) v3 (ix3 b n (0 : Fin 1)) = v3 (ix3 b n (⟨4095, by omega⟩ : Fin 4096)) := by
  unfold k1_pay2
  rw [shapeCast_self]
  exact slice3_last_apply 4095 v3 _ b n (0 : Fin 1) ⟨4095, by omega⟩ rfl

/-- The boundary term: the running value plus the squared difference between the tile's first column and the carried
    column. -/
theorem pay1_bnd (v3 : Vec Ideal S8x8x4096 .f32) (v41 : Vec Ideal S8x8x1 .f32) (v43 : Vec Ideal S8x8 .f32) (b n : Fin 8) :
    k1_pay1 (F := Ideal) v3 v41 v43 (ix2 b n) = v43 (ix2 b n) + (v3 (ix3 b n (⟨0, by omega⟩ : Fin 4096)) - v41 (ix3 b n (0 : Fin 1))) * (v3 (ix3 b n (⟨0, by omega⟩ : Fin 4096)) - v41 (ix3 b n (0 : Fin 1))) := by
  unfold k1_pay1
  rw [addf_apply, shapeCast_self]
  refine congrArg (v43 (ix2 b n) + ·) ?_
  refine (sum3_last _ _ _ _ b n).trans ?_
  rw [Fin.sum_univ_one]
  rw [mulf_apply, subf_apply]
  rw [slice3_last_apply 0 v3 _ b n (0 : Fin 1) ⟨0, by omega⟩ rfl]

/-! ## The in-tile smoothness term -/

/-- The in-tile term: the running value plus the squared consecutive differences of the mode along the tile. -/
theorem pay1_intra (v3 : Vec Ideal S8x8x4096 .f32) (v29 : Vec Ideal S8x8 .f32) (b n : Fin 8) :
    k1_pay6 (F := Ideal) v3 v29 (ix2 b n) = v29 (ix2 b n) + ∑ j : Fin 4095, (v3 (ix3 b n (⟨j.val + 1, by omega⟩ : Fin 4096)) - v3 (ix3 b n (⟨j.val, by omega⟩ : Fin 4096))) * (v3 (ix3 b n (⟨j.val + 1, by omega⟩ : Fin 4096)) - v3 (ix3 b n (⟨j.val, by omega⟩ : Fin 4096))) := by
  unfold k1_pay6
  rw [addf_apply, shapeCast_self]
  refine congrArg (v29 (ix2 b n) + ·) ?_
  refine (sum3_last _ _ _ _ b n).trans ?_
  refine Finset.sum_congr rfl fun j _ => ?_
  rw [mulf_apply, subf_apply]
  rw [slice3_last_apply 1 v3 _ b n j ⟨j.val + 1, by omega⟩ (Nat.add_comm _ _),
    slice3_last_apply 0 v3 _ b n j ⟨j.val, by omega⟩ (Nat.zero_add _).symm]

/-! ## The reconstruction sums -/

/-- The real part: the running value plus the tile's sum of squared differences. -/
theorem pay0_re (v3 v4 v6 v7 : Vec Ideal S8x16384 .f32) (v19 : Vec Ideal S1x2 .f32) :
    k0_pay2 (F := Ideal) v3 v4 v6 v7 v19 (ix2 (0 : Fin 1) (0 : Fin 2)) = v19 (ix2 (0 : Fin 1) (0 : Fin 2)) + ∑ b : Fin 8, ∑ j : Fin 16384, (v3 (ix2 b j) - v4 (ix2 b j)) * (v3 (ix2 b j) - v4 (ix2 b j)) := by
  unfold k0_pay2
  rw [addf_apply, shapeCast_self]
  refine congrArg (v19 (ix2 (0 : Fin 1) (0 : Fin 2)) + ·) ?_
  refine (concatenate_pair_apply_left (t := S1x2) (s₁ := S1x1) (s₂ := S1x1) _ _ _ _ (ix2 (0 : Fin 1) (0 : Fin 2)) rfl (ix2 (0 : Fin 1) (0 : Fin 1))
    (fun c => by match c with | ⟨0, _⟩ => rfl | ⟨1, _⟩ => rfl)).trans ?_
  refine (shapeCast_a_1a_apply _ _ (0 : Fin 1) (0 : Fin 1)).trans ?_
  refine (sum2_first _ _ _ _ (0 : Fin 1)).trans ?_
  refine Finset.sum_congr rfl fun b _ => ?_
  refine (shapeCast_a_a1_apply _ _ b (0 : Fin 1)).trans ?_
  refine (sum2_last _ _ _ _ b).trans ?_
  rfl

/-- The imaginary part: the running value plus the tile's sum of squared differences. -/
theorem pay0_im (v3 v4 v6 v7 : Vec Ideal S8x16384 .f32) (v19 : Vec Ideal S1x2 .f32) :
    k0_pay2 (F := Ideal) v3 v4 v6 v7 v19 (ix2 (0 : Fin 1) (1 : Fin 2)) = v19 (ix2 (0 : Fin 1) (1 : Fin 2)) + ∑ b : Fin 8, ∑ j : Fin 16384, (v6 (ix2 b j) - v7 (ix2 b j)) * (v6 (ix2 b j) - v7 (ix2 b j)) := by
  unfold k0_pay2
  rw [addf_apply, shapeCast_self]
  refine congrArg (v19 (ix2 (0 : Fin 1) (1 : Fin 2)) + ·) ?_
  refine (concatenate_pair_apply_right (t := S1x2) (s₁ := S1x1) (s₂ := S1x1) _ _ _ _ (ix2 (0 : Fin 1) (1 : Fin 2)) rfl rfl (ix2 (0 : Fin 1) (0 : Fin 1))
    (fun c hc => by
      match c, hc with
      | ⟨0, _⟩, _ => rfl
      | ⟨1, _⟩, hc => exact (hc (Fin.ext rfl)).elim) rfl).trans ?_
  refine (shapeCast_a_1a_apply _ _ (0 : Fin 1) (0 : Fin 1)).trans ?_
  refine (sum2_first _ _ _ _ (0 : Fin 1)).trans ?_
  refine Finset.sum_congr rfl fun b _ => ?_
  refine (shapeCast_a_a1_apply _ _ b (0 : Fin 1)).trans ?_
  refine (sum2_last _ _ _ _ b).trans ?_
  rfl

/-! ## The masked sum -/

/-- A [a, b, 1] array broadcast along its unit axis reads, at (p, q, r), the operand at (p, q, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The mode mask as a number: the integer word compared with 1, widened and converted, is 1 where the word is 1 and 0
    elsewhere (a signed word converts to its value). -/
theorem mask_word (x : BitVec 32) :
    (FloatOps.sitofp (F := Ideal) .f32 ((IntOp.cmpi .eq x 1#32).setWidth 32) : EReal) = if x = 1#32 then 1 else 0 := by
  show ((((IntOp.cmpi .eq x 1#32).setWidth 32).toInt : ℝ) : EReal) = _
  by_cases h : x = 1#32
  · subst h
    rw [if_pos rfl]
    have e : ((IntOp.cmpi .eq 1#32 1#32).setWidth 32).toInt = 1 := by decide
    rw [e]; simp
  · rw [if_neg h]
    have e0 : IntOp.cmpi .eq x 1#32 = 0#1 := by
      have hb : (x == 1#32) = false := beq_eq_false_iff_ne.mpr h
      show BitVec.ofBool (x == 1#32) = 0#1
      rw [hb]
      rfl
    have e : ((0#1 : BitVec 1).setWidth 32).toInt = 0 := by decide
    rw [e0, e]; simp

/-- The masked term: the running value plus the tile's sum of ((e − g)·mask)². -/
theorem pay1_if (v3 v4 : Vec Ideal S8x8x4096 .f32) (v5 : Vec Ideal S8x8 .i32) (v20 : Vec Ideal S1x1 .f32) :
    k1_pay5 (F := Ideal) v3 v4 v5 v20 (ix2 (0 : Fin 1) (0 : Fin 1)) = v20 (ix2 (0 : Fin 1) (0 : Fin 1)) + ∑ b : Fin 8, ∑ n : Fin 8, ∑ j : Fin 4096, ((v3 (ix3 b n j) - v4 (ix3 b n j)) * maskf v5 b n) * ((v3 (ix3 b n j) - v4 (ix3 b n j)) * maskf v5 b n) := by
  unfold k1_pay5
  rw [addf_apply, shapeCast_self]
  refine congrArg (v20 (ix2 (0 : Fin 1) (0 : Fin 1)) + ·) ?_
  refine (shapeCast_a_1a_apply _ _ (0 : Fin 1) (0 : Fin 1)).trans ?_
  refine (sum2_first _ _ _ _ (0 : Fin 1)).trans ?_
  refine Finset.sum_congr rfl fun b _ => ?_
  refine (shapeCast_a_a1_apply _ _ b (0 : Fin 1)).trans ?_
  refine (sum2_last _ _ _ _ b).trans ?_
  refine Finset.sum_congr rfl fun n _ => ?_
  refine (sum3_last _ _ _ _ b n).trans ?_
  refine Finset.sum_congr rfl fun j _ => ?_
  rw [mulf_apply, mulf_apply, subf_apply, broadcastTo_ab1_abc_apply _ _ b n j,
    shapeCast_ab_ab1_apply _ _ b n (0 : Fin 1)]
  have hm : sitofp (F := Ideal) .f32 (extui 32 (cmpi .eq v5 (broadcast S8x8 1#32)) natLt_1_32) (ix2 b n) = maskf v5 b n :=
    mask_word (v5 (ix2 b n))
  rw [hm]

end Cert.KernelIdeal.PayValue

end
-- ==== Proof.KernelIdeal.Pieces.lean ====
/-
  What each case of the two kernel bodies leaves in an accumulator or in the carried scratch buffer, as the named
  arithmetic of the body applied to the values it loaded. Every load and every store of these bodies is of a whole
  buffer, so a load reads the buffer's contents, the last store leaves its payload, and a load after a store reads
  what was stored.
-/
import proofs.«167376_j249108103965_2_alg».proof.Proof.KernelIdeal.Frame0
import proofs.«167376_j249108103965_2_alg».proof.Proof.KernelIdeal.Frame1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 buffer, as the constant-zero function. -/
theorem hz2 : (![0, 0] : Fin 2 → Nat) = fun _ => 0 := funext fun a => by fin_cases a <;> rfl

/-- The zero offsets of a rank-3 buffer, as the constant-zero function. -/
theorem hz3 : (![0, 0, 0] : Fin 3 → Nat) = fun _ => 0 := funext fun a => by fin_cases a <;> rfl

/-! ## The first kernel -/

/-- At a later point the accumulator is left at the one whole-buffer store's payload: what was found there plus the
    tile's two sums, computed from the four whole input tiles. -/
theorem out0_B_4_eq (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : ¬cond0_0 i)
    (x0 x1 x2 x3 : Vec F S8x16384 .f32) (xo4 : Vec F S1x2 .f32) :
    out0_B_4 c i arg1 harg1 arg2 harg2 arg3 harg3 arg4 harg4 arg5 harg5 hc0 x0 x1 x2 x3 xo4 = k0_pay2 x0 x2 x1 x3 xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  rw [View.canon_unit_zero hz2]
  simp only [View.readAt_eq_ld, harg1.read_unread, harg2.read_unread, harg3.read_unread, harg4.read_unread,
    harg5.read_unread, View.ld_unit_zero (S := S8x16384) hz2, View.ld_unit_zero (S := S1x2) hz2]

/-- At the first point the accumulator is left at the second of two whole-buffer stores: the zeros the first store
    wrote, read back, plus the tile's two sums. -/
theorem out0_A_4_eq (c : Dev nD) (i : grid0.Coords) (arg1 : Memref sig .tc .vmem S8x16384 .f32) (harg1 : arg1.IsWhole) (arg2 : Memref sig .tc .vmem S8x16384 .f32) (harg2 : arg2.IsWhole) (arg3 : Memref sig .tc .vmem S8x16384 .f32) (harg3 : arg3.IsWhole) (arg4 : Memref sig .tc .vmem S8x16384 .f32) (harg4 : arg4.IsWhole) (arg5 : Memref sig .tc .vmem S1x2 .f32) (harg5 : arg5.IsWhole) (hc0 : cond0_0 i)
    (x0 x1 x2 x3 : Vec F S8x16384 .f32) :
    out0_A_4 c i arg1 harg1 arg2 harg2 arg3 harg3 arg4 harg4 arg5 harg5 hc0 x0 x1 x2 x3 = k0_pay2 x0 x2 x1 x3 (k0_pay1 (F := F)) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  rw [View.canon_cons_unit_zero (S := S1x2) hz2, View.readCov_unit_zero (S := S1x2) _ hz2]
  simp only [View.readAt_eq_ld, harg1.read_unread, harg2.read_unread, harg3.read_unread, harg4.read_unread,
    View.ld_unit_zero (S := S8x16384) hz2]

/-! ## The second kernel -/

/-- At the first point the [1,1] accumulator is left at the second of two whole-buffer stores: the zero the first
    store wrote, read back, plus the tile's masked sum of squares. -/
theorem out1_A_3_eq (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : out1_A_3 c i arg1 harg1 arg2 harg2 arg3 harg3 arg4 harg4 arg5 harg5 arg6 harg6 hc0 hc1 x0 x1 x2 = k1_pay5 x0 x1 x2 (k1_pay3 (F := F)) := by
  unfold out1_A_3
  rw [View.read_writes_eq_canon _ _ _ (cover1_A_3 c i arg1 harg1 arg2 harg2 arg3 harg3 arg4 harg4 arg5 harg5 arg6 harg6 hc0 hc1 x0 x1 x2)]
  unfold kernelRun1_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread,
    harg5.read_unread, harg6.read_unread, View.ld_unit_zero (S := S8x8x4096) hz3, View.ld_unit_zero (S := S8x8x1) hz3,
    View.ld_unit_zero (S := S8x8) hz2, View.ld_unit_zero (S := S1x1) hz2]

/-- At the first point the [8,8] accumulator is left at the second of two whole-buffer stores: the zeros the first
    store wrote, read back, plus each mode's sum of squared steps inside the tile. -/
theorem out1_A_4_eq (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : out1_A_4 c i arg1 harg1 arg2 harg2 arg3 harg3 arg4 harg4 arg5 harg5 arg6 harg6 hc0 hc1 x0 x1 x2 = k1_pay6 x0 (k1_pay4 (F := F)) := by
  unfold out1_A_4
  rw [View.read_writes_eq_canon _ _ _ (cover1_A_4 c i arg1 harg1 arg2 harg2 arg3 harg3 arg4 harg4 arg5 harg5 arg6 harg6 hc0 hc1 x0 x1 x2)]
  unfold kernelRun1_A
  dsimp only
  sl_unfold_words
  rw [View.canon_cons_unit_zero (S := S8x8) hz2, View.readCov_unit_zero (S := S8x8) _ hz2]
  simp only [View.readAt_eq_ld, harg1.read_unread, harg2.read_unread, harg3.read_unread, harg4.read_unread,
    harg5.read_unread, harg6.read_unread, View.ld_unit_zero (S := S8x8x4096) hz3, View.ld_unit_zero (S := S8x8x1) hz3,
    View.ld_unit_zero (S := S8x8) hz2, View.ld_unit_zero (S := S1x1) hz2]

/-- At the first point the scratch buffer is left at its one whole-buffer store: the tile's last column. -/
theorem sout1_A_0_eq (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : cond1_0 i) (hc1 : ¬cond1_1 i)
    (x0 x1 : Vec F S8x8x4096 .f32) (x2 : Vec F S8x8 .i32) : sout1_A_0 c i arg1 harg1 arg2 harg2 arg3 harg3 arg4 harg4 arg5 harg5 arg6 harg6 hc0 hc1 x0 x1 x2 = k1_pay2 x0 := by
  unfold sout1_A_0
  rw [View.read_writes_eq_canon _ _ _ (scover1_A_0 c i arg1 harg1 arg2 harg2 arg3 harg3 arg4 harg4 arg5 harg5 arg6 harg6 hc0 hc1 x0 x1 x2)]
  unfold kernelRun1_A
  dsimp only
  sl_unfold_words
  rw [View.canon_unit_zero (S := S8x8x1) hz3]
  simp only [View.readAt_eq_ld, harg1.read_unread, harg2.read_unread, harg3.read_unread, harg4.read_unread,
    harg5.read_unread, harg6.read_unread, View.ld_unit_zero (S := S8x8x4096) hz3, View.ld_unit_zero (S := S8x8x1) hz3,
    View.ld_unit_zero (S := S8x8) hz2, View.ld_unit_zero (S := S1x1) hz2]

/-- At a later point the [1,1] accumulator is left at its one whole-buffer store: what was found there plus the tile's
    masked sum of squares. -/
theorem out1_B_3_eq (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : out1_B_3 c i arg1 harg1 arg2 harg2 arg3 harg3 arg4 harg4 arg5 harg5 arg6 harg6 hc0 hc1 x0 x1 x2 xo3 xo4 xs0 = k1_pay5 x0 x1 x2 xo3 := by
  unfold out1_B_3
  rw [View.read_writes_eq_canon _ _ _ (cover1_B_3 c i arg1 harg1 arg2 harg2 arg3 harg3 arg4 harg4 arg5 harg5 arg6 harg6 hc0 hc1 x0 x1 x2 xo3 xo4 xs0)]
  unfold kernelRun1_B
  dsimp only
  sl_unfold_words
  rw [View.canon_unit_zero (S := S1x1) hz2]
  simp only [View.readAt_eq_ld, harg1.read_unread, harg2.read_unread, harg3.read_unread, harg4.read_unread,
    harg5.read_unread, harg6.read_unread, View.ld_unit_zero (S := S8x8x4096) hz3, View.ld_unit_zero (S := S8x8x1) hz3,
    View.ld_unit_zero (S := S8x8) hz2, View.ld_unit_zero (S := S1x1) hz2]

/-- At a later point the [8,8] accumulator is left at the second of two whole-buffer stores: the first adds each mode's
    sum of squared steps inside the tile to what was found there; the second reads that back and adds the squared step
    from the carried column to the tile's first column. -/
theorem out1_B_4_eq (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : out1_B_4 c i arg1 harg1 arg2 harg2 arg3 harg3 arg4 harg4 arg5 harg5 arg6 harg6 hc0 hc1 x0 x1 x2 xo3 xo4 xs0 = k1_pay1 x0 xs0 (k1_pay6 x0 xo4) := by
  unfold out1_B_4
  rw [View.read_writes_eq_canon _ _ _ (cover1_B_4 c i arg1 harg1 arg2 harg2 arg3 harg3 arg4 harg4 arg5 harg5 arg6 harg6 hc0 hc1 x0 x1 x2 xo3 xo4 xs0)]
  unfold kernelRun1_B
  dsimp only
  sl_unfold_words
  rw [View.canon_cons_unit_zero (S := S8x8) hz2, View.readCov_unit_zero (S := S8x8) _ hz2]
  simp only [View.readAt_eq_ld, harg1.read_unread, harg2.read_unread, harg3.read_unread, harg4.read_unread,
    harg5.read_unread, harg6.read_unread, View.ld_unit_zero (S := S8x8x4096) hz3, View.ld_unit_zero (S := S8x8x1) hz3,
    View.ld_unit_zero (S := S8x8) hz2, View.ld_unit_zero (S := S1x1) hz2]

/-- At a later point the scratch buffer is left at its one whole-buffer store: the tile's last column. -/
theorem sout1_B_0_eq (c : Dev nD) (i : grid1.Coords) (arg1 : Memref sig .tc .vmem S8x8x4096 .f32) (harg1 : arg1.IsWhole) (arg2 : Memref sig .tc .vmem S8x8x4096 .f32) (harg2 : arg2.IsWhole) (arg3 : Memref sig .tc .vmem S8x8 .i32) (harg3 : arg3.IsWhole) (arg4 : Memref sig .tc .vmem S1x1 .f32) (harg4 : arg4.IsWhole) (arg5 : Memref sig .tc .vmem S8x8 .f32) (harg5 : arg5.IsWhole) (arg6 : Memref sig .tc .vmem S8x8x1 .f32) (harg6 : arg6.IsWhole) (hc0 : ¬cond1_0 i) (hc1 : cond1_1 i)
    (x0 x1 : Vec F S8x8x4096 .f32) (x2 : Vec F S8x8 .i32) (xo3 : Vec F S1x1 .f32) (xo4 : Vec F S8x8 .f32) (xs0 : Vec F S8x8x1 .f32) : sout1_B_0 c i arg1 harg1 arg2 harg2 arg3 harg3 arg4 harg4 arg5 harg5 arg6 harg6 hc0 hc1 x0 x1 x2 xo3 xo4 xs0 = k1_pay2 x0 := by
  unfold sout1_B_0
  rw [View.read_writes_eq_canon _ _ _ (scover1_B_0 c i arg1 harg1 arg2 harg2 arg3 harg3 arg4 harg4 arg5 harg5 arg6 harg6 hc0 hc1 x0 x1 x2 xo3 xo4 xs0)]
  unfold kernelRun1_B
  dsimp only
  sl_unfold_words
  rw [View.canon_unit_zero (S := S8x8x1) hz3]
  simp only [View.readAt_eq_ld, harg1.read_unread, harg2.read_unread, harg3.read_unread, harg4.read_unread,
    harg5.read_unread, harg6.read_unread, View.ld_unit_zero (S := S8x8x4096) hz3, View.ld_unit_zero (S := S8x8x1) hz3,
    View.ld_unit_zero (S := S8x8) hz2, View.ld_unit_zero (S := S1x1) hz2]

end Cert.KernelIdeal.Frame

end
-- ==== Proof.KernelIdeal.Accum0p.lean ====
/-
  The first kernel's [1, 2] accumulator after the last grid point holds the specification's two tile-arranged sums of
  squared differences: after point n each entry holds the parts of tiles 0 … n, by induction on n.
-/
import proofs.«167376_j249108103965_2_alg».proof.Proof.KernelIdeal.Blocks
import proofs.«167376_j249108103965_2_alg».proof.Proof.PayIdeal
import proofs.«167376_j249108103965_2_alg».proof.Proof.KernelIdeal.Pieces

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossSpec Cert.KernelIdeal.PayValue Idealize.ShloMosaic.ValueIdx
open scoped BigOperators

variable {F : FTy → Type} [FloatOps F]

local notation "𝕄" => MT nD τ sig Unit (Elt F) ℕ (UR sig nD τ) ℕ

-- what the core's TensorCore buffers hold when the region is entered, at the ideal values
variable (V : (c : Dev nD) → (b : Ref sig .tc) → Buf (Elt Ideal) ((c : Thread nD τ).loc b))

/-! ## The first kernel: the two sums of squared differences -/

/-- One tile's part of the sum of squared differences. -/
def sqTile (a c : A2) (k : Fin 16) : EReal :=
  ∑ b : Fin 8, ∑ j : Fin 16384,
    (a (ix2 b (col16 k j)) - c (ix2 b (col16 k j))) * (a (ix2 b (col16 k j)) - c (ix2 b (col16 k j)))

/-- The whole sum is the sum of the tiles' parts. -/
theorem sqDiff_eq_sum (a c : A2) : sqDiff a c = ∑ k : Fin 16, sqTile a c k := rfl

/-- A tile's part by its number, zero past the last tile. -/
def sqAt (a c : A2) (k : ℕ) : EReal := if h : k < 16 then sqTile a c ⟨k, h⟩ else 0

/-- Two blocks that are tile k of two arrays have that tile's part as their sum of squared differences. -/
theorem tile_sq (x y : Vec Ideal S8x16384 .f32) (a c : A2) (k : Fin 16)
    (hx : ∀ b j, x (ix2 b j) = a (ix2 b (col16 k j))) (hy : ∀ b j, y (ix2 b j) = c (ix2 b (col16 k j))) :
    (∑ b : Fin 8, ∑ j : Fin 16384, (x (ix2 b j) - y (ix2 b j)) * (x (ix2 b j) - y (ix2 b j))) = sqTile a c k := by
  unfold sqTile
  refine Finset.sum_congr rfl fun b _ => Finset.sum_congr rfl fun j _ => ?_
  rw [hx, hy]

/-- After point n the real-part entry holds the parts of tiles 0 … n. -/
theorem acc0_re_upto (c : Dev nD) : ∀ (n : ℕ) (hn : n < cfg0.N),
    outsAt0 V c n hn (ix2 (0 : Fin 1) (0 : Fin 2)) = ∑ k ∈ Finset.range (n + 1), sqAt (V c main_arg0) (V c main_arg2) k := by
  intro n
  induction n with
  | zero =>
    intro hn
    rw [show outsAt0 V c 0 hn = _ from outsAt0_A V c ⟨0, hn⟩ (Nat.zero_mod _), out0_A_4_eq, pay0_re, pay0_zero, zero_add,
      Finset.sum_range_one]
    unfold sqAt
    rw [dif_pos (by omega)]
    exact tile_sq _ _ _ _ ⟨0, by omega⟩ (fun b j => iblk0_apply_0 V c ⟨0, hn⟩ b j) (fun b j => iblk0_apply_2 V c ⟨0, hn⟩ b j)
  | succ n ih =>
    intro hn
    have hN : cfg0.N = 16 := N_0
    have h0 : ¬(n + 1) % 16 = 0 := by omega
    rw [show outsAt0 V c (n + 1) hn = _ from outsAt0_B V c ⟨n + 1, hn⟩ h0, out0_B_4_eq, pay0_re]
    rw [show outsAt0 V c ((⟨n + 1, hn⟩ : Fin cfg0.N).val - 1) _ = outsAt0 V c n (Nat.lt_of_succ_lt hn) from rfl, ih (Nat.lt_of_succ_lt hn),
      Finset.sum_range_succ _ (n + 1)]
    refine congrArg (_ + ·) ?_
    unfold sqAt
    rw [dif_pos (by omega)]
    exact tile_sq _ _ _ _ ⟨n + 1, by omega⟩ (fun b j => iblk0_apply_0 V c ⟨n + 1, hn⟩ b j) (fun b j => iblk0_apply_2 V c ⟨n + 1, hn⟩ b j)

/-- After point n the imaginary-part entry holds the parts of tiles 0 … n. -/
theorem acc0_im_upto (c : Dev nD) : ∀ (n : ℕ) (hn : n < cfg0.N),
    outsAt0 V c n hn (ix2 (0 : Fin 1) (1 : Fin 2)) = ∑ k ∈ Finset.range (n + 1), sqAt (V c main_arg1) (V c main_arg3) k := by
  intro n
  induction n with
  | zero =>
    intro hn
    rw [show outsAt0 V c 0 hn = _ from outsAt0_A V c ⟨0, hn⟩ (Nat.zero_mod _), out0_A_4_eq, pay0_im, pay0_zero, zero_add,
      Finset.sum_range_one]
    unfold sqAt
    rw [dif_pos (by omega)]
    exact tile_sq _ _ _ _ ⟨0, by omega⟩ (fun b j => iblk0_apply_1 V c ⟨0, hn⟩ b j) (fun b j => iblk0_apply_3 V c ⟨0, hn⟩ b j)
  | succ n ih =>
    intro hn
    have hN : cfg0.N = 16 := N_0
    have h0 : ¬(n + 1) % 16 = 0 := by omega
    rw [show outsAt0 V c (n + 1) hn = _ from outsAt0_B V c ⟨n + 1, hn⟩ h0, out0_B_4_eq, pay0_im]
    rw [show outsAt0 V c ((⟨n + 1, hn⟩ : Fin cfg0.N).val - 1) _ = outsAt0 V c n (Nat.lt_of_succ_lt hn) from rfl, ih (Nat.lt_of_succ_lt hn),
      Finset.sum_range_succ _ (n + 1)]
    refine congrArg (_ + ·) ?_
    unfold sqAt
    rw [dif_pos (by omega)]
    exact tile_sq _ _ _ _ ⟨n + 1, by omega⟩ (fun b j => iblk0_apply_1 V c ⟨n + 1, hn⟩ b j) (fun b j => iblk0_apply_3 V c ⟨n + 1, hn⟩ b j)

/-- The parts of tiles 0 … 15 are the whole sum. -/
theorem sum_sqAt (a c : A2) : ∑ k ∈ Finset.range 16, sqAt a c k = sqDiff a c := by
  rw [sqDiff_eq_sum, Finset.sum_range]
  refine Finset.sum_congr rfl fun k _ => ?_
  unfold sqAt
  rw [dif_pos k.isLt]

/-- After the last point the real-part entry is the sum of squared differences of the first and third inputs. -/
theorem acc0_re (c : Dev nD) : outsAt0 (F := Ideal) V c 15 (by rw [show cfg0.N = 16 from N_0]; omega) (ix2 (0 : Fin 1) (0 : Fin 2)) = sqDiff (V c main_arg0) (V c main_arg2) := by
  rw [acc0_re_upto V c 15, sum_sqAt]

/-- After the last point the imaginary-part entry is the sum of squared differences of the second and fourth inputs. -/
theorem acc0_im (c : Dev nD) : outsAt0 (F := Ideal) V c 15 (by rw [show cfg0.N = 16 from N_0]; omega) (ix2 (0 : Fin 1) (1 : Fin 2)) = sqDiff (V c main_arg1) (V c main_arg3) := by
  rw [acc0_im_upto V c 15, sum_sqAt]

end Cert.KernelIdeal.Frame

end
-- ==== Proof.KernelIdeal.Accum1.lean ====
/-
  The second kernel's accumulators after the last grid point are the specification's tile-arranged sums: the [1, 1]
  accumulator holds the masked sum of squares, the [8, 8] accumulator each mode's sum of squared consecutive differences
  along the whole time axis — the differences inside the tiles plus, through the carried last column, those across the
  tile boundaries. After point n each holds the parts of tiles 0 … n (and of boundaries 0 … n − 1), by induction on n.
-/
import proofs.«167376_j249108103965_2_alg».proof.Proof.KernelIdeal.Blocks
import proofs.«167376_j249108103965_2_alg».proof.Proof.PayIdeal
import proofs.«167376_j249108103965_2_alg».proof.Proof.KernelIdeal.Pieces

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossSpec Cert.KernelIdeal.PayValue Idealize.ShloMosaic.ValueIdx
open scoped BigOperators

variable {F : FTy → Type} [FloatOps F]

local notation "𝕄" => MT nD τ sig Unit (Elt F) ℕ (UR sig nD τ) ℕ

-- what the core's TensorCore buffers hold when the region is entered, at the ideal values
variable (V : (c : Dev nD) → (b : Ref sig .tc) → Buf (Elt Ideal) ((c : Thread nD τ).loc b))

/-! ## The parts of the sums, tile by tile -/

/-- One tile's part of the masked sum of squares. -/
def ifTile (e g : A3) (mk : Mk) (k : Fin 64) : EReal :=
  ∑ b : Fin 8, ∑ n : Fin 8, ∑ j : Fin 4096,
    ((e (ix3 b n (col64 k j)) - g (ix3 b n (col64 k j))) * maskf mk b n)
      * ((e (ix3 b n (col64 k j)) - g (ix3 b n (col64 k j))) * maskf mk b n)

/-- The whole masked sum is the sum of the tiles' parts. -/
theorem ifSum_eq_sum (e g : A3) (mk : Mk) : ifSum e g mk = ∑ k : Fin 64, ifTile e g mk k := rfl

/-- A tile's part of the masked sum by its number, zero past the last tile. -/
def ifAt (e g : A3) (mk : Mk) (k : ℕ) : EReal := if h : k < 64 then ifTile e g mk ⟨k, h⟩ else 0

/-- A mode's squared differences inside a tile by the tile's number, zero past the last tile. -/
def intraAt (e : A3) (b n : Fin 8) (k : ℕ) : EReal := if h : k < 64 then intra e b n ⟨k, h⟩ else 0

/-- A mode's squared difference across the boundary after tile k, zero past the last boundary. -/
def bndAt (e : A3) (b n : Fin 8) (k : ℕ) : EReal := if h : k < 63 then bnd e b n ⟨k, h⟩ else 0

/-- Two blocks that are tile k of two arrays, under the mask, have that tile's part as their masked sum of squares. -/
theorem tile_if (x y : Vec Ideal S8x8x4096 .f32) (m : Vec Ideal S8x8 .i32) (e g : A3) (mk : Mk) (k : Fin 64)
    (hx : ∀ b n j, x (ix3 b n j) = e (ix3 b n (col64 k j))) (hy : ∀ b n j, y (ix3 b n j) = g (ix3 b n (col64 k j)))
    (hm : m = mk) :
    (∑ b : Fin 8, ∑ n : Fin 8, ∑ j : Fin 4096, ((x (ix3 b n j) - y (ix3 b n j)) * maskf m b n) * ((x (ix3 b n j) - y (ix3 b n j)) * maskf m b n))
      = ifTile e g mk k := by
  subst hm
  unfold ifTile
  refine Finset.sum_congr rfl fun b _ => Finset.sum_congr rfl fun n _ => Finset.sum_congr rfl fun j _ => ?_
  rw [hx, hy]

/-- A block that is tile k of an array has, mode by mode, that tile's squared consecutive differences. -/
theorem tile_intra (x : Vec Ideal S8x8x4096 .f32) (e : A3) (b n : Fin 8) (k : Fin 64)
    (hx : ∀ j, x (ix3 b n j) = e (ix3 b n (col64 k j))) :
    (∑ j : Fin 4095, (x (ix3 b n (⟨j.val + 1, by omega⟩ : Fin 4096)) - x (ix3 b n (⟨j.val, by omega⟩ : Fin 4096))) * (x (ix3 b n (⟨j.val + 1, by omega⟩ : Fin 4096)) - x (ix3 b n (⟨j.val, by omega⟩ : Fin 4096))))
      = intra e b n k := by
  unfold intra
  refine Finset.sum_congr rfl fun j _ => ?_
  rw [hx, hx]

/-! ## The carried column -/

/-- After point n the scratch column is the last column of tile n. -/
theorem carry_at (c : Dev nD) (n : ℕ) (hn : n < cfg1.N) (b n' : Fin 8) :
    (outsAt1 V c n hn).2.2 (ix3 b n' (0 : Fin 1))
      = (V c main_arg4 : A3) (ix3 b n' (col64 ⟨n, by have : cfg1.N = 64 := N_1; omega⟩ ⟨4095, by omega⟩)) := by
  have hN : cfg1.N = 64 := N_1
  cases n with
  | zero =>
    rw [show outsAt1 V c 0 hn = _ from outsAt1_A V c ⟨0, hn⟩ (Nat.zero_mod _)]
    dsimp only
    rw [sout1_A_0_eq, pay1_carry]
    exact iblk1_apply_0 V c ⟨0, hn⟩ b n' ⟨4095, by omega⟩
  | succ n =>
    have h0 : ¬(n + 1) % 64 = 0 := by omega
    rw [show outsAt1 V c (n + 1) hn = _ from outsAt1_B V c ⟨n + 1, hn⟩ h0]
    dsimp only
    rw [sout1_B_0_eq, pay1_carry]
    exact iblk1_apply_0 V c ⟨n + 1, hn⟩ b n' ⟨4095, by omega⟩

/-! ## The masked sum -/

/-- After point n the [1, 1] accumulator holds the parts of tiles 0 … n. -/
theorem acc1_if_upto (c : Dev nD) : ∀ (n : ℕ) (hn : n < cfg1.N),
    (outsAt1 V c n hn).1 (ix2 (0 : Fin 1) (0 : Fin 1)) = ∑ k ∈ Finset.range (n + 1), ifAt (V c main_arg4) (V c main_arg5) (V c main_arg6) k := by
  intro n
  induction n with
  | zero =>
    intro hn
    rw [show outsAt1 V c 0 hn = _ from outsAt1_A V c ⟨0, hn⟩ (Nat.zero_mod _)]
    dsimp only
    rw [out1_A_3_eq, pay1_if, pay1_zero_if, zero_add, Finset.sum_range_one]
    unfold ifAt
    rw [dif_pos (by omega)]
    exact tile_if _ _ _ _ _ _ ⟨0, by omega⟩ (fun b n j => iblk1_apply_0 V c ⟨0, hn⟩ b n j) (fun b n j => iblk1_apply_1 V c ⟨0, hn⟩ b n j)
      (iblk1_apply_2 V c ⟨0, hn⟩)
  | succ n ih =>
    intro hn
    have hN : cfg1.N = 64 := N_1
    have h0 : ¬(n + 1) % 64 = 0 := by omega
    rw [show outsAt1 V c (n + 1) hn = _ from outsAt1_B V c ⟨n + 1, hn⟩ h0]
    dsimp only
    rw [out1_B_3_eq, pay1_if]
    rw [show outsAt1 V c (n + 1 - 1) _ = outsAt1 V c n (Nat.lt_of_succ_lt hn) from rfl, ih (Nat.lt_of_succ_lt hn),
      Finset.sum_range_succ _ (n + 1)]
    refine congrArg (_ + ·) ?_
    unfold ifAt
    rw [dif_pos (by omega)]
    exact tile_if _ _ _ _ _ _ ⟨n + 1, by omega⟩ (fun b n' j => iblk1_apply_0 V c ⟨n + 1, hn⟩ b n' j) (fun b n' j => iblk1_apply_1 V c ⟨n + 1, hn⟩ b n' j)
      (iblk1_apply_2 V c ⟨n + 1, hn⟩)

/-- The parts of tiles 0 … 63 are the whole masked sum. -/
theorem sum_ifAt (e g : A3) (mk : Mk) : ∑ k ∈ Finset.range 64, ifAt e g mk k = ifSum e g mk := by
  rw [ifSum_eq_sum, Finset.sum_range]
  refine Finset.sum_congr rfl fun k _ => ?_
  unfold ifAt
  rw [dif_pos k.isLt]

/-- After the last point the [1, 1] accumulator is the masked sum of squares. -/
theorem acc1_if (c : Dev nD) : (outsAt1 (F := Ideal) V c 63 (by rw [show cfg1.N = 64 from N_1]; omega)).1 (ix2 (0 : Fin 1) (0 : Fin 1)) = ifSum (V c main_arg4) (V c main_arg5) (V c main_arg6) := by
  rw [acc1_if_upto V c 63, sum_ifAt]

/-! ## The smoothness sums -/

/-- One later point's step, for one mode: a running value that holds the in-tile differences of tiles 0 … k and the
    differences across boundaries 0 … k − 1, plus tile k + 1's in-tile differences, plus the squared difference between
    tile k + 1's first column and tile k's last column, holds those of tiles 0 … k + 1 and boundaries 0 … k. -/
theorem mode_step (x : Vec Ideal S8x8x4096 .f32) (e : A3) (b n : Fin 8) (k : ℕ) (hk : k + 1 < 64) (acc prev : EReal)
    (hx : ∀ j, x (ix3 b n j) = e (ix3 b n (col64 ⟨k + 1, hk⟩ j)))
    (hprev : prev = e (ix3 b n (col64 ⟨k, by omega⟩ ⟨4095, by omega⟩)))
    (hacc : acc = ∑ i ∈ Finset.range (k + 1), intraAt e b n i + ∑ i ∈ Finset.range k, bndAt e b n i) :
    (acc + ∑ j : Fin 4095, (x (ix3 b n (⟨j.val + 1, by omega⟩ : Fin 4096)) - x (ix3 b n (⟨j.val, by omega⟩ : Fin 4096))) * (x (ix3 b n (⟨j.val + 1, by omega⟩ : Fin 4096)) - x (ix3 b n (⟨j.val, by omega⟩ : Fin 4096))))
        + (x (ix3 b n (⟨0, by omega⟩ : Fin 4096)) - prev) * (x (ix3 b n (⟨0, by omega⟩ : Fin 4096)) - prev)
      = ∑ i ∈ Finset.range (k + 1 + 1), intraAt e b n i + ∑ i ∈ Finset.range (k + 1), bndAt e b n i := by
  have hI : (∑ j : Fin 4095, (x (ix3 b n (⟨j.val + 1, by omega⟩ : Fin 4096)) - x (ix3 b n (⟨j.val, by omega⟩ : Fin 4096))) * (x (ix3 b n (⟨j.val + 1, by omega⟩ : Fin 4096)) - x (ix3 b n (⟨j.val, by omega⟩ : Fin 4096))))
      = intraAt e b n (k + 1) := by
    unfold intraAt
    rw [dif_pos hk]
    exact tile_intra x e b n ⟨k + 1, hk⟩ hx
  have hB : (x (ix3 b n (⟨0, by omega⟩ : Fin 4096)) - prev) * (x (ix3 b n (⟨0, by omega⟩ : Fin 4096)) - prev) = bndAt e b n k := by
    unfold bndAt
    rw [dif_pos (by omega), hprev, hx]
    rfl
  rw [hI, hB, hacc, Finset.sum_range_succ (fun i => intraAt e b n i) (k + 1), Finset.sum_range_succ (fun i => bndAt e b n i) k]
  exact (add_assoc _ _ _).trans (add_add_add_comm _ _ _ _)

/-- After point n the [8, 8] accumulator holds, mode by mode, the in-tile differences of tiles 0 … n and the
    differences across boundaries 0 … n − 1. -/
theorem acc1_mode_upto (c : Dev nD) (b n' : Fin 8) : ∀ (n : ℕ) (hn : n < cfg1.N),
    (outsAt1 V c n hn).2.1 (ix2 b n')
      = ∑ k ∈ Finset.range (n + 1), intraAt (V c main_arg4) b n' k + ∑ k ∈ Finset.range n, bndAt (V c main_arg4) b n' k := by
  intro n
  induction n with
  | zero =>
    intro hn
    rw [show outsAt1 V c 0 hn = _ from outsAt1_A V c ⟨0, hn⟩ (Nat.zero_mod _)]
    dsimp only
    rw [out1_A_4_eq, pay1_intra, pay1_zero_mode, zero_add, Finset.sum_range_one, Finset.sum_range_zero, add_zero]
    unfold intraAt
    rw [dif_pos (by omega)]
    exact tile_intra _ _ b n' ⟨0, by omega⟩ (fun j => iblk1_apply_0 V c ⟨0, hn⟩ b n' j)
  | succ n ih =>
    intro hn
    have hN : cfg1.N = 64 := N_1
    have h0 : ¬(n + 1) % 64 = 0 := by omega
    rw [show outsAt1 V c (n + 1) hn = _ from outsAt1_B V c ⟨n + 1, hn⟩ h0]
    dsimp only
    rw [out1_B_4_eq, pay1_bnd, pay1_intra]
    exact mode_step _ (V c main_arg4) b n' n (by omega) _ _ (fun j => iblk1_apply_0 V c ⟨n + 1, hn⟩ b n' j)
      (carry_at V c n (Nat.lt_of_succ_lt hn) b n') (ih (Nat.lt_of_succ_lt hn))

/-- The in-tile parts of tiles 0 … 63 and the parts of boundaries 0 … 62 are a mode's whole smoothness sum. -/
theorem sum_modeAt (e : A3) (b n : Fin 8) :
    ∑ k ∈ Finset.range 64, intraAt e b n k + ∑ k ∈ Finset.range 63, bndAt e b n k = modeSum e b n := by
  unfold modeSum
  rw [Finset.sum_range, Finset.sum_range]
  refine congrArg₂ (· + ·) (Finset.sum_congr rfl fun k _ => ?_) (Finset.sum_congr rfl fun k _ => ?_)
  · unfold intraAt
    rw [dif_pos k.isLt]
  · unfold bndAt
    rw [dif_pos k.isLt]

/-- After the last point the [8, 8] accumulator is, mode by mode, the sum of squared consecutive differences along the
    whole time axis. -/
theorem acc1_mode (c : Dev nD) (b n : Fin 8) : (outsAt1 (F := Ideal) V c 63 (by rw [show cfg1.N = 64 from N_1]; omega)).2.1 (ix2 b n) = modeSum (V c main_arg4) b n := by
  rw [acc1_mode_upto V c b n 63, sum_modeAt]

end Cert.KernelIdeal.Frame

end
-- ==== Proof.ResultFns.lean ====
/-
  The four results as functions of the argument arrays: the host operations' named functions (recon = a/2^21 + b/2^21,
  if = a/2^24, smooth = Σ (modes/262143 · mask) / max(count, 1), total = (recon + 0.5·if) + (count > 0 ? 0.1·smooth : 0))
  applied to the specification's sums of the launch contents.
-/
import proofs.«167376_j249108103965_2_alg».proof.Proof.KernelIdeal.Tail
import proofs.«167376_j249108103965_2_alg».proof.Proof.LossSpec

noncomputable section

namespace Cert.KernelIdeal.Frame

open Cert.KernelIdeal Cert.KernelIdeal.Gen Cert.LossSpec
open Idealize.ShloMosaic Idealize.ShloMosaic.TcCoe Idealize.SL.Sem Idealize.ShloMosaic.ValueIdx

variable (m : (ℓ : Loc nD τ sig) → Buf (Elt Ideal) ℓ)

/-- The argument arrays on core `c`, as the launch memory holds them. -/
abbrev argA (c : Dev nD) (b : Ref sig .tc) : Buf (Elt Ideal) ((c : Thread nD τ).loc b) := m ((c : Thread nD τ).loc b)

/-- The four results as functions of the argument arrays. -/
def reconOf (c : Dev nD) : FVec Ideal S_ .f32 :=
  tReconOf (F := Ideal) (fun _ => sqDiff (argA m c main_arg0) (argA m c main_arg2)) (fun _ => sqDiff (argA m c main_arg1) (argA m c main_arg3))
def ifOf (c : Dev nD) : FVec Ideal S_ .f32 :=
  tIfOf (F := Ideal) (fun _ => ifSum (argA m c main_arg4) (argA m c main_arg5) (argA m c main_arg6))
def smoothOf (c : Dev nD) : FVec Ideal S_ .f32 :=
  tSmoothOf (F := Ideal) (fun i => modeSum (argA m c main_arg4) (i 0) (i 1)) (argA m c main_arg6)
def totalOf (c : Dev nD) : FVec Ideal S_ .f32 :=
  tTotalOf (F := Ideal) (reconOf m c) (ifOf m c) (smoothOf m c) (argA m c main_arg6)

end Cert.KernelIdeal.Frame

end
-- ==== Proof.Bridge.lean ====
/-
  The idealized kernel's four results, as functions of its argument arrays. After the two regions the [1,2] array holds
  the two reconstruction sums of squares, the [1,1] array the masked instantaneous-frequency sum of squares, and the
  [8,8] array each mode's sum of squared consecutive differences — the specification's tile-arranged sums, reached by
  accumulation over the grid points — and the host operations that follow turn them into
      recon  = s_re / 2^21 + s_im / 2^21,   if = s_if / 2^24,
      smooth = Σ (modes / 262143 · mask) / max(count, 1),   total = (recon + 0.5·if) + (count > 0 ? 0.1·smooth : 0).
-/
import proofs.«167376_j249108103965_2_alg».proof.Proof.KernelIdeal.Values
import proofs.«167376_j249108103965_2_alg».proof.Proof.KernelIdeal.Tail
import proofs.«167376_j249108103965_2_alg».proof.Proof.KernelIdeal.TailIdeal
import proofs.«167376_j249108103965_2_alg».proof.Proof.KernelIdeal.Accum0p
import proofs.«167376_j249108103965_2_alg».proof.Proof.KernelIdeal.Accum1
import proofs.«167376_j249108103965_2_alg».proof.Proof.ResultFns

set_option maxRecDepth 16384

noncomputable section

namespace Cert.KernelIdeal.Frame

open Cert.KernelIdeal Cert.KernelIdeal.Gen Cert.LossSpec
open Idealize.ShloMosaic Idealize.ShloMosaic.TcCoe Idealize.SL.Sem Idealize.ShloMosaic.ValueIdx

variable (m : (ℓ : Loc nD τ sig) → Buf (Elt Ideal) ℓ) (ρ : Dev nD → PrngReg)

-- the accumulations are cited through their proved values only, never unfolded
attribute [local irreducible] outsAt0 outsAt1

/-- The first entry of the [1,2] array after the regions is the real part's sum of squares. -/
theorem pick0_val (c : Dev nD) :
    tPick0 (F := Ideal) (W2 m ρ c (Proc.devRef .tc main_v0)) = fun _ => sqDiff (argA m c main_arg0) (argA m c main_arg2) := by
  rw [W2_v0, tPick0_eq]
  funext _
  exact acc0_re (V0 m ρ) c
/-- Its second entry is the imaginary part's. -/
theorem pick1_val (c : Dev nD) :
    tPick1 (F := Ideal) (W2 m ρ c (Proc.devRef .tc main_v0)) = fun _ => sqDiff (argA m c main_arg1) (argA m c main_arg3) := by
  rw [W2_v0, tPick1_eq]
  funext _
  exact acc0_im (V0 m ρ) c
/-- The [1,1] array's entry is the masked instantaneous-frequency sum of squares. -/
theorem pickIf_val (c : Dev nD) :
    tPickIf (F := Ideal) (W2 m ρ c (Proc.devRef .tc main_v1_0)) = fun _ => ifSum (argA m c main_arg4) (argA m c main_arg5) (argA m c main_arg6) := by
  rw [W2_v1_0, tPickIf_eq]
  funext _
  refine (acc1_if (V1 m ρ) c).trans ?_
  rw [V1_arg4, V1_arg5, V1_arg6]
/-- The [8,8] array holds each mode's sum of squared consecutive differences. -/
theorem modes_val (c : Dev nD) :
    (W2 m ρ c (Proc.devRef .tc main_v1_1) : FVec Ideal S8x8 .f32) = fun i => modeSum (argA m c main_arg4) (i 0) (i 1) := by
  rw [W2_v1_1]
  funext i
  obtain ⟨b, n, rfl⟩ : ∃ (b n : Fin 8), i = ix2 b n := ⟨i 0, i 1, eq_ix2 i⟩
  refine (acc1_mode (V1 m ρ) c b n).trans ?_
  rw [V1_arg4]
  rfl

theorem recon_val (c : Dev nD) : W5 m ρ c (Proc.devRef .tc main_v8) = reconOf m c := by
  show afterTail (W2 m ρ c) (Proc.devRef .tc main_v8) = _
  rw [tail_recon, pick0_val, pick1_val]; rfl
theorem if_val (c : Dev nD) : W5 m ρ c (Proc.devRef .tc main_v11) = ifOf m c := by
  show afterTail (W2 m ρ c) (Proc.devRef .tc main_v11) = _
  rw [tail_if, pickIf_val]; rfl
theorem smooth_val (c : Dev nD) : W5 m ρ c (Proc.devRef .tc main_v23) = smoothOf m c := by
  show afterTail (W2 m ρ c) (Proc.devRef .tc main_v23) = _
  rw [tail_smooth, modes_val, W2_arg6]; rfl
theorem total_val (c : Dev nD) : W5 m ρ c (Proc.devRef .tc main_v27) = totalOf m c := by
  show afterTail (W2 m ρ c) (Proc.devRef .tc main_v27) = _
  rw [tail_total, pick0_val, pick1_val, pickIf_val, modes_val, W2_arg6]; rfl

end Cert.KernelIdeal.Frame

end
-- ==== Proof.LibTileSums.lean ====
/-
  Sums over a tiled axis and over a rank-3 index set, in any additive commutative monoid; no program is mentioned.

  * A sum over an axis of length A · B is the double sum over the A tiles and the B positions inside a tile
    (`sum_tiles`): position j of tile k is the column k · B + j.
  * A sum over the K · L − 1 consecutive steps (t, t + 1) of an axis cut into K tiles of length L is the sum of the
    steps inside the K tiles plus the K − 1 steps that straddle two tiles (`sum_consecutive_split_gen`, stated with
    K + 1 tiles of length L = L' + 1 so that no subtraction appears).
  * A sum over a rank-3 index set is the triple sum over the coordinates (`sum_idx3`).
  Only commutativity and associativity of addition are used.
-/
import Idealize.ShloMosaic.Lib.ValueIdx

noncomputable section

open scoped BigOperators

namespace Cert.LibTileSums

open Idealize.ShloMosaic Idealize.ShloMosaic.ValueIdx

variable {M : Type*} [AddCommMonoid M]

/-! ## A tiled axis -/

/-- Column `j` of tile `k`, of `A` tiles of length `B`, is a column of the whole axis. -/
theorem tile_lt {A B : ℕ} (k : Fin A) (j : Fin B) : k.val * B + j.val < A * B :=
  calc k.val * B + j.val < k.val * B + B := Nat.add_lt_add_left j.isLt _
    _ = (k.val + 1) * B := (Nat.succ_mul _ _).symm
    _ ≤ A * B := Nat.mul_le_mul_right B k.isLt

/-- A sum over an axis of length `A * B` is the sum over the `A` tiles of the sums over each tile's `B` columns. -/
theorem sum_tiles (A B : ℕ) (f : Fin (A * B) → M) :
    ∑ t : Fin (A * B), f t = ∑ k : Fin A, ∑ j : Fin B, f ⟨k.val * B + j.val, tile_lt k j⟩ := by
  rw [← Equiv.sum_comp (finProdFinEquiv (m := A) (n := B)) f, Fintype.sum_prod_type]
  refine Finset.sum_congr rfl fun k _ => Finset.sum_congr rfl fun j _ => congrArg f (Fin.ext ?_)
  show j.val + B * k.val = k.val * B + j.val
  rw [Nat.mul_comm, Nat.add_comm]

/-- The consecutive pairs `(t, t + 1)` of an axis cut into `K + 1` tiles of length `L = L' + 1`: the pair starting at
    `t = k * L + j` lies inside tile `k` when `j < L'`, and straddles tiles `k` and `k + 1` when `j = L'`. So a sum
    over all `K * L + L'` pairs is the sum of the inside ones, tile by tile, plus the `K` straddling ones. By induction
    on the number of tiles: one more tile adds one straddling pair and then `L'` inside ones. -/
theorem sum_consecutive_split_gen (f : ℕ → M) (L L' : ℕ) (hL : L = L' + 1) (K : ℕ) :
    ∑ t ∈ Finset.range (K * L + L'), f t
      = (∑ k ∈ Finset.range (K + 1), ∑ j ∈ Finset.range L', f (k * L + j)) + ∑ k ∈ Finset.range K, f (k * L + L') := by
  induction K with
  | zero =>
    rw [Nat.zero_mul, Nat.zero_add, Finset.sum_range_one, Finset.range_zero, Finset.sum_empty, add_zero]
    exact Finset.sum_congr rfl fun j _ => by rw [Nat.zero_mul, Nat.zero_add]
  | succ K ih =>
    have h1 : (K + 1) * L + L' = (K * L + L') + (L' + 1) := by rw [Nat.succ_mul, hL]; omega
    have h2 : ∑ x ∈ Finset.range (L' + 1), f (K * L + L' + x)
        = (∑ j ∈ Finset.range L', f ((K + 1) * L + j)) + f (K * L + L') := by
      rw [Finset.sum_range_succ', Nat.add_zero]
      refine congrArg (· + _) (Finset.sum_congr rfl fun j _ => congrArg f ?_)
      rw [Nat.succ_mul, hL]; omega
    rw [h1, Finset.sum_range_add, ih, h2,
      Finset.sum_range_succ (fun k => ∑ j ∈ Finset.range L', f (k * L + j)) (K + 1),
      Finset.sum_range_succ (fun k => f (k * L + L')) K, add_add_add_comm]

/-! ## A rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibTileSums

end
-- ==== Proof.RefSums.lean ====
/-
  The reference's four host sums, each shown equal to the tile-arranged sum of the shared specification.

  The reference adds up whole arrays; the specification adds the same terms tile by tile (the time axis of 262144
  columns cut into 16 tiles of 16384 or 64 tiles of 4096) and, for the consecutive differences, separates those inside
  a tile from the 63 that straddle two tiles. Only commutativity and associativity of addition on the extended reals are
  used: no finiteness of any term is needed.
-/
import proofs.«167376_j249108103965_2_alg».proof.Proof.Gen.ReferenceIdeal
import proofs.«167376_j249108103965_2_alg».proof.Proof.LossSpec
import proofs.«167376_j249108103965_2_alg».proof.Proof.LibTileSums
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.LossSpec Cert.LibTileSums Idealize.ShloMosaic Idealize.ShloMosaic.ValueIdx

/-! ## The consecutive steps of the 64 tiles of 4096 columns -/

section Algebra
variable {M : Type*} [AddCommMonoid M]

/-- The 262143 consecutive pairs of an axis of 64 tiles of 4096 columns: 4095 inside each tile, 63 straddling. -/
theorem sum_consecutive_split (f : ℕ → M) :
    ∑ t ∈ Finset.range (64 * 4096 - 1), f t
      = (∑ k ∈ Finset.range 64, ∑ j ∈ Finset.range 4095, f (k * 4096 + j)) + ∑ k ∈ Finset.range 63, f (k * 4096 + 4095) :=
  sum_consecutive_split_gen f 4096 4095 rfl 63

end Algebra

/-! ## The tiled axis at the two tile lengths -/

section Tiles
variable {M : Type*} [AddCommMonoid M]

/-- A sum over the 262144 columns, as 16 tiles of 16384. -/
theorem sum_col16 (f : Fin 262144 → M) : ∑ t : Fin 262144, f t = ∑ k : Fin 16, ∑ j : Fin 16384, f (col16 k j) :=
  sum_tiles 16 16384 f

/-- A sum over the 262144 columns, as 64 tiles of 4096. -/
theorem sum_col64 (f : Fin 262144 → M) : ∑ t : Fin 262144, f t = ∑ k : Fin 64, ∑ j : Fin 4096, f (col64 k j) :=
  sum_tiles 64 4096 f

end Tiles

/-! ## The reconstruction sum -/

/-- The sum of squared differences over the whole [8, 262144] array, arranged as the specification's tiles. -/
theorem ref_sq (a c : FVec Ideal S8x262144 .f32) :
    Host.reduceAdd (F := Ideal) (mulf (subf a c) (subf a c)) (constant (F := Ideal) S_ .f32 0x00000000#32)
      reducesTo_S8x262144_S_d0_1 h_S_ = fun _ => sqDiff a c := by
  funext i
  refine (Ideal.hostReduceAdd_total reducesTo_S8x262144_S_d0_1 (fun b => b.elim0) (mulf (subf a c) (subf a c)) _ i).trans ?_
  refine (congrArg (· + _) Ideal.ofBits_zero_f32).trans ?_
  refine (zero_add _).trans ?_
  refine (sum_idx2 _).trans ?_
  refine (Finset.sum_congr rfl fun b _ => sum_col16 _).trans ?_
  exact Finset.sum_comm

/-! ## The mode mask -/

/-- The mask as the reference spells it: the integer mask compared with the constant 1, the bit read as a number. -/
def refMask (mk : Vec Ideal S8x8 .i32) : FVec Ideal S8x8 .f32 :=
  uitofp .f32 (cmpi .eq mk (broadcastInDim S8x8 ![] bcast_S_S8x8 (constantI S_ 32 1#32)))

/-- At an entry it is 1 where the integer is exactly 1 and 0 elsewhere. -/
theorem refMask_apply (mk : Vec Ideal S8x8 .i32) (b n : Fin 8) : refMask mk (ix2 b n) = maskf mk b n := by
  have hc : broadcastInDim S8x8 ![] bcast_S_S8x8 (constantI S_ 32 1#32) (ix2 b n) = 1#32 :=
    broadcastInDim_apply _ bcast_S_S8x8 (constantI S_ 32 1#32) (ix2 b n) ix0 (fun a => a.elim0)
  show ((( IntOp.cmpi .eq (mk (ix2 b n)) (broadcastInDim S8x8 ![] bcast_S_S8x8 (constantI S_ 32 1#32) (ix2 b n))).toNat : ℝ) : EReal)
      = maskf mk b n
  rw [hc]
  unfold maskf
  by_cases h : mk (ix2 b n) = 1#32
  · rw [if_pos h, h]; simp [IntOp.cmpi]
  · rw [if_neg h]
    have : (mk (ix2 b n) == 1#32) = false := by simpa using h
    simp [IntOp.cmpi, this]

/-! ## The smoothness sum of one mode -/

/-- The squared difference between columns `t + 1` and `t` of mode (b, n), as a function of every natural `t`
    (zero past the last pair), so that sums of it can be cut and re-indexed over the naturals. -/
def sqStep (e : A3) (b n : Fin 8) (t : ℕ) : EReal :=
  if h : t + 1 < 262144 then
    (e (ix3 b n ⟨t + 1, h⟩) - e (ix3 b n ⟨t, Nat.lt_of_succ_lt h⟩)) * (e (ix3 b n ⟨t + 1, h⟩) - e (ix3 b n ⟨t, Nat.lt_of_succ_lt h⟩))
  else 0

/-- Whenever `u` is column `t + 1` and `v` is column `t`, it is the squared difference of the array at those columns. -/
theorem sqStep_eq (e : A3) (b n : Fin 8) (t : ℕ) (u v : Fin 262144) (hu : u.val = t + 1) (hv : v.val = t) :
    sqStep e b n t = (e (ix3 b n u) - e (ix3 b n v)) * (e (ix3 b n u) - e (ix3 b n v)) := by
  have h : t + 1 < 262144 := hu ▸ u.isLt
  obtain rfl : u = ⟨t + 1, h⟩ := Fin.ext hu
  obtain rfl : v = ⟨t, Nat.lt_of_succ_lt h⟩ := Fin.ext hv
  exact dif_pos h

/-- The specification's smoothness sum of a mode is the sum of the squared steps over the tiles' inside pairs plus the
    straddling pairs. -/
theorem modeSum_eq (e : A3) (b n : Fin 8) :
    modeSum e b n = (∑ k ∈ Finset.range 64, ∑ j ∈ Finset.range 4095, sqStep e b n (k * 4096 + j))
      + ∑ k ∈ Finset.range 63, sqStep e b n (k * 4096 + 4095) := by
  unfold modeSum
  rw [Finset.sum_range (fun k => ∑ j ∈ Finset.range 4095, sqStep e b n (k * 4096 + j)),
    Finset.sum_range (fun k => sqStep e b n (k * 4096 + 4095))]
  refine congr (congrArg _ (Finset.sum_congr rfl fun k _ => ?_)) (Finset.sum_congr rfl fun k _ => ?_)
  · unfold intra
    rw [Finset.sum_range (fun j => sqStep e b n (k.val * 4096 + j))]
    exact Finset.sum_congr rfl fun j _ => (sqStep_eq e b n _ _ _ rfl rfl).symm
  · unfold bnd
    exact (sqStep_eq e b n _ _ _ (by simp only [col64_val]; omega) rfl).symm

/-- The sum, for each mode, of the squared consecutive differences along the time axis, arranged as the
    specification's tiles. -/
theorem ref_mode_apply (e : FVec Ideal S8x8x262144 .f32) (b n : Fin 8) :
    Host.reduceAdd (F := Ideal)
        (mulf (subf (extractStridedSlice S8x8x262143 ![0, 0, 1] e slices_S8x8x262144_S8x8x262143_0_0_1)
                (extractStridedSlice S8x8x262143 ![0, 0, 0] e slices_S8x8x262144_S8x8x262143_0_0_0))
          (subf (extractStridedSlice S8x8x262143 ![0, 0, 1] e slices_S8x8x262144_S8x8x262143_0_0_1)
                (extractStridedSlice S8x8x262143 ![0, 0, 0] e slices_S8x8x262144_S8x8x262143_0_0_0)))
        (constant (F := Ideal) S_ .f32 0x00000000#32) reducesTo_S8x8x262143_S8x8_d2 h_S_ (ix2 b n) = modeSum e b n := by
  have hR : S8x8x262143.Reduces [2] S8x8 := by decide
  refine (Ideal.hostReduceAdd_single reducesTo_S8x8x262143_S8x8_d2 hR _ _ (ix2 b n)).trans ?_
  refine (congrArg (· + _) Ideal.ofBits_zero_f32).trans ?_
  refine (zero_add _).trans ?_
  refine Eq.trans ?_ ((sum_consecutive_split (sqStep e b n)).trans (modeSum_eq e b n).symm)
  refine Eq.trans ?_ (Finset.sum_range (sqStep e b n)).symm
  refine Finset.sum_congr rfl fun (k : Fin 262143) _ => ?_
  have hk : hR.lift (ix2 b n) k = ix3 b n k :=
    funext fun a => Fin.ext (by match a with | ⟨0, _⟩ => rfl | ⟨1, _⟩ => rfl | ⟨2, _⟩ => rfl)
  refine (congrArg (fun j => mulf (subf (extractStridedSlice S8x8x262143 ![0, 0, 1] e slices_S8x8x262144_S8x8x262143_0_0_1)
                (extractStridedSlice S8x8x262143 ![0, 0, 0] e slices_S8x8x262144_S8x8x262143_0_0_0))
          (subf (extractStridedSlice S8x8x262143 ![0, 0, 1] e slices_S8x8x262144_S8x8x262143_0_0_1)
                (extractStridedSlice S8x8x262143 ![0, 0, 0] e slices_S8x8x262144_S8x8x262143_0_0_0)) j) hk).trans ?_
  have hk1 : k.val + 1 < 262144 := Nat.succ_lt_succ k.isLt
  have h1 : extractStridedSlice S8x8x262143 ![0, 0, 1] e slices_S8x8x262144_S8x8x262143_0_0_1 (ix3 b n k)
      = e (ix3 b n ⟨k.val + 1, hk1⟩) :=
    extractStridedSlice_apply ![0, 0, 1] e slices_S8x8x262144_S8x8x262143_0_0_1 (ix3 b n k) (ix3 b n ⟨k.val + 1, hk1⟩)
      (fun a => match a with
        | ⟨0, _⟩ => by show b.val = 0 + b.val; omega
        | ⟨1, _⟩ => by show n.val = 0 + n.val; omega
        | ⟨2, _⟩ => by show k.val + 1 = 1 + k.val; omega)
  have h0 : extractStridedSlice S8x8x262143 ![0, 0, 0] e slices_S8x8x262144_S8x8x262143_0_0_0 (ix3 b n k)
      = e (ix3 b n ⟨k.val, Nat.lt_of_succ_lt hk1⟩) :=
    extractStridedSlice_apply ![0, 0, 0] e slices_S8x8x262144_S8x8x262143_0_0_0 (ix3 b n k) (ix3 b n ⟨k.val, Nat.lt_of_succ_lt hk1⟩)
      (fun a => match a with
        | ⟨0, _⟩ => by show b.val = 0 + b.val; omega
        | ⟨1, _⟩ => by show n.val = 0 + n.val; omega
        | ⟨2, _⟩ => by show k.val = 0 + k.val; omega)
  show (extractStridedSlice S8x8x262143 ![0, 0, 1] e slices_S8x8x262144_S8x8x262143_0_0_1 (ix3 b n k)
        - extractStridedSlice S8x8x262143 ![0, 0, 0] e slices_S8x8x262144_S8x8x262143_0_0_0 (ix3 b n k))
      * (extractStridedSlice S8x8x262143 ![0, 0, 1] e slices_S8x8x262144_S8x8x262143_0_0_1 (ix3 b n k)
        - extractStridedSlice S8x8x262143 ![0, 0, 0] e slices_S8x8x262144_S8x8x262143_0_0_0 (ix3 b n k)) = _
  rw [h1, h0]
  exact (sqStep_eq e b n k.val _ _ rfl rfl).symm

/-- The same as an equation of [8, 8] arrays. -/
theorem ref_mode (e : FVec Ideal S8x8x262144 .f32) :
    Host.reduceAdd (F := Ideal)
        (mulf (subf (extractStridedSlice S8x8x262143 ![0, 0, 1] e slices_S8x8x262144_S8x8x262143_0_0_1)
                (extractStridedSlice S8x8x262143 ![0, 0, 0] e slices_S8x8x262144_S8x8x262143_0_0_0))
          (subf (extractStridedSlice S8x8x262143 ![0, 0, 1] e slices_S8x8x262144_S8x8x262143_0_0_1)
                (extractStridedSlice S8x8x262143 ![0, 0, 0] e slices_S8x8x262144_S8x8x262143_0_0_0)))
        (constant (F := Ideal) S_ .f32 0x00000000#32) reducesTo_S8x8x262143_S8x8_d2 h_S_
      = fun i => modeSum e (i 0) (i 1) := by
  funext i
  obtain ⟨b, n, rfl⟩ : ∃ b n : Fin 8, i = ix2 b n := ⟨i 0, i 1, eq_ix2 i⟩
  exact ref_mode_apply e b n

/-! ## The instantaneous-frequency sum -/

/-- A difference of two products by a common factor that is 0 or 1 is the product of the difference by it. On the
    extended reals this holds for every pair, infinite values included, because the factor is 0 or 1: at 0 both sides
    are 0, at 1 both sides are the difference. -/
theorem mul_sub_mul_of_zero_or_one (x y v : EReal) (hv : v = 0 ∨ v = 1) : x * v - y * v = (x - y) * v := by
  rcases hv with rfl | rfl
  · rw [mul_zero, mul_zero, mul_zero, sub_zero]
  · rw [mul_one, mul_one, mul_one]

/-- The mask is 0 or 1 at every entry. -/
theorem maskf_zero_or_one (mk : Mk) (b n : Fin 8) : maskf mk b n = 0 ∨ maskf mk b n = 1 := by
  unfold maskf
  by_cases h : mk (ix2 b n) = 1#32
  · exact Or.inr (if_pos h)
  · exact Or.inl (if_neg h)

/-- The mask spread along the time axis, as the reference spells it: [8, 8] to [8, 8, 1] to [8, 8, 262144]. -/
def bmask (mk : Vec Ideal S8x8 .i32) : FVec Ideal S8x8x262144 .f32 :=
  broadcastInDim S8x8x262144 ![0, 1, 2] bcast_S8x8x1_S8x8x262144_0_1_2
    (broadcastInDim S8x8x1 ![0, 1] bcast_S8x8_S8x8x1_0_1 (refMask mk))

/-- At every column of mode (b, n) it is that mode's mask value. -/
theorem bmask_apply (mk : Vec Ideal S8x8 .i32) (b n : Fin 8) (t : Fin 262144) : bmask mk (ix3 b n t) = maskf mk b n := by
  have h1 : bmask mk (ix3 b n t)
      = broadcastInDim S8x8x1 ![0, 1] bcast_S8x8_S8x8x1_0_1 (refMask mk) (ix3 b n (⟨0, Nat.one_pos⟩ : Fin 1)) :=
    broadcastInDim_apply _ bcast_S8x8x1_S8x8x262144_0_1_2 _ (ix3 b n t) (ix3 b n (⟨0, Nat.one_pos⟩ : Fin 1)) (fun a => match a with
      | ⟨0, _⟩ => by show b.val = if (8 : Nat) = 1 then 0 else b.val; rw [if_neg (by decide)]
      | ⟨1, _⟩ => by show n.val = if (8 : Nat) = 1 then 0 else n.val; rw [if_neg (by decide)]
      | ⟨2, _⟩ => by show 0 = if (1 : Nat) = 1 then 0 else t.val; rw [if_pos rfl])
  have h2 : broadcastInDim S8x8x1 ![0, 1] bcast_S8x8_S8x8x1_0_1 (refMask mk) (ix3 b n (⟨0, Nat.one_pos⟩ : Fin 1))
      = refMask mk (ix2 b n) :=
    broadcastInDim_apply _ bcast_S8x8_S8x8x1_0_1 _ (ix3 b n (⟨0, Nat.one_pos⟩ : Fin 1)) (ix2 b n) (fun a => match a with
      | ⟨0, _⟩ => by show b.val = if (8 : Nat) = 1 then 0 else b.val; rw [if_neg (by decide)]
      | ⟨1, _⟩ => by show n.val = if (8 : Nat) = 1 then 0 else n.val; rw [if_neg (by decide)])
  exact h1.trans (h2.trans (refMask_apply mk b n))

/-- The sum over the whole [8, 8, 262144] array of the squared masked difference, arranged as the specification's tiles.
    The reference masks the two arrays separately and subtracts; the specification subtracts and then masks. -/
theorem ref_if (e g : FVec Ideal S8x8x262144 .f32) (mk : Vec Ideal S8x8 .i32) :
    Host.reduceAdd (F := Ideal)
        (mulf (subf (mulf e (bmask mk)) (mulf g (bmask mk))) (subf (mulf e (bmask mk)) (mulf g (bmask mk))))
        (constant (F := Ideal) S_ .f32 0x00000000#32) reducesTo_S8x8x262144_S_d0_1_2 h_S_ = fun _ => ifSum e g mk := by
  funext i
  refine (Ideal.hostReduceAdd_total reducesTo_S8x8x262144_S_d0_1_2 (fun b => b.elim0)
    (mulf (subf (mulf e (bmask mk)) (mulf g (bmask mk))) (subf (mulf e (bmask mk)) (mulf g (bmask mk)))) _ i).trans ?_
  refine (congrArg (· + _) Ideal.ofBits_zero_f32).trans ?_
  refine (zero_add _).trans ?_
  refine (sum_idx3 _).trans ?_
  have hpt : ∀ (b n : Fin 8) (t : Fin 262144),
      (mulf (subf (mulf e (bmask mk)) (mulf g (bmask mk))) (subf (mulf e (bmask mk)) (mulf g (bmask mk)))) (ix3 b n t)
        = ((e (ix3 b n t) - g (ix3 b n t)) * maskf mk b n) * ((e (ix3 b n t) - g (ix3 b n t)) * maskf mk b n) := by
    intro b n t
    show (e (ix3 b n t) * bmask mk (ix3 b n t) - g (ix3 b n t) * bmask mk (ix3 b n t))
        * (e (ix3 b n t) * bmask mk (ix3 b n t) - g (ix3 b n t) * bmask mk (ix3 b n t)) = _
    rw [bmask_apply, mul_sub_mul_of_zero_or_one _ _ _ (maskf_zero_or_one mk b n)]
  refine (Finset.sum_congr rfl fun b _ => Finset.sum_congr rfl fun n _ =>
    (Finset.sum_congr rfl fun t _ => hpt b n t).trans (sum_col64 _)).trans ?_
  refine (Finset.sum_congr rfl fun b _ => Finset.sum_comm).trans ?_
  exact Finset.sum_comm

/-- The same with the mask and its spreading written out in full. -/
theorem ref_if_spelt (e g : FVec Ideal S8x8x262144 .f32) (mk : Vec Ideal S8x8 .i32) :
    Host.reduceAdd (F := Ideal)
        (mulf
          (subf
            (mulf e (broadcastInDim S8x8x262144 ![0, 1, 2] bcast_S8x8x1_S8x8x262144_0_1_2 (broadcastInDim S8x8x1 ![0, 1] bcast_S8x8_S8x8x1_0_1
              (uitofp .f32 (cmpi .eq mk (broadcastInDim S8x8 ![] bcast_S_S8x8 (constantI S_ 32 1#32)))))))
            (mulf g (broadcastInDim S8x8x262144 ![0, 1, 2] bcast_S8x8x1_S8x8x262144_0_1_2 (broadcastInDim S8x8x1 ![0, 1] bcast_S8x8_S8x8x1_0_1
              (uitofp .f32 (cmpi .eq mk (broadcastInDim S8x8 ![] bcast_S_S8x8 (constantI S_ 32 1#32))))))))
          (subf
            (mulf e (broadcastInDim S8x8x262144 ![0, 1, 2] bcast_S8x8x1_S8x8x262144_0_1_2 (broadcastInDim S8x8x1 ![0, 1] bcast_S8x8_S8x8x1_0_1
              (uitofp .f32 (cmpi .eq mk (broadcastInDim S8x8 ![] bcast_S_S8x8 (constantI S_ 32 1#32)))))))
            (mulf g (broadcastInDim S8x8x262144 ![0, 1, 2] bcast_S8x8x1_S8x8x262144_0_1_2 (broadcastInDim S8x8x1 ![0, 1] bcast_S8x8_S8x8x1_0_1
              (uitofp .f32 (cmpi .eq mk (broadcastInDim S8x8 ![] bcast_S_S8x8 (constantI S_ 32 1#32)))))))))
        (constant (F := Ideal) S_ .f32 0x00000000#32) reducesTo_S8x8x262144_S_d0_1_2 h_S_ = fun _ => ifSum e g mk :=
  ref_if e g mk

end Cert.ReferenceIdeal.RefValue

end
-- ==== Proof.lean ====
/-
  The certificate: a loss made of three parts — the mean squared error of the real and imaginary parts of a
  reconstruction, the mean squared error of a masked instantaneous-frequency estimate, and a smoothness term, each
  mode's mean squared consecutive difference averaged over the masked modes — computed by two tiled kernels with
  running accumulators (and, for the smoothness term, the previous tile's last column carried from one grid point to
  the next), against a reference that computes the same sums over whole arrays.

  Every float is read as an extended real. The two programs end with the same host operations applied to four sums;
  the kernels' accumulated sums and the reference's whole-array sums are the same numbers, because a sum over the time
  axis is the sum over tiles of the sums inside each tile, the consecutive differences are those inside a tile plus
  those across two tiles, and, the mask being 0 or 1, e·v − g·v = (e − g)·v on all extended reals. Only commutativity
  and associativity of addition are used: the precondition is never opened.

  The frames: each kernel program runs to the end without a fault and leaves its arguments unchanged (the run of its
  two regions and host operations, at the word-level instance and at the ideal one); the reference's is its run.
-/
import proofs.«167376_j249108103965_2_alg».proof.Defs
import proofs.«167376_j249108103965_2_alg».proof.Proof.Gen.Kernel
import proofs.«167376_j249108103965_2_alg».proof.Proof.Gen.KernelIdeal
import proofs.«167376_j249108103965_2_alg».proof.Proof.Gen.ReferenceIdeal
import proofs.«167376_j249108103965_2_alg».proof.Proof.Gen.Pre_finite_inputs
import proofs.«167376_j249108103965_2_alg».proof.Proof.Kernel.Run
import proofs.«167376_j249108103965_2_alg».proof.Proof.KernelIdeal.Run
import proofs.«167376_j249108103965_2_alg».proof.Proof.Bridge
import proofs.«167376_j249108103965_2_alg».proof.Proof.RefRun
import proofs.«167376_j249108103965_2_alg».proof.Proof.RefSums

set_option maxRecDepth 16384

noncomputable section

namespace Cert.Proof

open Idealize.ShloMosaic Idealize.ShloMosaic.TcCoe Idealize.SL.Sem
open Cert.KernelIdeal.Frame Cert.ReferenceIdeal.RefValue

theorem frame_k : @Cert.frame_Kernel Cert.Kernel.Gen.facts Cert.Pre_finite_inputs.Gen.facts := fun m ρ _ =>
  (θ_run Cert.Kernel.defs _ _).mono (fun _ h c => (h c).2.2.2.2) (Cert.Kernel.Frame.run_results (F := Bits) m ρ)

theorem frame_ki : @Cert.frame_KernelIdeal Cert.KernelIdeal.Gen.facts Cert.Pre_finite_inputs.Gen.facts := fun m ρ _ =>
  (θ_run Cert.KernelIdeal.defs _ _).mono (fun _ h c => (h c).2.2.2.2) (Cert.KernelIdeal.Frame.run_results (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2) (Cert.ReferenceIdeal.ValueP.run (F := Ideal) m ρ)

theorem preserves : Cert.preserves_Kernel_KernelIdeal := trivial

set_option maxHeartbeats 4000000 in
/-- Both idealized programs, from memories agreeing on the arguments, end with the four results at the same functions of
    the argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => totalOf m c, fun c => reconOf m c, fun c => ifOf m c, fun c => smoothOf m c, ?_, ?_⟩
  · exact (θ_run Cert.KernelIdeal.defs _ _).mono
      (fun _ h c => ⟨(h c).1.trans (total_val m ρ c), (h c).2.1.trans (recon_val m ρ c), (h c).2.2.1.trans (if_val m ρ c),
        (h c).2.2.2.1.trans (smooth_val m ρ c), (h c).2.2.2.2⟩)
      (Cert.KernelIdeal.Frame.run_results (F := Ideal) m ρ)
  · refine (θ_run Cert.ReferenceIdeal.defs _ _).mono (fun _ h c => ⟨?_, ?_, ?_, ?_, (h c).2.2.2.2⟩)
      (Cert.ReferenceIdeal.ValueP.run (F := Ideal) m' ρ')
    · rw [(h c).1, (hagree c).1, (hagree c).2.1, (hagree c).2.2.1, (hagree c).2.2.2.1, (hagree c).2.2.2.2.1, (hagree c).2.2.2.2.2.1, (hagree c).2.2.2.2.2.2, ref_sq, ref_sq, ref_if_spelt, ref_mode]
      rfl
    · rw [(h c).2.1, (hagree c).1, (hagree c).2.1, (hagree c).2.2.1, (hagree c).2.2.2.1, ref_sq, ref_sq]
      rfl
    · rw [(h c).2.2.1, (hagree c).2.2.2.2.1, (hagree c).2.2.2.2.2.1, (hagree c).2.2.2.2.2.2, ref_if_spelt]
      rfl
    · rw [(h c).2.2.2.1, (hagree c).2.2.2.2.1, (hagree c).2.2.2.2.2.2, ref_mode]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
